-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v214) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x512 : Shape := ⟨2, ![32768, 512]⟩
abbrev S1536x512 : Shape := ⟨2, ![1536, 512]⟩
abbrev S1536 : Shape := ⟨1, ![1536]⟩
abbrev S512x512 : Shape := ⟨2, ![512, 512]⟩
abbrev S512 : Shape := ⟨1, ![512]⟩
abbrev S1024x512 : Shape := ⟨2, ![1024, 512]⟩
abbrev S1024 : Shape := ⟨1, ![1024]⟩
abbrev S512x1024 : Shape := ⟨2, ![512, 1024]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel
  bcast_S_S1536x512 : S_.BroadcastsInDim S1536x512 (![] : Fin 0 → Fin S1536x512.rank)
  reducesTo_S1536x512_S_d0_1 : S1536x512.ReducesTo [0, 1] S_
  bcast_S_S1536 : S_.BroadcastsInDim S1536 (![] : Fin 0 → Fin S1536.rank)
  reducesTo_S1536_S_d0 : S1536.ReducesTo [0] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S1024x512 : S_.BroadcastsInDim S1024x512 (![] : Fin 0 → Fin S1024x512.rank)
  reducesTo_S1024x512_S_d0_1 : S1024x512.ReducesTo [0, 1] S_
  bcast_S_S1024 : S_.BroadcastsInDim S1024 (![] : Fin 0 → Fin S1024.rank)
  reducesTo_S1024_S_d0 : S1024.ReducesTo [0] S_
  bcast_S_S512x1024 : S_.BroadcastsInDim S512x1024 (![] : Fin 0 → Fin S512x1024.rank)
  reducesTo_S512x1024_S_d0_1 : S512x1024.ReducesTo [0, 1] S_

variable [Facts]

def fn_part7 {F : FTy → Type} [FloatOps F] (main_arg25 : FVec F S512 .f32) (main_v118 : IVec S_ 1) (main_v119 : FVec F S512x1024 .f32) : IVec S_ 1 :=
  let main_cst_46 : FVec F S_ .f32 := constant S_ .f32 0x7F800000#32
  let main_v120 : FVec F S512x1024 .f32 := broadcastInDim S512x1024 ![] bcast_S_S512x1024 main_cst_46
  let main_v121 : IVec S512x1024 1 := cmpf .olt main_v119 main_v120
  let main_c_47 : IVec S_ 1 := constantI S_ 1 1#1
  let main_v122 : IVec S_ 1 := (fun x v => Host.reduce IntOp.andi x v reducesTo_S512x1024_S_d0_1 h_S_) main_v121 main_c_47
  let main_v123 : IVec S_ 1 := andi main_v118 main_v122
  let main_v124 : FVec F S512 .f32 := Host.absf main_arg25
  let main_cst_48 : FVec F S_ .f32 := constant S_ .f32 0x7F800000#32
  let main_v125 : FVec F S512 .f32 := broadcastInDim S512 ![] bcast_S_S512 main_cst_48
  let main_v126 : IVec S512 1 := cmpf .olt main_v124 main_v125
  let main_c_49 : IVec S_ 1 := constantI S_ 1 1#1
  let main_v127 : IVec S_ 1 := (fun x v => Host.reduce IntOp.andi x v reducesTo_S512_S_d0 h_S_) main_v126 main_c_49
  let main_v128 : IVec S_ 1 := andi main_v123 main_v127
  main_v128

def fn_part6 {F : FTy → Type} [FloatOps F] (main_arg21 : FVec F S512 .f32) (main_arg22 : FVec F S1024x512 .f32) (main_arg23 : FVec F S1024 .f32) (main_arg24 : FVec F S512x1024 .f32) (main_arg25 : FVec F S512 .f32) (main_v98 : IVec S_ 1) (main_v101 : IVec S512x1024 1) (main_c_39 : IVec S_ 1) : IVec S_ 1 :=
  let main_v102 : IVec S_ 1 := (fun x v => Host.reduce IntOp.andi x v reducesTo_S512x1024_S_d0_1 h_S_) main_v101 main_c_39
  let main_v103 : IVec S_ 1 := andi main_v98 main_v102
  let main_v104 : FVec F S512 .f32 := Host.absf main_arg21
  let main_cst_40 : FVec F S_ .f32 := constant S_ .f32 0x7F800000#32
  let main_v105 : FVec F S512 .f32 := broadcastInDim S512 ![] bcast_S_S512 main_cst_40
  let main_v106 : IVec S512 1 := cmpf .olt main_v104 main_v105
  let main_c_41 : IVec S_ 1 := constantI S_ 1 1#1
  let main_v107 : IVec S_ 1 := (fun x v => Host.reduce IntOp.andi x v reducesTo_S512_S_d0 h_S_) main_v106 main_c_41
  let main_v108 : IVec S_ 1 := andi main_v103 main_v107
  let main_v109 : FVec F S1024x512 .f32 := Host.absf main_arg22
  let main_cst_42 : FVec F S_ .f32 := constant S_ .f32 0x7F800000#32
  let main_v110 : FVec F S1024x512 .f32 := broadcastInDim S1024x512 ![] bcast_S_S1024x512 main_cst_42
  let main_v111 : IVec S1024x512 1 := cmpf .olt main_v109 main_v110
  let main_c_43 : IVec S_ 1 := constantI S_ 1 1#1
  let main_v112 : IVec S_ 1 := (fun x v => Host.reduce IntOp.andi x v reducesTo_S1024x512_S_d0_1 h_S_) main_v111 main_c_43
  let main_v113 : IVec S_ 1 := andi main_v108 main_v112
  let main_v114 : FVec F S1024 .f32 := Host.absf main_arg23
  let main_cst_44 : FVec F S_ .f32 := constant S_ .f32 0x7F800000#32
  let main_v115 : FVec F S1024 .f32 := broadcastInDim S1024 ![] bcast_S_S1024 main_cst_44
  let main_v116 : IVec S1024 1 := cmpf .olt main_v114 main_v115
  let main_c_45 : IVec S_ 1 := constantI S_ 1 1#1
  let main_v117 : IVec S_ 1 := (fun x v => Host.reduce IntOp.andi x v reducesTo_S1024_S_d0 h_S_) main_v116 main_c_45
  let main_v118 : IVec S_ 1 := andi main_v113 main_v117
  let main_v119 : FVec F S512x1024 .f32 := Host.absf main_arg24
  fn_part7 (F := F) main_arg25 main_v118 main_v119

def fn_part5 {F : FTy → Type} [FloatOps F] (main_arg18 : FVec F S1024x512 .f32) (main_arg19 : FVec F S1024 .f32) (main_arg20 : FVec F S512x1024 .f32) (main_arg21 : FVec F S512 .f32) (main_arg22 : FVec F S1024x512 .f32) (main_arg23 : FVec F S1024 .f32) (main_arg24 : FVec F S512x1024 .f32) (main_arg25 : FVec F S512 .f32) (main_v83 : IVec S_ 1) (main_v84 : FVec F S512 .f32) (main_cst_32 : FVec F S_ .f32) : IVec S_ 1 :=
  let main_v85 : FVec F S512 .f32 := broadcastInDim S512 ![] bcast_S_S512 main_cst_32
  let main_v86 : IVec S512 1 := cmpf .olt main_v84 main_v85
  let main_c_33 : IVec S_ 1 := constantI S_ 1 1#1
  let main_v87 : IVec S_ 1 := (fun x v => Host.reduce IntOp.andi x v reducesTo_S512_S_d0 h_S_) main_v86 main_c_33
  let main_v88 : IVec S_ 1 := andi main_v83 main_v87
  let main_v89 : FVec F S1024x512 .f32 := Host.absf main_arg18
  let main_cst_34 : FVec F S_ .f32 := constant S_ .f32 0x7F800000#32
  let main_v90 : FVec F S1024x512 .f32 := broadcastInDim S1024x512 ![] bcast_S_S1024x512 main_cst_34
  let main_v91 : IVec S1024x512 1 := cmpf .olt main_v89 main_v90
  let main_c_35 : IVec S_ 1 := constantI S_ 1 1#1
  let main_v92 : IVec S_ 1 := (fun x v => Host.reduce IntOp.andi x v reducesTo_S1024x512_S_d0_1 h_S_) main_v91 main_c_35
  let main_v93 : IVec S_ 1 := andi main_v88 main_v92
  let main_v94 : FVec F S1024 .f32 := Host.absf main_arg19
  let main_cst_36 : FVec F S_ .f32 := constant S_ .f32 0x7F800000#32
  let main_v95 : FVec F S1024 .f32 := broadcastInDim S1024 ![] bcast_S_S1024 main_cst_36
  let main_v96 : IVec S1024 1 := cmpf .olt main_v94 main_v95
  let main_c_37 : IVec S_ 1 := constantI S_ 1 1#1
  let main_v97 : IVec S_ 1 := (fun x v => Host.reduce IntOp.andi x v reducesTo_S1024_S_d0 h_S_) main_v96 main_c_37
  let main_v98 : IVec S_ 1 := andi main_v93 main_v97
  let main_v99 : FVec F S512x1024 .f32 := Host.absf main_arg20
  let main_cst_38 : FVec F S_ .f32 := constant S_ .f32 0x7F800000#32
  let main_v100 : FVec F S512x1024 .f32 := broadcastInDim S512x1024 ![] bcast_S_S512x1024 main_cst_38
  let main_v101 : IVec S512x1024 1 := cmpf .olt main_v99 main_v100
  let main_c_39 : IVec S_ 1 := constantI S_ 1 1#1
  fn_part6 (F := F) main_arg21 main_arg22 main_arg23 main_arg24 main_arg25 main_v98 main_v101 main_c_39

def fn_part4 {F : FTy → Type} [FloatOps F] (main_arg14 : FVec F S512 .f32) (main_arg15 : FVec F S512 .f32) (main_arg16 : FVec F S512 .f32) (main_arg17 : FVec F S512 .f32) (main_arg18 : FVec F S1024x512 .f32) (main_arg19 : FVec F S1024 .f32) (main_arg20 : FVec F S512x1024 .f32) (main_arg21 : FVec F S512 .f32) (main_arg22 : FVec F S1024x512 .f32) (main_arg23 : FVec F S1024 .f32) (main_arg24 : FVec F S512x1024 .f32) (main_arg25 : FVec F S512 .f32) (main_v63 : IVec S_ 1) (main_v67 : IVec S_ 1) : IVec S_ 1 :=
  let main_v68 : IVec S_ 1 := andi main_v63 main_v67
  let main_v69 : FVec F S512 .f32 := Host.absf main_arg14
  let main_cst_26 : FVec F S_ .f32 := constant S_ .f32 0x7F800000#32
  let main_v70 : FVec F S512 .f32 := broadcastInDim S512 ![] bcast_S_S512 main_cst_26
  let main_v71 : IVec S512 1 := cmpf .olt main_v69 main_v70
  let main_c_27 : IVec S_ 1 := constantI S_ 1 1#1
  let main_v72 : IVec S_ 1 := (fun x v => Host.reduce IntOp.andi x v reducesTo_S512_S_d0 h_S_) main_v71 main_c_27
  let main_v73 : IVec S_ 1 := andi main_v68 main_v72
  let main_v74 : FVec F S512 .f32 := Host.absf main_arg15
  let main_cst_28 : FVec F S_ .f32 := constant S_ .f32 0x7F800000#32
  let main_v75 : FVec F S512 .f32 := broadcastInDim S512 ![] bcast_S_S512 main_cst_28
  let main_v76 : IVec S512 1 := cmpf .olt main_v74 main_v75
  let main_c_29 : IVec S_ 1 := constantI S_ 1 1#1
  let main_v77 : IVec S_ 1 := (fun x v => Host.reduce IntOp.andi x v reducesTo_S512_S_d0 h_S_) main_v76 main_c_29
  let main_v78 : IVec S_ 1 := andi main_v73 main_v77
  let main_v79 : FVec F S512 .f32 := Host.absf main_arg16
  let main_cst_30 : FVec F S_ .f32 := constant S_ .f32 0x7F800000#32
  let main_v80 : FVec F S512 .f32 := broadcastInDim S512 ![] bcast_S_S512 main_cst_30
  let main_v81 : IVec S512 1 := cmpf .olt main_v79 main_v80
  let main_c_31 : IVec S_ 1 := constantI S_ 1 1#1
  let main_v82 : IVec S_ 1 := (fun x v => Host.reduce IntOp.andi x v reducesTo_S512_S_d0 h_S_) main_v81 main_c_31
  let main_v83 : IVec S_ 1 := andi main_v78 main_v82
  let main_v84 : FVec F S512 .f32 := Host.absf main_arg17
  let main_cst_32 : FVec F S_ .f32 := constant S_ .f32 0x7F800000#32
  fn_part5 (F := F) main_arg18 main_arg19 main_arg20 main_arg21 main_arg22 main_arg23 main_arg24 main_arg25 main_v83 main_v84 main_cst_32

def fn_part3 {F : FTy → Type} [FloatOps F] (main_arg11 : FVec F S512 .f32) (main_arg12 : FVec F S512 .f32) (main_arg13 : FVec F S512 .f32) (main_arg14 : FVec F S512 .f32) (main_arg15 : FVec F S512 .f32) (main_arg16 : FVec F S512 .f32) (main_arg17 : FVec F S512 .f32) (main_arg18 : FVec F S1024x512 .f32) (main_arg19 : FVec F S1024 .f32) (main_arg20 : FVec F S512x1024 .f32) (main_arg21 : FVec F S512 .f32) (main_arg22 : FVec F S1024x512 .f32) (main_arg23 : FVec F S1024 .f32) (main_arg24 : FVec F S512x1024 .f32) (main_arg25 : FVec F S512 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512 .f32 := Host.absf main_arg11
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S512 .f32 := Host.absf main_arg12
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_v64 : FVec F S512 .f32 := Host.absf main_arg13
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_arg14 main_arg15 main_arg16 main_arg17 main_arg18 main_arg19 main_arg20 main_arg21 main_arg22 main_arg23 main_arg24 main_arg25 main_v63 main_v67

def fn_part2 {F : FTy → Type} [FloatOps F] (main_arg7 : FVec F S1536 .f32) (main_arg8 : FVec F S512x512 .f32) (main_arg9 : FVec F S512 .f32) (main_arg10 : FVec F S512 .f32) (main_arg11 : FVec F S512 .f32) (main_arg12 : FVec F S512 .f32) (main_arg13 : FVec F S512 .f32) (main_arg14 : FVec F S512 .f32) (main_arg15 : FVec F S512 .f32) (main_arg16 : FVec F S512 .f32) (main_arg17 : FVec F S512 .f32) (main_arg18 : FVec F S1024x512 .f32) (main_arg19 : FVec F S1024 .f32) (main_arg20 : FVec F S512x1024 .f32) (main_arg21 : FVec F S512 .f32) (main_arg22 : FVec F S1024x512 .f32) (main_arg23 : FVec F S1024 .f32) (main_arg24 : FVec F S512x1024 .f32) (main_arg25 : FVec F S512 .f32) (main_v33 : IVec S_ 1) : IVec S_ 1 :=
  let main_v34 : FVec F S1536 .f32 := Host.absf main_arg7
  let main_cst_12 : FVec F S_ .f32 := constant S_ .f32 0x7F800000#32
  let main_v35 : FVec F S1536 .f32 := broadcastInDim S1536 ![] bcast_S_S1536 main_cst_12
  let main_v36 : IVec S1536 1 := cmpf .olt main_v34 main_v35
  let main_c_13 : IVec S_ 1 := constantI S_ 1 1#1
  let main_v37 : IVec S_ 1 := (fun x v => Host.reduce IntOp.andi x v reducesTo_S1536_S_d0 h_S_) main_v36 main_c_13
  let main_v38 : IVec S_ 1 := andi main_v33 main_v37
  let main_v39 : FVec F S512x512 .f32 := Host.absf main_arg8
  let main_cst_14 : FVec F S_ .f32 := constant S_ .f32 0x7F800000#32
  let main_v40 : FVec F S512x512 .f32 := broadcastInDim S512x512 ![] bcast_S_S512x512 main_cst_14
  let main_v41 : IVec S512x512 1 := cmpf .olt main_v39 main_v40
  let main_c_15 : IVec S_ 1 := constantI S_ 1 1#1
  let main_v42 : IVec S_ 1 := (fun x v => Host.reduce IntOp.andi x v reducesTo_S512x512_S_d0_1 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_arg11 main_arg12 main_arg13 main_arg14 main_arg15 main_arg16 main_arg17 main_arg18 main_arg19 main_arg20 main_arg21 main_arg22 main_arg23 main_arg24 main_arg25 main_v48 main_v49 main_v50

def fn_part1 {F : FTy → Type} [FloatOps F] (main_arg4 : FVec F S512x512 .f32) (main_arg5 : FVec F S512 .f32) (main_arg6 : FVec F S1536x512 .f32) (main_arg7 : FVec F S1536 .f32) (main_arg8 : FVec F S512x512 .f32) (main_arg9 : FVec F S512 .f32) (main_arg10 : FVec F S512 .f32) (main_arg11 : FVec F S512 .f32) (main_arg12 : FVec F S512 .f32) (main_arg13 : FVec F S512 .f32) (main_arg14 : FVec F S512 .f32) (main_arg15 : FVec F S512 .f32) (main_arg16 : FVec F S512 .f32) (main_arg17 : FVec F S512 .f32) (main_arg18 : FVec F S1024x512 .f32) (main_arg19 : FVec F S1024 .f32) (main_arg20 : FVec F S512x1024 .f32) (main_arg21 : FVec F S512 .f32) (main_arg22 : FVec F S1024x512 .f32) (main_arg23 : FVec F S1024 .f32) (main_arg24 : FVec F S512x1024 .f32) (main_arg25 : FVec F S512 .f32) (main_v13 : IVec S_ 1) (main_v16 : IVec S1536 1) : IVec S_ 1 :=
  let main_c_5 : IVec S_ 1 := constantI S_ 1 1#1
  let main_v17 : IVec S_ 1 := (fun x v => Host.reduce IntOp.andi x v reducesTo_S1536_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S1536x512 .f32 := Host.absf main_arg6
  let main_cst_10 : FVec F S_ .f32 := constant S_ .f32 0x7F800000#32
  let main_v30 : FVec F S1536x512 .f32 := broadcastInDim S1536x512 ![] bcast_S_S1536x512 main_cst_10
  let main_v31 : IVec S1536x512 1 := cmpf .olt main_v29 main_v30
  let main_c_11 : IVec S_ 1 := constantI S_ 1 1#1
  let main_v32 : IVec S_ 1 := (fun x v => Host.reduce IntOp.andi x v reducesTo_S1536x512_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_v33

def fn {F : FTy → Type} [FloatOps F] (main_arg0 : FVec F S32768x512 .f32) (main_arg1 : FVec F S32768x512 .f32) (main_arg2 : FVec F S1536x512 .f32) (main_arg3 : FVec F S1536 .f32) (main_arg4 : FVec F S512x512 .f32) (main_arg5 : FVec F S512 .f32) (main_arg6 : FVec F S1536x512 .f32) (main_arg7 : FVec F S1536 .f32) (main_arg8 : FVec F S512x512 .f32) (main_arg9 : FVec F S512 .f32) (main_arg10 : FVec F S512 .f32) (main_arg11 : FVec F S512 .f32) (main_arg12 : FVec F S512 .f32) (main_arg13 : FVec F S512 .f32) (main_arg14 : FVec F S512 .f32) (main_arg15 : FVec F S512 .f32) (main_arg16 : FVec F S512 .f32) (main_arg17 : FVec F S512 .f32) (main_arg18 : FVec F S1024x512 .f32) (main_arg19 : FVec F S1024 .f32) (main_arg20 : FVec F S512x1024 .f32) (main_arg21 : FVec F S512 .f32) (main_arg22 : FVec F S1024x512 .f32) (main_arg23 : FVec F S1024 .f32) (main_arg24 : FVec F S512x1024 .f32) (main_arg25 : FVec F S512 .f32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S32768x512 .f32 := Host.absf main_arg1
  let main_cst_0 : FVec F S_ .f32 := constant S_ .f32 0x7F800000#32
  let main_v5 : FVec F S32768x512 .f32 := broadcastInDim S32768x512 ![] bcast_S_S32768x512 main_cst_0
  let main_v6 : IVec S32768x512 1 := cmpf .olt main_v4 main_v5
  let main_c_1 : IVec S_ 1 := constantI S_ 1 1#1
  let main_v7 : IVec S_ 1 := (fun x v => Host.reduce IntOp.andi x v reducesTo_S32768x512_S_d0_1 h_S_) main_v6 main_c_1
  let main_v8 : IVec S_ 1 := andi main_v3 main_v7
  let main_v9 : FVec F S1536x512 .f32 := Host.absf main_arg2
  let main_cst_2 : FVec F S_ .f32 := constant S_ .f32 0x7F800000#32
  let main_v10 : FVec F S1536x512 .f32 := broadcastInDim S1536x512 ![] bcast_S_S1536x512 main_cst_2
  let main_v11 : IVec S1536x512 1 := cmpf .olt main_v9 main_v10
  let main_c_3 : IVec S_ 1 := constantI S_ 1 1#1
  let main_v12 : IVec S_ 1 := (fun x v => Host.reduce IntOp.andi x v reducesTo_S1536x512_S_d0_1 h_S_) main_v11 main_c_3
  let main_v13 : IVec S_ 1 := andi main_v8 main_v12
  let main_v14 : FVec F S1536 .f32 := Host.absf main_arg3
  let main_cst_4 : FVec F S_ .f32 := constant S_ .f32 0x7F800000#32
  let main_v15 : FVec F S1536 .f32 := broadcastInDim S1536 ![] bcast_S_S1536 main_cst_4
  let main_v16 : IVec S1536 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S32768x512 : Shape := ⟨2, ![32768, 512]⟩
abbrev S1536x512 : Shape := ⟨2, ![1536, 512]⟩
abbrev S1536 : Shape := ⟨1, ![1536]⟩
abbrev S512x512 : Shape := ⟨2, ![512, 512]⟩
abbrev S512 : Shape := ⟨1, ![512]⟩
abbrev S1024x512 : Shape := ⟨2, ![1024, 512]⟩
abbrev S1024 : Shape := ⟨1, ![1024]⟩
abbrev S512x1024 : Shape := ⟨2, ![512, 1024]⟩
abbrev S32768x1024 : Shape := ⟨2, ![32768, 1024]⟩
abbrev S1x512 : Shape := ⟨2, ![1, 512]⟩
abbrev S512x1 : Shape := ⟨2, ![512, 1]⟩
abbrev S1x1024 : Shape := ⟨2, ![1, 1024]⟩

abbrev nBuf : Space → Nat
  | .hbm => 39
  | .vmem => 30
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S1536x512, .f32⟩
  | .hbm, ⟨3, _⟩ => ⟨S1536, .f32⟩
  | .hbm, ⟨4, _⟩ => ⟨S512x512, .f32⟩
  | .hbm, ⟨5, _⟩ => ⟨S512, .f32⟩
  | .hbm, ⟨6, _⟩ => ⟨S1536x512, .f32⟩
  | .hbm, ⟨7, _⟩ => ⟨S1536, .f32⟩
  | .hbm, ⟨8, _⟩ => ⟨S512x512, .f32⟩
  | .hbm, ⟨9, _⟩ => ⟨S512, .f32⟩
  | .hbm, ⟨10, _⟩ => ⟨S512, .f32⟩
  | .hbm, ⟨11, _⟩ => ⟨S512, .f32⟩
  | .hbm, ⟨12, _⟩ => ⟨S512, .f32⟩
  | .hbm, ⟨13, _⟩ => ⟨S512, .f32⟩
  | .hbm, ⟨14, _⟩ => ⟨S512, .f32⟩
  | .hbm, ⟨15, _⟩ => ⟨S512, .f32⟩
  | .hbm, ⟨16, _⟩ => ⟨S512, .f32⟩
  | .hbm, ⟨17, _⟩ => ⟨S512, .f32⟩
  | .hbm, ⟨18, _⟩ => ⟨S1024x512, .f32⟩
  | .hbm, ⟨19, _⟩ => ⟨S1024, .f32⟩
  | .hbm, ⟨20, _⟩ => ⟨S512x1024, .f32⟩
  | .hbm, ⟨21, _⟩ => ⟨S512, .f32⟩
  | .hbm, ⟨22, _⟩ => ⟨S1024x512, .f32⟩
  | .hbm, ⟨23, _⟩ => ⟨S1024, .f32⟩
  | .hbm, ⟨24, _⟩ => ⟨S512x1024, .f32⟩
  | .hbm, ⟨25, _⟩ => ⟨S512, .f32⟩
  | .hbm, ⟨26, _⟩ => ⟨S512x512, .f32⟩
  | .hbm, ⟨27, _⟩ => ⟨S512x512, .bf16⟩
  | .hbm, ⟨28, _⟩ => ⟨S512, .f32⟩
  | .hbm, ⟨29, _⟩ => ⟨S512x512, .bf16⟩
  | .hbm, ⟨30, _⟩ => ⟨S512x512, .f32⟩
  | .hbm, ⟨31, _⟩ => ⟨S512x512, .bf16⟩
  | .hbm, ⟨32, _⟩ => ⟨S512, .f32⟩
  | .hbm, ⟨33, _⟩ => ⟨S512x512, .bf16⟩
  | .hbm, ⟨34, _⟩ => ⟨S1024x512, .bf16⟩
  | .hbm, ⟨35, _⟩ => ⟨S512x1024, .bf16⟩
  | .hbm, ⟨36, _⟩ => ⟨S1024x512, .bf16⟩
  | .hbm, ⟨37, _⟩ => ⟨S512x1024, .bf16⟩
  | .hbm, ⟨38, _⟩ => ⟨S32768x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .bf16⟩
  | .local _ .vmem, ⟨5, _⟩ => ⟨S512, .f32⟩
  | .local _ .vmem, ⟨6, _⟩ => ⟨S512x512, .bf16⟩
  | .local _ .vmem, ⟨7, _⟩ => ⟨S512, .f32⟩
  | .local _ .vmem, ⟨8, _⟩ => ⟨S512, .f32⟩
  | .local _ .vmem, ⟨9, _⟩ => ⟨S512, .f32⟩
  | .local _ .vmem, ⟨10, _⟩ => ⟨S512, .f32⟩
  | .local _ .vmem, ⟨11, _⟩ => ⟨S512, .f32⟩
  | .local _ .vmem, ⟨12, _⟩ => ⟨S1024x512, .bf16⟩
  | .local _ .vmem, ⟨13, _⟩ => ⟨S1024, .f32⟩
  | .local _ .vmem, ⟨14, _⟩ => ⟨S512x1024, .bf16⟩
  | .local _ .vmem, ⟨15, _⟩ => ⟨S512, .f32⟩
  | .local _ .vmem, ⟨16, _⟩ => ⟨S512x512, .bf16⟩
  | .local _ .vmem, ⟨17, _⟩ => ⟨S512, .f32⟩
  | .local _ .vmem, ⟨18, _⟩ => ⟨S512x512, .bf16⟩
  | .local _ .vmem, ⟨19, _⟩ => ⟨S512, .f32⟩
  | .local _ .vmem, ⟨20, _⟩ => ⟨S512, .f32⟩
  | .local _ .vmem, ⟨21, _⟩ => ⟨S512, .f32⟩
  | .local _ .vmem, ⟨22, _⟩ => ⟨S512, .f32⟩
  | .local _ .vmem, ⟨23, _⟩ => ⟨S512, .f32⟩
  | .local _ .vmem, ⟨24, _⟩ => ⟨S1024x512, .bf16⟩
  | .local _ .vmem, ⟨25, _⟩ => ⟨S1024, .f32⟩
  | .local _ .vmem, ⟨26, _⟩ => ⟨S512x1024, .bf16⟩
  | .local _ .vmem, ⟨27, _⟩ => ⟨S512, .f32⟩
  | .local _ .vmem, ⟨28, _⟩ => ⟨S512x1024, .f32⟩
  | .local _ .vmem, ⟨29, _⟩ => ⟨S512x1024, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg20_0 : Ref sig .tc := ⟨.vmem, 22, rfl⟩
abbrev cc0_stg21_0 : Ref sig .tc := ⟨.vmem, 23, rfl⟩
abbrev cc0_stg22_0 : Ref sig .tc := ⟨.vmem, 24, rfl⟩
abbrev cc0_stg23_0 : Ref sig .tc := ⟨.vmem, 25, rfl⟩
abbrev cc0_stg24_0 : Ref sig .tc := ⟨.vmem, 26, rfl⟩
abbrev cc0_stg25_0 : Ref sig .tc := ⟨.vmem, 27, rfl⟩
abbrev cc0_stg26_0 : Ref sig .tc := ⟨.vmem, 28, rfl⟩
abbrev cc0_stg26_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem20_0 : DmaSem sig := 22
abbrev cc0_sem21_0 : DmaSem sig := 23
abbrev cc0_sem22_0 : DmaSem sig := 24
abbrev cc0_sem23_0 : DmaSem sig := 25
abbrev cc0_sem24_0 : DmaSem sig := 26
abbrev cc0_sem25_0 : DmaSem sig := 27
abbrev cc0_sem26_0 : DmaSem sig := 28
abbrev cc0_sem26_1 : DmaSem sig := 29

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_18 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_19 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_20 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_21 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S512x512 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1024x512 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S512x1024 .bf16 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S512 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 2 → Memref sig .tc .vmem S512x1024 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

class Facts₀ : Prop where
  slices_S1536x512_S512x512_1024_0 : S1536x512.Slices ![1024, 0] S512x512
  bitsLt_bf16_f32 : FTy.bits .bf16 < FTy.bits .f32
  slices_S1536_S512_1024 : S1536.Slices ![1024] S512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512_S512_0 : ∀ a, (![0] : Fin 1 → Nat) a + S512.size a ≤ S512.size a
  h_S512 : 0 < S512.numel
  shapeCasts_S512_S512 : S512.ShapeCasts S512
  shapeCasts_S512_S1x512 : S512.ShapeCasts S1x512
  broadcasts_S1x512_S512x512 : S1x512.Broadcasts S512x512
  reduces_S512x512_S512 : S512x512.Reduces [1] S512
  shapeCasts_S512_S512x1 : S512.ShapeCasts S512x1
  broadcasts_S512x1_S512x512 : S512x1.Broadcasts S512x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512x1024_S512x512_0_0 : ∀ a, (![0, 0] : Fin 2 → Nat) a + S512x512.size a ≤ S512x1024.size a
  inb_S512x1024_S512x512_0_512 : ∀ a, (![0, 512] : Fin 2 → Nat) a + S512x512.size a ≤ S512x1024.size a
  dot_S512x512_S512x512_S512x512_1_1_0_0_n_n_wf : DotDims.WF S512x512 S512x512 S512x512 [1] [1] [0] [0] [] []
  dot_S512x512_S1024x512_S512x1024_1_1_0_0_n_n_wf : DotDims.WF S512x512 S1024x512 S512x1024 [1] [1] [0] [0] [] []
  dot_S512x1024_S512x1024_S512x512_1_1_0_0_n_n_wf : DotDims.WF S512x1024 S512x1024 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S32768x512.size a
  hwx0_0 : ∀ i : grid0.Coords, EltTy.bits .f32 = 32 ∨ (Rect.block (s := S32768x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S32768x512.size a
  hwx0_1 : ∀ i : grid0.Coords, EltTy.bits .f32 = 32 ∨ (Rect.block (s := S32768x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S512.size a
  hwx0_3 : ∀ i : grid0.Coords, EltTy.bits .f32 = 32 ∨ (Rect.block (s := S512) S512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .bf16 = 32 ∨ (Rect.block (s := S512x512) S512x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512.size a ≤ S512.size a
  hwx0_6 : ∀ i : grid0.Coords, EltTy.bits .f32 = 32 ∨ (Rect.block (s := S512) S512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512.size a ≤ S512.size a
  hwx0_7 : ∀ i : grid0.Coords, EltTy.bits .f32 = 32 ∨ (Rect.block (s := S512) S512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512.size a ≤ S512.size a
  hwx0_8 : ∀ i : grid0.Coords, EltTy.bits .f32 = 32 ∨ (Rect.block (s := S512) S512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512.size a ≤ S512.size a
  hwx0_9 : ∀ i : grid0.Coords, EltTy.bits .f32 = 32 ∨ (Rect.block (s := S512) S512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1024x512.size a ≤ S1024x512.size a
  hwx0_10 : ∀ i : grid0.Coords, EltTy.bits .bf16 = 32 ∨ (Rect.block (s := S1024x512) S1024x512.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1024.size a ≤ S1024.size a
  hwx0_11 : ∀ i : grid0.Coords, EltTy.bits .f32 = 32 ∨ (Rect.block (s := S1024) S1024.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S512x1024.size a ≤ S512x1024.size a
  hwx0_12 : ∀ i : grid0.Coords, EltTy.bits .bf16 = 32 ∨ (Rect.block (s := S512x1024) S512x1024.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S512.size a ≤ S512.size a
  hwx0_13 : ∀ i : grid0.Coords, EltTy.bits .f32 = 32 ∨ (Rect.block (s := S512) S512.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S512x512.size a ≤ S512x512.size a
  hwx0_14 : ∀ i : grid0.Coords, EltTy.bits .bf16 = 32 ∨ (Rect.block (s := S512x512) S512x512.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S512.size a ≤ S512.size a
  hwx0_15 : ∀ i : grid0.Coords, EltTy.bits .f32 = 32 ∨ (Rect.block (s := S512) S512.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S512x512.size a ≤ S512x512.size a
  hwx0_16 : ∀ i : grid0.Coords, EltTy.bits .bf16 = 32 ∨ (Rect.block (s := S512x512) S512x512.size (cc0_transform_16 i) (hinb0_16 i)).WholeWords (EltTy.packing .bf16)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S512.size a ≤ S512.size a
  hwx0_17 : ∀ i : grid0.Coords, EltTy.bits .f32 = 32 ∨ (Rect.block (s := S512) S512.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S512.size a ≤ S512.size a
  hwx0_18 : ∀ i : grid0.Coords, EltTy.bits .f32 = 32 ∨ (Rect.block (s := S512) S512.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S512.size a ≤ S512.size a
  hwx0_19 : ∀ i : grid0.Coords, EltTy.bits .f32 = 32 ∨ (Rect.block (s := S512) S512.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S512.size a ≤ S512.size a
  hwx0_20 : ∀ i : grid0.Coords, EltTy.bits .f32 = 32 ∨ (Rect.block (s := S512) S512.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S512.size a ≤ S512.size a
  hwx0_21 : ∀ i : grid0.Coords, EltTy.bits .f32 = 32 ∨ (Rect.block (s := S512) S512.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S1024x512.size a ≤ S1024x512.size a
  hwx0_22 : ∀ i : grid0.Coords, EltTy.bits .bf16 = 32 ∨ (Rect.block (s := S1024x512) S1024x512.size (cc0_transform_22 i) (hinb0_22 i)).WholeWords (EltTy.packing .bf16)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S1024.size a ≤ S1024.size a
  hwx0_23 : ∀ i : grid0.Coords, EltTy.bits .f32 = 32 ∨ (Rect.block (s := S1024) S1024.size (cc0_transform_23 i) (hinb0_23 i)).WholeWords (EltTy.packing .f32)
  hstage0_24 : ∀ j, (stage0_24 j).IsWhole
  nbuf0_24 : grid0.bufCount reads0_24 true = 1
  hreads0_24 : ∀ i i' : grid0.Coords, (∀ a, reads0_24 a = true → i a = i' a) → cc0_transform_24 i = cc0_transform_24 i'
  hinb0_24 : ∀ (i : grid0.Coords) a, (cc0_transform_24 i a + 1) * S512x1024.size a ≤ S512x1024.size a
  hwx0_24 : ∀ i : grid0.Coords, EltTy.bits .bf16 = 32 ∨ (Rect.block (s := S512x1024) S512x1024.size (cc0_transform_24 i) (hinb0_24 i)).WholeWords (EltTy.packing .bf16)
  hstage0_25 : ∀ j, (stage0_25 j).IsWhole
  nbuf0_25 : grid0.bufCount reads0_25 true = 1
  hreads0_25 : ∀ i i' : grid0.Coords, (∀ a, reads0_25 a = true → i a = i' a) → cc0_transform_25 i = cc0_transform_25 i'
  hinb0_25 : ∀ (i : grid0.Coords) a, (cc0_transform_25 i a + 1) * S512.size a ≤ S512.size a
  hwx0_25 : ∀ i : grid0.Coords, EltTy.bits .f32 = 32 ∨ (Rect.block (s := S512) S512.size (cc0_transform_25 i) (hinb0_25 i)).WholeWords (EltTy.packing .f32)
  hstage0_26 : ∀ j, (stage0_26 j).IsWhole
  nbuf0_26 : grid0.bufCount reads0_26 false = 2
  hreads0_26 : ∀ i i' : grid0.Coords, (∀ a, reads0_26 a = true → i a = i' a) → cc0_transform_26 i = cc0_transform_26 i'
  hinb0_26 : ∀ (i : grid0.Coords) a, (cc0_transform_26 i a + 1) * S512x1024.size a ≤ S32768x1024.size a
  hwx0_26 : ∀ i : grid0.Coords, EltTy.bits .f32 = 32 ∨ (Rect.block (s := S32768x1024) S512x1024.size (cc0_transform_26 i) (hinb0_26 i)).WholeWords (EltTy.packing .f32)

variable [Facts₀]

def dot_S512x512_S512x512_S512x512_1_1_0_0_n_n : DotDims S512x512 S512x512 S512x512 where
  lhsContracting := [1]
  rhsContracting := [1]
  lhsNonContracting := [0]
  rhsNonContracting := [0]
  lhsBatch := []
  rhsBatch := []
  wf := dot_S512x512_S512x512_S512x512_1_1_0_0_n_n_wf
def dot_S512x512_S1024x512_S512x1024_1_1_0_0_n_n : DotDims S512x512 S1024x512 S512x1024 where
  lhsContracting := [1]
  rhsContracting := [1]
  lhsNonContracting := [0]
  rhsNonContracting := [0]
  lhsBatch := []
  rhsBatch := []
  wf := dot_S512x512_S1024x512_S512x1024_1_1_0_0_n_n_wf
def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg10) S512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg11) S512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg14) S512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg15) S512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v8) S1024x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg19) S1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v9) S512x1024.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg21) S512.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v5) S512x512.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v6) S512.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v7) S512x512.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg9) S512.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg12) S512.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg13) S512.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_arg16) S512.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_arg17) S512.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v10) S1024x512.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_arg23) S1024.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_v11) S512x1024.size cc0_transform_24 reads0_24 false true 1 stage0_24 sem0_24
    hrank0 hreads0_24 hinb0_24 nbuf0_24 (Memref.isWhole_whole _) hwx0_24 hstage0_24

abbrev win0_25 : Pipeline.Window sig grid0 :=
  Pipeline.Window.ofSpec (Memref.whole main_arg25) S512.size cc0_transform_25 reads0_25 false true 1 stage0_25 sem0_25
    hrank0 hreads0_25 hinb0_25 nbuf0_25 (Memref.isWhole_whole _) hwx0_25 hstage0_25

abbrev win0_26 : Pipeline.Window sig grid0 :=
  Pipeline.Window.ofSpec (Memref.whole main_v12) S512x1024.size cc0_transform_26 reads0_26 true false 2 stage0_26 sem0_26
    hrank0 hreads0_26 hinb0_26 nbuf0_26 (Memref.isWhole_whole _) hwx0_26 hstage0_26

abbrev win0 : Fin 27 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | ⟨_ + 27, h⟩ => absurd h (Nat.not_lt.2 (Nat.le_add_left _ _))
abbrev spec0 : Fin 27 → Pipeline.WinSpec sig grid0.rank := fun w => (win0 w).toWinSpec

class Facts : Prop extends Facts₀ where

variable [Facts]
-- ==== ReferenceIdeal.lean ====
abbrev S32768x512 : Shape := ⟨2, ![32768, 512]⟩
abbrev S1536x512 : Shape := ⟨2, ![1536, 512]⟩
abbrev S1536 : Shape := ⟨1, ![1536]⟩
abbrev S512x512 : Shape := ⟨2, ![512, 512]⟩
abbrev S512 : Shape := ⟨1, ![512]⟩
abbrev S1024x512 : Shape := ⟨2, ![1024, 512]⟩
abbrev S1024 : Shape := ⟨1, ![1024]⟩
abbrev S512x1024 : Shape := ⟨2, ![512, 1024]⟩
abbrev S1x512 : Shape := ⟨2, ![1, 512]⟩
abbrev S32768x8x64 : Shape := ⟨3, ![32768, 8, 64]⟩
abbrev S_ : Shape := ⟨0, ![]⟩
abbrev S32768x8 : Shape := ⟨2, ![32768, 8]⟩
abbrev S32768x8x1 : Shape := ⟨3, ![32768, 8, 1]⟩
abbrev S32768 : Shape := ⟨1, ![32768]⟩
abbrev S32768x1 : Shape := ⟨2, ![32768, 1]⟩
abbrev S32768x1024 : Shape := ⟨2, ![32768, 1024]⟩
abbrev S1x1024 : Shape := ⟨2, ![1, 1024]⟩

abbrev nBuf : Space → Nat
  | .hbm => 275
  | .vmem => 0
  | .smem => 0
  | _ => 0

abbrev hbmTy0_0 (i : Nat) : BufTy := match i % 128 with
  | 0 => ⟨S32768x512, .f32⟩
  | 1 => ⟨S32768x512, .f32⟩
  | 2 => ⟨S1536x512, .f32⟩
  | 3 => ⟨S1536, .f32⟩
  | 4 => ⟨S512x512, .f32⟩
  | 5 => ⟨S512, .f32⟩
  | 6 => ⟨S1536x512, .f32⟩
  | 7 => ⟨S1536, .f32⟩
  | 8 => ⟨S512x512, .f32⟩
  | 9 => ⟨S512, .f32⟩
  | 10 => ⟨S512, .f32⟩
  | 11 => ⟨S512, .f32⟩
  | 12 => ⟨S512, .f32⟩
  | 13 => ⟨S512, .f32⟩
  | 14 => ⟨S512, .f32⟩
  | 15 => ⟨S512, .f32⟩
  | 16 => ⟨S512, .f32⟩
  | 17 => ⟨S512, .f32⟩
  | 18 => ⟨S1024x512, .f32⟩
  | 19 => ⟨S1024, .f32⟩
  | 20 => ⟨S512x1024, .f32⟩
  | 21 => ⟨S512, .f32⟩
  | 22 => ⟨S1024x512, .f32⟩
  | 23 => ⟨S1024, .f32⟩
  | 24 => ⟨S512x1024, .f32⟩
  | 25 => ⟨S512, .f32⟩
  | 26 => ⟨S512x512, .f32⟩
  | 27 => ⟨S512x512, .f32⟩
  | 28 => ⟨S512x512, .f32⟩
  | 29 => ⟨S512, .f32⟩
  | 30 => ⟨S512, .f32⟩
  | 31 => ⟨S512, .f32⟩
  | 32 => ⟨S512x512, .f32⟩
  | 33 => ⟨S32768x512, .f32⟩
  | 34 => ⟨S1x512, .f32⟩
  | 35 => ⟨S32768x512, .f32⟩
  | 36 => ⟨S32768x512, .f32⟩
  | 37 => ⟨S512x512, .f32⟩
  | 38 => ⟨S32768x512, .f32⟩
  | 39 => ⟨S1x512, .f32⟩
  | 40 => ⟨S32768x512, .f32⟩
  | 41 => ⟨S32768x512, .f32⟩
  | 42 => ⟨S512x512, .f32⟩
  | 43 => ⟨S32768x512, .f32⟩
  | 44 => ⟨S1x512, .f32⟩
  | 45 => ⟨S32768x512, .f32⟩
  | 46 => ⟨S32768x512, .f32⟩
  | 47 => ⟨S32768x8x64, .f32⟩
  | 48 => ⟨S32768x8x64, .f32⟩
  | 49 => ⟨S32768x8x64, .f32⟩
  | 50 => ⟨S32768x8x64, .f32⟩
  | 51 => ⟨S_, .f32⟩
  | 52 => ⟨S32768x8, .f32⟩
  | 53 => ⟨S32768x8x1, .f32⟩
  | 54 => ⟨S_, .f32⟩
  | 55 => ⟨S32768x8x1, .f32⟩
  | 56 => ⟨S32768x8x1, .f32⟩
  | 57 => ⟨S_, .f32⟩
  | 58 => ⟨S32768x8, .f32⟩
  | 59 => ⟨S_, .f32⟩
  | 60 => ⟨S32768x8, .f32⟩
  | 61 => ⟨S32768x8, .f32⟩
  | 62 => ⟨S32768x8x1, .f32⟩
  | 63 => ⟨S32768x8x1, .f32⟩
  | 64 => ⟨S32768x8x1, .f32⟩
  | 65 => ⟨S_, .f32⟩
  | 66 => ⟨S32768x8, .f32⟩
  | 67 => ⟨S32768x8x1, .f32⟩
  | 68 => ⟨S32768x8x1, .f32⟩
  | 69 => ⟨S32768x8x64, .f32⟩
  | 70 => ⟨S32768x8x64, .f32⟩
  | 71 => ⟨S32768x512, .f32⟩
  | 72 => ⟨S512x512, .f32⟩
  | 73 => ⟨S32768x512, .f32⟩
  | 74 => ⟨S1x512, .f32⟩
  | 75 => ⟨S32768x512, .f32⟩
  | 76 => ⟨S32768x512, .f32⟩
  | 77 => ⟨S32768x512, .f32⟩
  | 78 => ⟨S_, .f32⟩
  | 79 => ⟨S32768, .f32⟩
  | 80 => ⟨S32768x1, .f32⟩
  | 81 => ⟨S_, .f32⟩
  | 82 => ⟨S32768x1, .f32⟩
  | 83 => ⟨S32768x1, .f32⟩
  | 84 => ⟨S32768x512, .f32⟩
  | 85 => ⟨S32768x512, .f32⟩
  | 86 => ⟨S32768x512, .f32⟩
  | 87 => ⟨S_, .f32⟩
  | 88 => ⟨S32768, .f32⟩
  | 89 => ⟨S32768x1, .f32⟩
  | 90 => ⟨S_, .f32⟩
  | 91 => ⟨S32768x1, .f32⟩
  | 92 => ⟨S32768x1, .f32⟩
  | 93 => ⟨S32768x512, .f32⟩
  | 94 => ⟨S32768x512, .f32⟩
  | 95 => ⟨S_, .f32⟩
  | 96 => ⟨S32768x1, .f32⟩
  | 97 => ⟨S32768x1, .f32⟩
  | 98 => ⟨S32768x1, .f32⟩
  | 99 => ⟨S32768x512, .f32⟩
  | 100 => ⟨S32768x512, .f32⟩
  | 101 => ⟨S1x512, .f32⟩
  | 102 => ⟨S32768x512, .f32⟩
  | 103 => ⟨S32768x512, .f32⟩
  | 104 => ⟨S1x512, .f32⟩
  | 105 => ⟨S32768x512, .f32⟩
  | 106 => ⟨S32768x512, .f32⟩
  | 107 => ⟨S512x1024, .f32⟩
  | 108 => ⟨S32768x1024, .f32⟩
  | 109 => ⟨S1x1024, .f32⟩
  | 110 => ⟨S32768x1024, .f32⟩
  | 111 => ⟨S32768x1024, .f32⟩
  | 112 => ⟨S_, .f32⟩
  | 113 => ⟨S32768x1024, .f32⟩
  | 114 => ⟨S32768x1024, .f32⟩
  | 115 => ⟨S1024x512, .f32⟩
  | 116 => ⟨S32768x512, .f32⟩
  | 117 => ⟨S1x512, .f32⟩
  | 118 => ⟨S32768x512, .f32⟩
  | 119 => ⟨S32768x512, .f32⟩
  | 120 => ⟨S32768x512, .f32⟩
  | 121 => ⟨S_, .f32⟩
  | 122 => ⟨S32768, .f32⟩
  | 123 => ⟨S32768x1, .f32⟩
  | 124 => ⟨S_, .f32⟩
  | 125 => ⟨S32768x1, .f32⟩
  | 126 => ⟨S32768x1, .f32⟩
  | 127 => ⟨S32768x512, .f32⟩
  | _ => ⟨S32768x512, .f32⟩

abbrev hbmTy0_1 (i : Nat) : BufTy := match i % 128 with
  | 0 => ⟨S32768x512, .f32⟩
  | 1 => ⟨S32768x512, .f32⟩
  | 2 => ⟨S_, .f32⟩
  | 3 => ⟨S32768, .f32⟩
  | 4 => ⟨S32768x1, .f32⟩
  | 5 => ⟨S_, .f32⟩
  | 6 => ⟨S32768x1, .f32⟩
  | 7 => ⟨S32768x1, .f32⟩
  | 8 => ⟨S32768x512, .f32⟩
  | 9 => ⟨S32768x512, .f32⟩
  | 10 => ⟨S_, .f32⟩
  | 11 => ⟨S32768x1, .f32⟩
  | 12 => ⟨S32768x1, .f32⟩
  | 13 => ⟨S32768x1, .f32⟩
  | 14 => ⟨S32768x512, .f32⟩
  | 15 => ⟨S32768x512, .f32⟩
  | 16 => ⟨S1x512, .f32⟩
  | 17 => ⟨S32768x512, .f32⟩
  | 18 => ⟨S32768x512, .f32⟩
  | 19 => ⟨S1x512, .f32⟩
  | 20 => ⟨S32768x512, .f32⟩
  | 21 => ⟨S32768x512, .f32⟩
  | 22 => ⟨S512x512, .f32⟩
  | 23 => ⟨S512x512, .f32⟩
  | 24 => ⟨S512x512, .f32⟩
  | 25 => ⟨S512, .f32⟩
  | 26 => ⟨S512, .f32⟩
  | 27 => ⟨S512, .f32⟩
  | 28 => ⟨S512x512, .f32⟩
  | 29 => ⟨S32768x512, .f32⟩
  | 30 => ⟨S1x512, .f32⟩
  | 31 => ⟨S32768x512, .f32⟩
  | 32 => ⟨S32768x512, .f32⟩
  | 33 => ⟨S512x512, .f32⟩
  | 34 => ⟨S32768x512, .f32⟩
  | 35 => ⟨S1x512, .f32⟩
  | 36 => ⟨S32768x512, .f32⟩
  | 37 => ⟨S32768x512, .f32⟩
  | 38 => ⟨S512x512, .f32⟩
  | 39 => ⟨S32768x512, .f32⟩
  | 40 => ⟨S1x512, .f32⟩
  | 41 => ⟨S32768x512, .f32⟩
  | 42 => ⟨S32768x512, .f32⟩
  | 43 => ⟨S32768x8x64, .f32⟩
  | 44 => ⟨S32768x8x64, .f32⟩
  | 45 => ⟨S32768x8x64, .f32⟩
  | 46 => ⟨S32768x8x64, .f32⟩
  | 47 => ⟨S_, .f32⟩
  | 48 => ⟨S32768x8, .f32⟩
  | 49 => ⟨S32768x8x1, .f32⟩
  | 50 => ⟨S_, .f32⟩
  | 51 => ⟨S32768x8x1, .f32⟩
  | 52 => ⟨S32768x8x1, .f32⟩
  | 53 => ⟨S_, .f32⟩
  | 54 => ⟨S32768x8, .f32⟩
  | 55 => ⟨S_, .f32⟩
  | 56 => ⟨S32768x8, .f32⟩
  | 57 => ⟨S32768x8, .f32⟩
  | 58 => ⟨S32768x8x1, .f32⟩
  | 59 => ⟨S32768x8x1, .f32⟩
  | 60 => ⟨S32768x8x1, .f32⟩
  | 61 => ⟨S_, .f32⟩
  | 62 => ⟨S32768x8, .f32⟩
  | 63 => ⟨S32768x8x1, .f32⟩
  | 64 => ⟨S32768x8x1, .f32⟩
  | 65 => ⟨S32768x8x64, .f32⟩
  | 66 => ⟨S32768x8x64, .f32⟩
  | 67 => ⟨S32768x512, .f32⟩
  | 68 => ⟨S512x512, .f32⟩
  | 69 => ⟨S32768x512, .f32⟩
  | 70 => ⟨S1x512, .f32⟩
  | 71 => ⟨S32768x512, .f32⟩
  | 72 => ⟨S32768x512, .f32⟩
  | 73 => ⟨S32768x512, .f32⟩
  | 74 => ⟨S_, .f32⟩
  | 75 => ⟨S32768, .f32⟩
  | 76 => ⟨S32768x1, .f32⟩
  | 77 => ⟨S_, .f32⟩
  | 78 => ⟨S32768x1, .f32⟩
  | 79 => ⟨S32768x1, .f32⟩
  | 80 => ⟨S32768x512, .f32⟩
  | 81 => ⟨S32768x512, .f32⟩
  | 82 => ⟨S32768x512, .f32⟩
  | 83 => ⟨S_, .f32⟩
  | 84 => ⟨S32768, .f32⟩
  | 85 => ⟨S32768x1, .f32⟩
  | 86 => ⟨S_, .f32⟩
  | 87 => ⟨S32768x1, .f32⟩
  | 88 => ⟨S32768x1, .f32⟩
  | 89 => ⟨S32768x512, .f32⟩
  | 90 => ⟨S32768x512, .f32⟩
  | 91 => ⟨S_, .f32⟩
  | 92 => ⟨S32768x1, .f32⟩
  | 93 => ⟨S32768x1, .f32⟩
  | 94 => ⟨S32768x1, .f32⟩
  | 95 => ⟨S32768x512, .f32⟩
  | 96 => ⟨S32768x512, .f32⟩
  | 97 => ⟨S1x512, .f32⟩
  | 98 => ⟨S32768x512, .f32⟩
  | 99 => ⟨S32768x512, .f32⟩
  | 100 => ⟨S1x512, .f32⟩
  | 101 => ⟨S32768x512, .f32⟩
  | 102 => ⟨S32768x512, .f32⟩
  | 103 => ⟨S512x1024, .f32⟩
  | 104 => ⟨S32768x1024, .f32⟩
  | 105 => ⟨S1x1024, .f32⟩
  | 106 => ⟨S32768x1024, .f32⟩
  | 107 => ⟨S32768x1024, .f32⟩
  | 108 => ⟨S_, .f32⟩
  | 109 => ⟨S32768x1024, .f32⟩
  | 110 => ⟨S32768x1024, .f32⟩
  | 111 => ⟨S1024x512, .f32⟩
  | 112 => ⟨S32768x512, .f32⟩
  | 113 => ⟨S1x512, .f32⟩
  | 114 => ⟨S32768x512, .f32⟩
  | 115 => ⟨S32768x512, .f32⟩
  | 116 => ⟨S32768x512, .f32⟩
  | 117 => ⟨S_, .f32⟩
  | 118 => ⟨S32768, .f32⟩
  | 119 => ⟨S32768x1, .f32⟩
  | 120 => ⟨S_, .f32⟩
  | 121 => ⟨S32768x1, .f32⟩
  | 122 => ⟨S32768x1, .f32⟩
  | 123 => ⟨S32768x512, .f32⟩
  | 124 => ⟨S32768x512, .f32⟩
  | 125 => ⟨S32768x512, .f32⟩
  | 126 => ⟨S_, .f32⟩
  | 127 => ⟨S32768, .f32⟩
  | _ => ⟨S32768x512, .f32⟩

abbrev hbmTy0_2 (i : Nat) : BufTy := match i % 128 with
  | 0 => ⟨S32768x1, .f32⟩
  | 1 => ⟨S_, .f32⟩
  | 2 => ⟨S32768x1, .f32⟩
  | 3 => ⟨S32768x1, .f32⟩
  | 4 => ⟨S32768x512, .f32⟩
  | 5 => ⟨S32768x512, .f32⟩
  | 6 => ⟨S_, .f32⟩
  | 7 => ⟨S32768x1, .f32⟩
  | 8 => ⟨S32768x1, .f32⟩
  | 9 => ⟨S32768x1, .f32⟩
  | 10 => ⟨S32768x512, .f32⟩
  | 11 => ⟨S32768x512, .f32⟩
  | 12 => ⟨S1x512, .f32⟩
  | 13 => ⟨S32768x512, .f32⟩
  | 14 => ⟨S32768x512, .f32⟩
  | 15 => ⟨S1x512, .f32⟩
  | 16 => ⟨S32768x512, .f32⟩
  | 17 => ⟨S32768x512, .f32⟩
  | 18 => ⟨S32768x1024, .f32⟩
  | _ => ⟨S32768x512, .f32⟩

abbrev hbmTy (i : Nat) : BufTy := match i / 128 with
  | 0 => hbmTy0_0 i
  | 1 => hbmTy0_1 i
  | 2 => hbmTy0_2 i
  | _ => ⟨S32768x512, .f32⟩

abbrev bufTy : (tb : Table) → Fin (tcTables nBuf tb) → BufTy
  | .hbm, ⟨i, _⟩ => hbmTy i
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_cst : Ref sig .tc := ⟨.hbm, 51, rfl⟩
abbrev main_v25 : Ref sig .tc := ⟨.hbm, 52, rfl⟩
abbrev main_v26 : Ref sig .tc := ⟨.hbm, 53, rfl⟩
abbrev main_cst_0 : Ref sig .tc := ⟨.hbm, 54, rfl⟩
abbrev main_v27 : Ref sig .tc := ⟨.hbm, 55, rfl⟩
abbrev main_v28 : Ref sig .tc := ⟨.hbm, 56, rfl⟩
abbrev main_cst_1 : Ref sig .tc := ⟨.hbm, 57, rfl⟩
abbrev main_v29 : Ref sig .tc := ⟨.hbm, 58, rfl⟩
abbrev main_cst_2 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_cst_3 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_cst_4 : Ref sig .tc := ⟨.hbm, 78, rfl⟩
abbrev main_v47 : Ref sig .tc := ⟨.hbm, 79, rfl⟩
abbrev main_v48 : Ref sig .tc := ⟨.hbm, 80, rfl⟩
abbrev main_cst_5 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_cst_6 : Ref sig .tc := ⟨.hbm, 87, rfl⟩
abbrev main_v54 : Ref sig .tc := ⟨.hbm, 88, rfl⟩
abbrev main_v55 : Ref sig .tc := ⟨.hbm, 89, rfl⟩
abbrev main_cst_7 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_cst_8 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_call0_cst : Ref sig .tc := ⟨.hbm, 112, rfl⟩
abbrev main_call0_v0 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_cst_9 : Ref sig .tc := ⟨.hbm, 121, rfl⟩
abbrev main_v83 : Ref sig .tc := ⟨.hbm, 122, rfl⟩
abbrev main_v84 : Ref sig .tc := ⟨.hbm, 123, rfl⟩
abbrev main_cst_10 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_cst_11 : Ref sig .tc := ⟨.hbm, 130, rfl⟩
abbrev main_v90 : Ref sig .tc := ⟨.hbm, 131, rfl⟩
abbrev main_v91 : Ref sig .tc := ⟨.hbm, 132, rfl⟩
abbrev main_cst_12 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_cst_13 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_cst_14 : Ref sig .tc := ⟨.hbm, 175, rfl⟩
abbrev main_v132 : Ref sig .tc := ⟨.hbm, 176, rfl⟩
abbrev main_v133 : Ref sig .tc := ⟨.hbm, 177, rfl⟩
abbrev main_cst_15 : Ref sig .tc := ⟨.hbm, 178, rfl⟩
abbrev main_v134 : Ref sig .tc := ⟨.hbm, 179, rfl⟩
abbrev main_v135 : Ref sig .tc := ⟨.hbm, 180, rfl⟩
abbrev main_cst_16 : Ref sig .tc := ⟨.hbm, 181, rfl⟩
abbrev main_v136 : Ref sig .tc := ⟨.hbm, 182, rfl⟩
abbrev main_cst_17 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_cst_18 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_cst_19 : Ref sig .tc := ⟨.hbm, 202, rfl⟩
abbrev main_v154 : Ref sig .tc := ⟨.hbm, 203, rfl⟩
abbrev main_v155 : Ref sig .tc := ⟨.hbm, 204, rfl⟩
abbrev main_cst_20 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_cst_21 : Ref sig .tc := ⟨.hbm, 211, rfl⟩
abbrev main_v161 : Ref sig .tc := ⟨.hbm, 212, rfl⟩
abbrev main_v162 : Ref sig .tc := ⟨.hbm, 213, rfl⟩
abbrev main_cst_22 : Ref sig .tc := ⟨.hbm, 214, rfl⟩
abbrev main_v163 : Ref sig .tc := ⟨.hbm, 215, rfl⟩
abbrev main_v164 : Ref sig .tc := ⟨.hbm, 216, rfl⟩
abbrev main_v165 : Ref sig .tc := ⟨.hbm, 217, rfl⟩
abbrev main_v166 : Ref sig .tc := ⟨.hbm, 218, rfl⟩
abbrev main_cst_23 : Ref sig .tc := ⟨.hbm, 219, rfl⟩
abbrev main_v167 : Ref sig .tc := ⟨.hbm, 220, rfl⟩
abbrev main_v168 : Ref sig .tc := ⟨.hbm, 221, rfl⟩
abbrev main_v169 : Ref sig .tc := ⟨.hbm, 222, rfl⟩
abbrev main_v170 : Ref sig .tc := ⟨.hbm, 223, rfl⟩
abbrev main_v171 : Ref sig .tc := ⟨.hbm, 224, rfl⟩
abbrev main_v172 : Ref sig .tc := ⟨.hbm, 225, rfl⟩
abbrev main_v173 : Ref sig .tc := ⟨.hbm, 226, rfl⟩
abbrev main_v174 : Ref sig .tc := ⟨.hbm, 227, rfl⟩
abbrev main_v175 : Ref sig .tc := ⟨.hbm, 228, rfl⟩
abbrev main_v176 : Ref sig .tc := ⟨.hbm, 229, rfl⟩
abbrev main_v177 : Ref sig .tc := ⟨.hbm, 230, rfl⟩
abbrev main_v178 : Ref sig .tc := ⟨.hbm, 231, rfl⟩
abbrev main_v179 : Ref sig .tc := ⟨.hbm, 232, rfl⟩
abbrev main_v180 : Ref sig .tc := ⟨.hbm, 233, rfl⟩
abbrev main_v181 : Ref sig .tc := ⟨.hbm, 234, rfl⟩
abbrev main_v182 : Ref sig .tc := ⟨.hbm, 235, rfl⟩
abbrev main_call1_cst : Ref sig .tc := ⟨.hbm, 236, rfl⟩
abbrev main_call1_v0 : Ref sig .tc := ⟨.hbm, 237, rfl⟩
abbrev main_v183 : Ref sig .tc := ⟨.hbm, 238, rfl⟩
abbrev main_v184 : Ref sig .tc := ⟨.hbm, 239, rfl⟩
abbrev main_v185 : Ref sig .tc := ⟨.hbm, 240, rfl⟩
abbrev main_v186 : Ref sig .tc := ⟨.hbm, 241, rfl⟩
abbrev main_v187 : Ref sig .tc := ⟨.hbm, 242, rfl⟩
abbrev main_v188 : Ref sig .tc := ⟨.hbm, 243, rfl⟩
abbrev main_v189 : Ref sig .tc := ⟨.hbm, 244, rfl⟩
abbrev main_cst_24 : Ref sig .tc := ⟨.hbm, 245, rfl⟩
abbrev main_v190 : Ref sig .tc := ⟨.hbm, 246, rfl⟩
abbrev main_v191 : Ref sig .tc := ⟨.hbm, 247, rfl⟩
abbrev main_cst_25 : Ref sig .tc := ⟨.hbm, 248, rfl⟩
abbrev main_v192 : Ref sig .tc := ⟨.hbm, 249, rfl⟩
abbrev main_v193 : Ref sig .tc := ⟨.hbm, 250, rfl⟩
abbrev main_v194 : Ref sig .tc := ⟨.hbm, 251, rfl⟩
abbrev main_v195 : Ref sig .tc := ⟨.hbm, 252, rfl⟩
abbrev main_v196 : Ref sig .tc := ⟨.hbm, 253, rfl⟩
abbrev main_cst_26 : Ref sig .tc := ⟨.hbm, 254, rfl⟩
abbrev main_v197 : Ref sig .tc := ⟨.hbm, 255, rfl⟩
abbrev main_v198 : Ref sig .tc := ⟨.hbm, 256, rfl⟩
abbrev main_cst_27 : Ref sig .tc := ⟨.hbm, 257, rfl⟩
abbrev main_v199 : Ref sig .tc := ⟨.hbm, 258, rfl⟩
abbrev main_v200 : Ref sig .tc := ⟨.hbm, 259, rfl⟩
abbrev main_v201 : Ref sig .tc := ⟨.hbm, 260, rfl⟩
abbrev main_v202 : Ref sig .tc := ⟨.hbm, 261, rfl⟩
abbrev main_cst_28 : Ref sig .tc := ⟨.hbm, 262, rfl⟩
abbrev main_v203 : Ref sig .tc := ⟨.hbm, 263, rfl⟩
abbrev main_v204 : Ref sig .tc := ⟨.hbm, 264, rfl⟩
abbrev main_v205 : Ref sig .tc := ⟨.hbm, 265, rfl⟩
abbrev main_v206 : Ref sig .tc := ⟨.hbm, 266, rfl⟩
abbrev main_v207 : Ref sig .tc := ⟨.hbm, 267, rfl⟩
abbrev main_v208 : Ref sig .tc := ⟨.hbm, 268, rfl⟩
abbrev main_v209 : Ref sig .tc := ⟨.hbm, 269, rfl⟩
abbrev main_v210 : Ref sig .tc := ⟨.hbm, 270, rfl⟩
abbrev main_v211 : Ref sig .tc := ⟨.hbm, 271, rfl⟩
abbrev main_v212 : Ref sig .tc := ⟨.hbm, 272, rfl⟩
abbrev main_v213 : Ref sig .tc := ⟨.hbm, 273, rfl⟩
abbrev main_v214 : Ref sig .tc := ⟨.hbm, 274, rfl⟩

abbrev nD : Nat := 1
abbrev τ : Topo := Topo.v7x

variable {F : FTy → Type} [FloatOps F]

class Facts₀ : Prop where
  slices_S1536x512_S512x512_0_0 : S1536x512.Slices ![0, 0] S512x512
  slices_S1536x512_S512x512_512_0 : S1536x512.Slices ![512, 0] S512x512
  slices_S1536x512_S512x512_1024_0 : S1536x512.Slices ![1024, 0] S512x512
  slices_S1536_S512_0 : S1536.Slices ![0] S512
  slices_S1536_S512_512 : S1536.Slices ![512] S512
  slices_S1536_S512_1024 : S1536.Slices ![1024] S512
  transposes_S512x512_S512x512_1_0 : S512x512.Transposes [1, 0] S512x512
  bcast_S512_S1x512_1 : S512.BroadcastsInDim S1x512 (![1] : Fin 1 → Fin S1x512.rank)
  bcast_S1x512_S32768x512_0_1 : S1x512.BroadcastsInDim S32768x512 (![0, 1] : Fin 2 → Fin S32768x512.rank)
  shapeCasts_S32768x512_S32768x8x64 : S32768x512.ShapeCasts S32768x8x64
  reducesTo_S32768x8x64_S32768x8_d2 : S32768x8x64.ReducesTo [2] S32768x8
  h_S_ : 0 < S_.numel
  bcast_S32768x8_S32768x8x1_0_1 : S32768x8.BroadcastsInDim S32768x8x1 (![0, 1] : Fin 2 → Fin S32768x8x1.rank)
  bcast_S_S32768x8x1 : S_.BroadcastsInDim S32768x8x1 (![] : Fin 0 → Fin S32768x8x1.rank)
  reducesTo_S32768x8x1_S32768x8_d2 : S32768x8x1.ReducesTo [2] S32768x8
  bcast_S_S32768x8 : S_.BroadcastsInDim S32768x8 (![] : Fin 0 → Fin S32768x8.rank)
  bcast_S32768x8x1_S32768x8x64_0_1_2 : S32768x8x1.BroadcastsInDim S32768x8x64 (![0, 1, 2] : Fin 3 → Fin S32768x8x64.rank)
  shapeCasts_S32768x8x64_S32768x512 : S32768x8x64.ShapeCasts S32768x512
  reducesTo_S32768x512_S32768_d1 : S32768x512.ReducesTo [1] S32768
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S32768x1_S32768x512_0_1 : S32768x1.BroadcastsInDim S32768x512 (![0, 1] : Fin 2 → Fin S32768x512.rank)
  transposes_S1024x512_S512x1024_1_0 : S1024x512.Transposes [1, 0] S512x1024
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  bcast_S_S32768x1024 : S_.BroadcastsInDim S32768x1024 (![] : Fin 0 → Fin S32768x1024.rank)
  transposes_S512x1024_S1024x512_1_0 : S512x1024.Transposes [1, 0] S1024x512
  concatenates_S32768x512_S32768x512_S32768x1024_d1 : Shape.Concatenates [S32768x512, S32768x512] S32768x1024 1
  dot_S32768x512_S512x512_S32768x512_1_0_0_1_n_n_wf : DotDims.WF S32768x512 S512x512 S32768x512 [1] [0] [0] [1] [] []
  dot_S32768x512_S512x1024_S32768x1024_1_0_0_1_n_n_wf : DotDims.WF S32768x512 S512x1024 S32768x1024 [1] [0] [0] [1] [] []
  dot_S32768x1024_S1024x512_S32768x512_1_0_0_1_n_n_wf : DotDims.WF S32768x1024 S1024x512 S32768x512 [1] [0] [0] [1] [] []

variable [Facts₀]

def dot_S32768x512_S512x512_S32768x512_1_0_0_1_n_n : DotDims S32768x512 S512x512 S32768x512 where
  lhsContracting := [1]
  rhsContracting := [0]
  lhsNonContracting := [0]
  rhsNonContracting := [1]
  lhsBatch := []
  rhsBatch := []
  wf := dot_S32768x512_S512x512_S32768x512_1_0_0_1_n_n_wf
def dot_S32768x512_S512x1024_S32768x1024_1_0_0_1_n_n : DotDims S32768x512 S512x1024 S32768x1024 where
  lhsContracting := [1]
  rhsContracting := [0]
  lhsNonContracting := [0]
  rhsNonContracting := [1]
  lhsBatch := []
  rhsBatch := []
  wf := dot_S32768x512_S512x1024_S32768x1024_1_0_0_1_n_n_wf
def dot_S32768x1024_S1024x512_S32768x512_1_0_0_1_n_n : DotDims S32768x1024 S1024x512 S32768x512 where
  lhsContracting := [1]
  rhsContracting := [0]
  lhsNonContracting := [0]
  rhsNonContracting := [1]
  lhsBatch := []
  rhsBatch := []
  wf := dot_S32768x1024_S1024x512_S32768x512_1_0_0_1_n_n_wf

class Facts : Prop extends Facts₀ where

variable [Facts]
-- ==== Proof.RowSpec.lean ====
/-
  The mathematics both programs compute, one ROW at a time. Every row of the result depends on the same row of
  the two data matrices only. A branch takes its own row `xs` and the other matrix's row `xo`:
    v   = xo · Wvᵀ + bv                      (the value projection: attention over ONE key weighs it by exactly 1)
    h   = xs + (v · Woᵀ + bo)                (the output projection and the residual)
    l₁  = LayerNorm(h; g₁, b₁)
    f   = max(l₁ · W₁ᵀ + c₁, 0) · W₂ᵀ + c₂   (the feed-forward block)
    out = LayerNorm(l₁ + f; g₃, b₃)
  with LayerNorm(x; g, b)ⱼ = (xⱼ − mean x) · rsqrt(mean((x − mean x)²) + ε) · gⱼ + bⱼ and mean = sum / 512,
  all on the extended reals.
-/
import Idealize.ShloMosaic.PureOps.Ideal
import Idealize.ShloMosaic.PureOps.Ideal.Laws

noncomputable section

open Idealize.ShloMosaic

namespace Cert.RowSpec

/-- The divisor of a mean over 512 entries, as the float literal both programs print. -/
def c512 : EReal := Ideal.ofBits .f32 0x44000000#32
/-- The variance's guard ε (the float nearest 1e-5), as the float literal both programs print. -/
def eps : EReal := Ideal.ofBits .f32 0x3727C5AC#32

/-- An affine map on a row: `(x · Wᵀ + b)ₑ = Σₖ xₖ · W(e,k) + bₑ`. -/
def lin {K N : ℕ} (x : Fin K → EReal) (w : Fin N → Fin K → EReal) (b : Fin N → EReal) (e : Fin N) : EReal :=
  (∑ k : Fin K, x k * w e k) + b e

/-- The mean of a row of 512 entries. -/
def mean (x : Fin 512 → EReal) : EReal := Ideal.div (∑ k : Fin 512, x k) c512

/-- Layer normalisation of a row of 512 entries with gain `g` and bias `b`. -/
def lnorm (x g b : Fin 512 → EReal) (j : Fin 512) : EReal :=
  (x j - mean x) * Ideal.rsqrt (mean (fun k => (x k - mean x) * (x k - mean x)) + eps) * g j + b j

/-- One branch of the block, on a row (see the header). -/
def branch (xs xo : Fin 512 → EReal)
    (wv : Fin 512 → Fin 512 → EReal) (bv : Fin 512 → EReal) (wo : Fin 512 → Fin 512 → EReal) (bo : Fin 512 → EReal)
    (g1 b1 : Fin 512 → EReal)
    (w1 : Fin 1024 → Fin 512 → EReal) (c1 : Fin 1024 → EReal) (w2 : Fin 512 → Fin 1024 → EReal) (c2 : Fin 512 → EReal)
    (g3 b3 : Fin 512 → EReal) : Fin 512 → EReal :=
  lnorm (fun j => lnorm (fun j' => xs j' + lin (lin xo wv bv) wo bo j') g1 b1 j
      + lin (fun e => max (lin (lnorm (fun j' => xs j' + lin (lin xo wv bv) wo bo j') g1 b1) w1 c1 e) 0) w2 c2 j) g3 b3

end Cert.RowSpec

end
-- ==== Proof.LibRows.lean ====
/-
  Reading a row reduction and the "keep the reduced axis as a unit axis" layouts at explicit coordinates.

  A reduction of an `[m, n]` array over its second axis has, at row `r`, the source indices `(r, k)`,
  `k < n`. A column `[m, 1]` broadcast along the second axis reads `(r, 0)` at `(r, c)`; a row `[1, n]`
  broadcast along the first reads `(0, c)`; a vector `[m]` recast as a column and broadcast reads `r`.
  Folding a maximum from minus infinity: the start value is absorbed by the first comparison.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value

noncomputable section

open Idealize.ShloMosaic Idealize.ShloMosaic.ValueIdx

namespace Cert.Rows

/-- Row `r` of the reduced array with column `k` put back is the source index `(r, k)`. -/
theorem lift_row {m n : ℕ} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  fin_cases c <;> rfl

/-- Minus infinity is the identity of `max` on the extended reals. -/
theorem neg_inf_max (y : EReal) : max (Ideal.ofBits .f32 0xFF800000#32) y = y := by
  simp [Ideal.ofBits, Ideal.ieee]

variable {α : Type}

/-- A column `[m, 1]` broadcast to `[m, n]`, read at `(r, c)`, is the column at `(r, 0)`. -/
theorem bcast_col {m n : ℕ} (hm : m ≠ 1) (v : (⟨2, ![m, 1]⟩ : Shape).Idx → α)
    (h : (⟨2, ![m, 1]⟩ : Shape).Broadcasts ⟨2, ![m, n]⟩) (r : Fin m) (c : Fin n) :
    broadcastTo ⟨2, ![m, n]⟩ v h (ix2 r c) = v (ix2 r 0) :=
  broadcastTo_apply v h (ix2 r c) (ix2 r 0) (fun a => match a with
    | ⟨0, _⟩ => by show r.val = (if m = 1 then 0 else r.val); rw [if_neg hm]
    | ⟨1, _⟩ => by show 0 = (if (1 : ℕ) = 1 then 0 else c.val); rw [if_pos rfl])

/-- A row `[1, n]` broadcast to `[m, n]`, read at `(r, c)`, is the row at `(0, c)`. -/
theorem bcast_row {m n : ℕ} (hn : n ≠ 1) (v : (⟨2, ![1, n]⟩ : Shape).Idx → α)
    (h : (⟨2, ![1, n]⟩ : Shape).Broadcasts ⟨2, ![m, n]⟩) (r : Fin m) (c : Fin n) :
    broadcastTo ⟨2, ![m, n]⟩ v h (ix2 r c) = v (ix2 0 c) :=
  broadcastTo_apply v h (ix2 r c) (ix2 0 c) (fun a => match a with
    | ⟨0, _⟩ => by show 0 = (if (1 : ℕ) = 1 then 0 else r.val); rw [if_pos rfl]
    | ⟨1, _⟩ => by show c.val = (if n = 1 then 0 else c.val); rw [if_neg hn])

/-- A vector `[m]` recast as the column `[m, 1]`, read at `(r, 0)`, is the vector at `r`. -/
theorem cast_col {m : ℕ} (v : (⟨1, ![m]⟩ : Shape).Idx → α) (h : (⟨1, ![m]⟩ : Shape).ShapeCasts ⟨2, ![m, 1]⟩) (r : Fin m) :
    shapeCast ⟨2, ![m, 1]⟩ v h (ix2 r 0) = v (ix1 r) :=
  shapeCast_apply v h (ix2 r 0) (ix1 r) (by
    rw [Shape.rowMajor_val_one, Shape.rowMajor_val_two]; show r.val = r.val * 1 + 0; omega)

end Cert.Rows

end
-- ==== Proof.LibAxisZero.lean ====
/-
  Reading a reduction over the FIRST axis of a matrix, and a one-entry matrix broadcast to a full one, at
  explicit coordinates.

  A reduction of an `[m, n]` array over its first axis has, at column `c`, the source indices `(k, c)`, `k < m`
  (with `n = 1` this is the total of a column `[m, 1]`). A `[1, 1]` array broadcast to `[a, b]` reads its one
  entry everywhere.
-/
import Idealize.ShloMosaic.PureOps.Reduce
import Idealize.ShloMosaic.Lib.ValueIdx
import Idealize.ShloMosaic.Lib.Pipeline.Value

noncomputable section

open Idealize.ShloMosaic Idealize.ShloMosaic.ValueIdx

namespace Cert.LibAxisZero

/-- Column `c` of the reduced array with row `k` put back is the source index `(k, c)`. -/
theorem lift_col {m n : ℕ} (h : (⟨2, ![m, n]⟩ : Shape).Reduces [0] (⟨1, ![n]⟩ : Shape)) (c : Fin n)
    (k : Fin ((⟨2, ![m, n]⟩ : Shape).size 0)) : h.lift (ix1 c) k = ix2 (⟨k.val, k.isLt⟩ : Fin m) c := by
  funext d; apply Fin.ext
  fin_cases d <;> rfl

variable {α : Type}

/-- A `[1, 1]` array broadcast to `[a, b]` reads, anywhere, its one entry. -/
theorem bcast_one {a b : ℕ} (v : (⟨2, ![1, 1]⟩ : Shape).Idx → α) (h : (⟨2, ![1, 1]⟩ : Shape).Broadcasts ⟨2, ![a, b]⟩)
    (p : Fin a) (c : Fin b) : broadcastTo ⟨2, ![a, b]⟩ v h (ix2 p c) = v (ix2 (0 : Fin 1) (0 : Fin 1)) :=
  broadcastTo_apply v h (ix2 p c) (ix2 (0 : Fin 1) (0 : Fin 1)) (fun ax => match ax with
    | ⟨0, _⟩ => by show 0 = (if (1 : ℕ) = 1 then 0 else p.val); rw [if_pos rfl]
    | ⟨1, _⟩ => by show 0 = (if (1 : ℕ) = 1 then 0 else c.val); rw [if_pos rfl])

end Cert.LibAxisZero

end
-- ==== Proof.LibMatrixReduce.lean ====
/-
  One-axis reductions of a matrix and the "kept axis" layouts that follow them, at the exact extended reals
  and at explicit coordinates.

  The sum of an `[m, n]` matrix along its second axis is, at row `r`, `Σ_c v (r, c)`; along its first axis, at
  column `c`, `Σ_k v (k, c)`; the maximum along the first axis is the fold of `max` over the column from the
  accumulator's value. A vector `[m]` recast as a column `[m, 1]` and broadcast to `[m, n]` reads the vector at
  the row; a vector `[n]` recast as a row `[1, n]` and broadcast to `[m, n]` reads it at the column.
-/
import proofs.«142812_j30056181138117_1_alg».proof.Proof.LibRows
import proofs.«142812_j30056181138117_1_alg».proof.Proof.LibAxisZero
import Idealize.ShloMosaic.Lib.ValueLayout

noncomputable section

open Idealize.ShloMosaic Idealize.ShloMosaic.ValueIdx

namespace Cert.LibMatrixReduce

/-- The sum along the second axis, at row `r`. -/
theorem rowSum_apply {m n : ℕ} (v : FVec Ideal (⟨2, ![m, n]⟩ : Shape) .f32) (acc : BitVec 32)
    (h : (⟨2, ![m, n]⟩ : Shape).Reduces [1] (⟨1, ![m]⟩ : Shape)) (hφ : FKind.Formats .f32) (hacc : acc = FKind.add.neutral .f32 hφ)
    (r : Fin m) :
    multiReduction .add [1] (⟨1, ![m]⟩ : Shape) v acc h hφ hacc (ix1 r) = ∑ c : Fin n, v (ix2 r c) := by
  rw [Ideal.multiReduction_add_single]
  exact Finset.sum_congr rfl fun k _ => congrArg v (Cert.Rows.lift_row h r k)

/-- The sum along the first axis, at column `c`. -/
theorem colSum_apply {m n : ℕ} (v : FVec Ideal (⟨2, ![m, n]⟩ : Shape) .f32) (acc : BitVec 32)
    (h : (⟨2, ![m, n]⟩ : Shape).Reduces [0] (⟨1, ![n]⟩ : Shape)) (hφ : FKind.Formats .f32) (hacc : acc = FKind.add.neutral .f32 hφ)
    (c : Fin n) :
    multiReduction .add [0] (⟨1, ![n]⟩ : Shape) v acc h hφ hacc (ix1 c) = ∑ k : Fin m, v (ix2 k c) := by
  rw [Ideal.multiReduction_add_single]
  exact Finset.sum_congr rfl fun k _ => congrArg v (Cert.LibAxisZero.lift_col h c k)

/-- The maximum along the first axis, at column `c`: `max` folded over the column from the accumulator's value. -/
theorem colMax_apply {m n : ℕ} (v : FVec Ideal (⟨2, ![m, n]⟩ : Shape) .f32) (acc : BitVec 32)
    (h : (⟨2, ![m, n]⟩ : Shape).Reduces [0] (⟨1, ![n]⟩ : Shape)) (hφ : FKind.Formats .f32) (hacc : acc = FKind.maximumf.neutral .f32 hφ)
    (c : Fin n) :
    multiReduction .maximumf [0] (⟨1, ![n]⟩ : Shape) v acc h hφ hacc (ix1 c)
      = (Finset.univ : Finset (Fin m)).fold max (Ideal.ofBits .f32 acc) (fun k => v (ix2 k c)) := by
  rw [Ideal.multiReduction_maximumf_single]
  refine congrArg (fun f => (Finset.univ : Finset (Fin m)).fold max (Ideal.ofBits .f32 acc) f) (funext fun k => ?_)
  exact congrArg v (Cert.LibAxisZero.lift_col h c k)

variable {α : Type}

/-- A vector kept as a column and broadcast along the rows' entries reads the vector at the row. -/
theorem keptCol_apply {m n : ℕ} (hm : m ≠ 1) (u : (⟨1, ![m]⟩ : Shape).Idx → α)
    (h1 : (⟨1, ![m]⟩ : Shape).ShapeCasts ⟨2, ![m, 1]⟩) (h2 : (⟨2, ![m, 1]⟩ : Shape).Broadcasts ⟨2, ![m, n]⟩) (r : Fin m) (c : Fin n) :
    broadcastTo ⟨2, ![m, n]⟩ (shapeCast ⟨2, ![m, 1]⟩ u h1) h2 (ix2 r c) = u (ix1 r) := by
  rw [Cert.Rows.bcast_col hm, Cert.Rows.cast_col]

/-- A vector kept as a row and broadcast down the rows reads the vector at the column. -/
theorem keptRow_apply {m n : ℕ} (u : (⟨1, ![n]⟩ : Shape).Idx → α)
    (h1 : (⟨1, ![n]⟩ : Shape).ShapeCasts ⟨2, ![1, n]⟩) (h2 : (⟨2, ![1, n]⟩ : Shape).Broadcasts ⟨2, ![m, n]⟩) (r : Fin m) (c : Fin n) :
    broadcastTo ⟨2, ![m, n]⟩ (shapeCast ⟨2, ![1, n]⟩ u h1) h2 (ix2 r c) = u (ix1 c) := by
  rw [broadcastTo_1b_ab_apply, shapeCast_a_1a_apply]

end Cert.LibMatrixReduce

end
-- ==== Proof.KernelRow.lean ====
/-
  The kernel's arithmetic on one row.

  Each stored block of the kernel is a pure term over the loaded matrices and vectors. Read at an entry `(p, q)` it
  depends on row `p` of the two data matrices only, and it is the row formula of the block: the value projection of
  the other matrix's row, the output projection and the residual with the own row, a layer normalisation, the
  feed-forward block with its residual, and a second layer normalisation.

  The steps: a product with the second operand transposed, into the zero accumulator, read at `(p, e)` is
  `Σₖ A(p,k) · W(e,k)` (the contraction index re-indexed through its one coordinate); with the bias kept as a row it is
  the affine map of row `p`; a row sum kept as a column, divided by the literal 512 and broadcast back, is the row's
  mean; centring, the reciprocal root of the variance plus the guard, gain and bias compose to the normalisation. The
  second branch's terms are the first branch's with the two data matrices exchanged.
-/
import proofs.«142812_j30056181138117_1_alg».proof.Proof.Gen.KernelIdeal.Skeleton
import proofs.«142812_j30056181138117_1_alg».proof.Proof.RowSpec
import proofs.«142812_j30056181138117_1_alg».proof.Proof.LibMatrixReduce
import Idealize.ShloMosaic.Lib.ValueIdx
import Idealize.ShloMosaic.Lib.Pipeline.Value
import Idealize.ShloMosaic.PureOps.Ideal.Laws

noncomputable section

open Idealize.ShloMosaic Idealize.ShloMosaic.ValueIdx Cert.KernelIdeal Cert.KernelIdeal.Gen

namespace Cert.KernelRow

open Cert.RowSpec

/-- A row centred on its mean and scaled by the reciprocal root of its variance plus the guard: layer normalisation
    before the gain and the bias. -/
def nrm (x : Fin 512 → EReal) (j : Fin 512) : EReal :=
  (x j - mean x) * Ideal.rsqrt (mean (fun k => (x k - mean x) * (x k - mean x)) + eps)

theorem lnorm_eq_nrm (x g b : Fin 512 → EReal) : lnorm x g b = fun j => nrm x j * g j + b j := rfl

/-- The residual row: the own row plus the projected value row. -/
def hrow (xs xo : Fin 512 → EReal) (wv : Fin 512 → Fin 512 → EReal) (bv : Fin 512 → EReal)
    (wo : Fin 512 → Fin 512 → EReal) (bo : Fin 512 → EReal) (j : Fin 512) : EReal :=
  xs j + lin (lin xo wv bv) wo bo j

/-- A row plus its feed-forward image. -/
def ffn (l : Fin 512 → EReal) (w1 : Fin 1024 → Fin 512 → EReal) (c1 : Fin 1024 → EReal)
    (w2 : Fin 512 → Fin 1024 → EReal) (c2 : Fin 512 → EReal) (j : Fin 512) : EReal :=
  l j + lin (fun e => max (lin l w1 c1 e) 0) w2 c2 j

theorem branch_eq (xs xo : Fin 512 → EReal)
    (wv : Fin 512 → Fin 512 → EReal) (bv : Fin 512 → EReal) (wo : Fin 512 → Fin 512 → EReal) (bo : Fin 512 → EReal)
    (g1 b1 : Fin 512 → EReal)
    (w1 : Fin 1024 → Fin 512 → EReal) (c1 : Fin 1024 → EReal) (w2 : Fin 512 → Fin 1024 → EReal) (c2 : Fin 512 → EReal)
    (g3 b3 : Fin 512 → EReal) (q : Fin 512) :
    branch xs xo wv bv wo bo g1 b1 w1 c1 w2 c2 g3 b3 q
      = nrm (ffn (fun j => nrm (hrow xs xo wv bv wo bo) j * g1 j + b1 j) w1 c1 w2 c2) q * g3 q + b3 q := rfl

theorem lhsA_0 (i : S512x512.Idx) (q : dot_S512x512_S512x512_S512x512_1_1_0_0_n_n.contr.Idx) :
    (dot_S512x512_S512x512_S512x512_1_1_0_0_n_n.lhsIdx i q 0).val = (i 0).val := by
  unfold DotDims.lhsIdx
  rw [dif_neg (show ¬(0 : Fin S512x512.rank) ∈ dot_S512x512_S512x512_S512x512_1_1_0_0_n_n.lhsBatch by decide), dif_pos (show (0 : Fin S512x512.rank) ∈ dot_S512x512_S512x512_S512x512_1_1_0_0_n_n.lhsNonContracting by decide)]
  rfl
theorem lhsA_1 (i : S512x512.Idx) (q : dot_S512x512_S512x512_S512x512_1_1_0_0_n_n.contr.Idx) :
    (dot_S512x512_S512x512_S512x512_1_1_0_0_n_n.lhsIdx i q 1).val = (q ⟨0, by decide⟩).val :=
  dot_S512x512_S512x512_S512x512_1_1_0_0_n_n.lhsIdx_val_of_single rfl i q
theorem rhsA_0 (i : S512x512.Idx) (q : dot_S512x512_S512x512_S512x512_1_1_0_0_n_n.contr.Idx) :
    (dot_S512x512_S512x512_S512x512_1_1_0_0_n_n.rhsIdx i q 0).val = (i 1).val := by
  unfold DotDims.rhsIdx
  rw [dif_neg (show ¬(0 : Fin S512x512.rank) ∈ dot_S512x512_S512x512_S512x512_1_1_0_0_n_n.rhsBatch by decide), dif_pos (show (0 : Fin S512x512.rank) ∈ dot_S512x512_S512x512_S512x512_1_1_0_0_n_n.rhsNonContracting by decide)]
  rfl
theorem rhsA_1 (i : S512x512.Idx) (q : dot_S512x512_S512x512_S512x512_1_1_0_0_n_n.contr.Idx) :
    (dot_S512x512_S512x512_S512x512_1_1_0_0_n_n.rhsIdx i q 1).val = (q ⟨0, by decide⟩).val :=
  dot_S512x512_S512x512_S512x512_1_1_0_0_n_n.rhsIdx_val_of_single rfl i q

/-- The product with the second operand transposed, into the zero accumulator, read at `(p, e)`:
    `Σₖ A(p,k) · W(e,k)`. -/
theorem mmA_apply {φ₁ φ₂ : FTy} (A : FVec Ideal S512x512 φ₁) (W : FVec Ideal S512x512 φ₂) (p : Fin 512) (e : Fin 512) :
    matmul (F := Ideal) dot_S512x512_S512x512_S512x512_1_1_0_0_n_n none A W (constant S512x512 .f32 0x00000000#32) (ix2 p e)
      = ∑ k : Fin 512, A (ix2 p k) * W (ix2 e k) := by
  simp only [matmul]
  rw [Ideal.matmul_constant_zero_apply,
    ← Equiv.sum_comp (contrEquiv1 dot_S512x512_S512x512_S512x512_1_1_0_0_n_n 512 rfl rfl).symm]
  refine Finset.sum_congr rfl fun k _ => ?_
  have hk := contrEquiv1_symm_val dot_S512x512_S512x512_S512x512_1_1_0_0_n_n 512 rfl rfl k
  have el : dot_S512x512_S512x512_S512x512_1_1_0_0_n_n.lhsIdx (ix2 p e) ((contrEquiv1 dot_S512x512_S512x512_S512x512_1_1_0_0_n_n 512 rfl rfl).symm k) = ix2 p k :=
    funext fun a => Fin.ext (by
      match a with
      | ⟨0, _⟩ => exact lhsA_0 _ _
      | ⟨1, _⟩ => exact (lhsA_1 _ _).trans hk)
  have er : dot_S512x512_S512x512_S512x512_1_1_0_0_n_n.rhsIdx (ix2 p e) ((contrEquiv1 dot_S512x512_S512x512_S512x512_1_1_0_0_n_n 512 rfl rfl).symm k) = ix2 e k :=
    funext fun a => Fin.ext (by
      match a with
      | ⟨0, _⟩ => exact rhsA_0 _ _
      | ⟨1, _⟩ => exact (rhsA_1 _ _).trans hk)
  rw [el, er]

theorem lhsB_0 (i : S512x1024.Idx) (q : dot_S512x512_S1024x512_S512x1024_1_1_0_0_n_n.contr.Idx) :
    (dot_S512x512_S1024x512_S512x1024_1_1_0_0_n_n.lhsIdx i q 0).val = (i 0).val := by
  unfold DotDims.lhsIdx
  rw [dif_neg (show ¬(0 : Fin S512x512.rank) ∈ dot_S512x512_S1024x512_S512x1024_1_1_0_0_n_n.lhsBatch by decide), dif_pos (show (0 : Fin S512x512.rank) ∈ dot_S512x512_S1024x512_S512x1024_1_1_0_0_n_n.lhsNonContracting by decide)]
  rfl
theorem lhsB_1 (i : S512x1024.Idx) (q : dot_S512x512_S1024x512_S512x1024_1_1_0_0_n_n.contr.Idx) :
    (dot_S512x512_S1024x512_S512x1024_1_1_0_0_n_n.lhsIdx i q 1).val = (q ⟨0, by decide⟩).val :=
  dot_S512x512_S1024x512_S512x1024_1_1_0_0_n_n.lhsIdx_val_of_single rfl i q
theorem rhsB_0 (i : S512x1024.Idx) (q : dot_S512x512_S1024x512_S512x1024_1_1_0_0_n_n.contr.Idx) :
    (dot_S512x512_S1024x512_S512x1024_1_1_0_0_n_n.rhsIdx i q 0).val = (i 1).val := by
  unfold DotDims.rhsIdx
  rw [dif_neg (show ¬(0 : Fin S1024x512.rank) ∈ dot_S512x512_S1024x512_S512x1024_1_1_0_0_n_n.rhsBatch by decide), dif_pos (show (0 : Fin S1024x512.rank) ∈ dot_S512x512_S1024x512_S512x1024_1_1_0_0_n_n.rhsNonContracting by decide)]
  rfl
theorem rhsB_1 (i : S512x1024.Idx) (q : dot_S512x512_S1024x512_S512x1024_1_1_0_0_n_n.contr.Idx) :
    (dot_S512x512_S1024x512_S512x1024_1_1_0_0_n_n.rhsIdx i q 1).val = (q ⟨0, by decide⟩).val :=
  dot_S512x512_S1024x512_S512x1024_1_1_0_0_n_n.rhsIdx_val_of_single rfl i q

/-- The product with the second operand transposed, into the zero accumulator, read at `(p, e)`:
    `Σₖ A(p,k) · W(e,k)`. -/
theorem mmB_apply {φ₁ φ₂ : FTy} (A : FVec Ideal S512x512 φ₁) (W : FVec Ideal S1024x512 φ₂) (p : Fin 512) (e : Fin 1024) :
    matmul (F := Ideal) dot_S512x512_S1024x512_S512x1024_1_1_0_0_n_n none A W (constant S512x1024 .f32 0x00000000#32) (ix2 p e)
      = ∑ k : Fin 512, A (ix2 p k) * W (ix2 e k) := by
  simp only [matmul]
  rw [Ideal.matmul_constant_zero_apply,
    ← Equiv.sum_comp (contrEquiv1 dot_S512x512_S1024x512_S512x1024_1_1_0_0_n_n 512 rfl rfl).symm]
  refine Finset.sum_congr rfl fun k _ => ?_
  have hk := contrEquiv1_symm_val dot_S512x512_S1024x512_S512x1024_1_1_0_0_n_n 512 rfl rfl k
  have el : dot_S512x512_S1024x512_S512x1024_1_1_0_0_n_n.lhsIdx (ix2 p e) ((contrEquiv1 dot_S512x512_S1024x512_S512x1024_1_1_0_0_n_n 512 rfl rfl).symm k) = ix2 p k :=
    funext fun a => Fin.ext (by
      match a with
      | ⟨0, _⟩ => exact lhsB_0 _ _
      | ⟨1, _⟩ => exact (lhsB_1 _ _).trans hk)
  have er : dot_S512x512_S1024x512_S512x1024_1_1_0_0_n_n.rhsIdx (ix2 p e) ((contrEquiv1 dot_S512x512_S1024x512_S512x1024_1_1_0_0_n_n 512 rfl rfl).symm k) = ix2 e k :=
    funext fun a => Fin.ext (by
      match a with
      | ⟨0, _⟩ => exact rhsB_0 _ _
      | ⟨1, _⟩ => exact (rhsB_1 _ _).trans hk)
  rw [el, er]

theorem lhsC_0 (i : S512x512.Idx) (q : dot_S512x1024_S512x1024_S512x512_1_1_0_0_n_n.contr.Idx) :
    (dot_S512x1024_S512x1024_S512x512_1_1_0_0_n_n.lhsIdx i q 0).val = (i 0).val := by
  unfold DotDims.lhsIdx
  rw [dif_neg (show ¬(0 : Fin S512x1024.rank) ∈ dot_S512x1024_S512x1024_S512x512_1_1_0_0_n_n.lhsBatch by decide), dif_pos (show (0 : Fin S512x1024.rank) ∈ dot_S512x1024_S512x1024_S512x512_1_1_0_0_n_n.lhsNonContracting by decide)]
  rfl
theorem lhsC_1 (i : S512x512.Idx) (q : dot_S512x1024_S512x1024_S512x512_1_1_0_0_n_n.contr.Idx) :
    (dot_S512x1024_S512x1024_S512x512_1_1_0_0_n_n.lhsIdx i q 1).val = (q ⟨0, by decide⟩).val :=
  dot_S512x1024_S512x1024_S512x512_1_1_0_0_n_n.lhsIdx_val_of_single rfl i q
theorem rhsC_0 (i : S512x512.Idx) (q : dot_S512x1024_S512x1024_S512x512_1_1_0_0_n_n.contr.Idx) :
    (dot_S512x1024_S512x1024_S512x512_1_1_0_0_n_n.rhsIdx i q 0).val = (i 1).val := by
  unfold DotDims.rhsIdx
  rw [dif_neg (show ¬(0 : Fin S512x1024.rank) ∈ dot_S512x1024_S512x1024_S512x512_1_1_0_0_n_n.rhsBatch by decide), dif_pos (show (0 : Fin S512x1024.rank) ∈ dot_S512x1024_S512x1024_S512x512_1_1_0_0_n_n.rhsNonContracting by decide)]
  rfl
theorem rhsC_1 (i : S512x512.Idx) (q : dot_S512x1024_S512x1024_S512x512_1_1_0_0_n_n.contr.Idx) :
    (dot_S512x1024_S512x1024_S512x512_1_1_0_0_n_n.rhsIdx i q 1).val = (q ⟨0, by decide⟩).val :=
  dot_S512x1024_S512x1024_S512x512_1_1_0_0_n_n.rhsIdx_val_of_single rfl i q

/-- The product with the second operand transposed, into the zero accumulator, read at `(p, e)`:
    `Σₖ A(p,k) · W(e,k)`. -/
theorem mmC_apply {φ₁ φ₂ : FTy} (A : FVec Ideal S512x1024 φ₁) (W : FVec Ideal S512x1024 φ₂) (p : Fin 512) (e : Fin 512) :
    matmul (F := Ideal) dot_S512x1024_S512x1024_S512x512_1_1_0_0_n_n none A W (constant S512x512 .f32 0x00000000#32) (ix2 p e)
      = ∑ k : Fin 1024, A (ix2 p k) * W (ix2 e k) := by
  simp only [matmul]
  rw [Ideal.matmul_constant_zero_apply,
    ← Equiv.sum_comp (contrEquiv1 dot_S512x1024_S512x1024_S512x512_1_1_0_0_n_n 1024 rfl rfl).symm]
  refine Finset.sum_congr rfl fun k _ => ?_
  have hk := contrEquiv1_symm_val dot_S512x1024_S512x1024_S512x512_1_1_0_0_n_n 1024 rfl rfl k
  have el : dot_S512x1024_S512x1024_S512x512_1_1_0_0_n_n.lhsIdx (ix2 p e) ((contrEquiv1 dot_S512x1024_S512x1024_S512x512_1_1_0_0_n_n 1024 rfl rfl).symm k) = ix2 p k :=
    funext fun a => Fin.ext (by
      match a with
      | ⟨0, _⟩ => exact lhsC_0 _ _
      | ⟨1, _⟩ => exact (lhsC_1 _ _).trans hk)
  have er : dot_S512x1024_S512x1024_S512x512_1_1_0_0_n_n.rhsIdx (ix2 p e) ((contrEquiv1 dot_S512x1024_S512x1024_S512x512_1_1_0_0_n_n 1024 rfl rfl).symm k) = ix2 e k :=
    funext fun a => Fin.ext (by
      match a with
      | ⟨0, _⟩ => exact rhsC_0 _ _
      | ⟨1, _⟩ => exact (rhsC_1 _ _).trans hk)
  rw [el, er]

/-- A biased product on a row: the product with the transposed weights plus the bias kept as a row, read at
    `(p, e)`, is the affine map of the left operand's row `p`. -/
theorem linA_row {p : Fin 512} (A : FVec Ideal S512x512 .f32) (a : Fin 512 → EReal) (hA : ∀ k, A (ix2 p k) = a k)
    (W : FVec Ideal S512x512 .bf16) (b : FVec Ideal S512 .f32) (hlt : FTy.bits .bf16 < FTy.bits .f32)
    (hW : S512x512.ShapeCasts S512x512) (h1 : S512.ShapeCasts S1x512) (h2 : S1x512.Broadcasts S512x512) (e : Fin 512) :
    addf (matmul (F := Ideal) dot_S512x512_S512x512_S512x512_1_1_0_0_n_n none (truncf .bf16 A hlt) (shapeCast S512x512 W hW) (constant S512x512 .f32 0x00000000#32))
        (broadcastTo S512x512 (shapeCast S1x512 b h1) h2) (ix2 p e)
      = Cert.RowSpec.lin a (fun e k => W (ix2 e k)) (fun e => b (ix1 e)) e := by
  rw [addf_apply, mmA_apply, shapeCast_self, Cert.LibMatrixReduce.keptRow_apply]
  unfold Cert.RowSpec.lin
  refine congrArg (· + b (ix1 e)) (Finset.sum_congr rfl fun k _ => ?_)
  rw [truncf_apply, hA]

/-- A biased product on a row: the product with the transposed weights plus the bias kept as a row, read at
    `(p, e)`, is the affine map of the left operand's row `p`. -/
theorem linB_row {p : Fin 512} (A : FVec Ideal S512x512 .f32) (a : Fin 512 → EReal) (hA : ∀ k, A (ix2 p k) = a k)
    (W : FVec Ideal S1024x512 .bf16) (b : FVec Ideal S1024 .f32) (hlt : FTy.bits .bf16 < FTy.bits .f32)
    (hW : S1024x512.ShapeCasts S1024x512) (h1 : S1024.ShapeCasts S1x1024) (h2 : S1x1024.Broadcasts S512x1024) (e : Fin 1024) :
    addf (matmul (F := Ideal) dot_S512x512_S1024x512_S512x1024_1_1_0_0_n_n none (truncf .bf16 A hlt) (shapeCast S1024x512 W hW) (constant S512x1024 .f32 0x00000000#32))
        (broadcastTo S512x1024 (shapeCast S1x1024 b h1) h2) (ix2 p e)
      = Cert.RowSpec.lin a (fun e k => W (ix2 e k)) (fun e => b (ix1 e)) e := by
  rw [addf_apply, mmB_apply, shapeCast_self, Cert.LibMatrixReduce.keptRow_apply]
  unfold Cert.RowSpec.lin
  refine congrArg (· + b (ix1 e)) (Finset.sum_congr rfl fun k _ => ?_)
  rw [truncf_apply, hA]

/-- A biased product on a row: the product with the transposed weights plus the bias kept as a row, read at
    `(p, e)`, is the affine map of the left operand's row `p`. -/
theorem linC_row {p : Fin 512} (A : FVec Ideal S512x1024 .f32) (a : Fin 1024 → EReal) (hA : ∀ k, A (ix2 p k) = a k)
    (W : FVec Ideal S512x1024 .bf16) (b : FVec Ideal S512 .f32) (hlt : FTy.bits .bf16 < FTy.bits .f32)
    (hW : S512x1024.ShapeCasts S512x1024) (h1 : S512.ShapeCasts S1x512) (h2 : S1x512.Broadcasts S512x512) (e : Fin 512) :
    addf (matmul (F := Ideal) dot_S512x1024_S512x1024_S512x512_1_1_0_0_n_n none (truncf .bf16 A hlt) (shapeCast S512x1024 W hW) (constant S512x512 .f32 0x00000000#32))
        (broadcastTo S512x512 (shapeCast S1x512 b h1) h2) (ix2 p e)
      = Cert.RowSpec.lin a (fun e k => W (ix2 e k)) (fun e => b (ix1 e)) e := by
  rw [addf_apply, mmC_apply, shapeCast_self, Cert.LibMatrixReduce.keptRow_apply]
  unfold Cert.RowSpec.lin
  refine congrArg (· + b (ix1 e)) (Finset.sum_congr rfl fun k _ => ?_)
  rw [truncf_apply, hA]

/-- The mean of row `p`, kept as a column: the row's sum over the literal 512. -/
theorem meanCol_row {p : Fin 512} (X : FVec Ideal S512x512 .f32) (x : Fin 512 → EReal) (hX : ∀ k, X (ix2 p k) = x k)
    (hr : S512x512.Reduces [1] S512) (hφ : FKind.Formats .f32) (hacc : (0x00000000#32 : BitVec 32) = FKind.add.neutral .f32 hφ)
    (hc : S512.ShapeCasts S512x1) :
    divf (shapeCast S512x1 (multiReduction (F := Ideal) .add [1] S512 X 0x00000000#32 hr hφ hacc) hc)
        (broadcast S512x1 (Scalar.ofBits .f32 0x44000000#32)) (ix2 p 0)
      = Cert.RowSpec.mean x := by
  rw [divf_apply, Cert.Rows.cast_col, Cert.LibMatrixReduce.rowSum_apply]
  unfold Cert.RowSpec.mean Cert.RowSpec.c512
  refine congrArg (fun s => Ideal.div s _) (Finset.sum_congr rfl fun k _ => hX k)

/-- A column broadcast along the rows' entries, at `(p, q)`, is the column at row `p`. -/
theorem bcastCol_apply (M : FVec Ideal S512x1 .f32) (hb : S512x1.Broadcasts S512x512) (p q : Fin 512) :
    broadcastTo S512x512 M hb (ix2 p q) = M (ix2 p 0) :=
  Cert.Rows.bcast_col (by decide) M hb p q

/-- A vector kept as a row and broadcast down the rows, at `(p, q)`, is the vector at `q`. -/
theorem bcastRow_apply (g : FVec Ideal S512 .f32) (h1 : S512.ShapeCasts S1x512) (h2 : S1x512.Broadcasts S512x512) (p q : Fin 512) :
    broadcastTo S512x512 (shapeCast S1x512 g h1) h2 (ix2 p q) = g (ix1 q) :=
  Cert.LibMatrixReduce.keptRow_apply g h1 h2 p q

section Norm
variable {p : Fin 512} (X : FVec Ideal S512x512 .f32) (x : Fin 512 → EReal) (hX : ∀ k, X (ix2 p k) = x k)
  (hr : S512x512.Reduces [1] S512) (hφ : FKind.Formats .f32) (hacc : (0x00000000#32 : BitVec 32) = FKind.add.neutral .f32 hφ)
  (hc : S512.ShapeCasts S512x1) (hb : S512x1.Broadcasts S512x512)
include hX

/-- A matrix minus its rows' means, at `(p, q)`: the row's entry minus the row's mean. -/
theorem centre_row (q : Fin 512) :
    subf X (broadcastTo S512x512 (divf (shapeCast S512x1 (multiReduction (F := Ideal) .add [1] S512 X 0x00000000#32 hr hφ hacc) hc)
        (broadcast S512x1 (Scalar.ofBits .f32 0x44000000#32))) hb) (ix2 p q)
      = x q - mean x := by
  rw [subf_apply, bcastCol_apply, meanCol_row X x hX, hX]

/-- The reciprocal root of the rows' mean squares plus the guard, broadcast back, at `(p, q)`. -/
theorem rstd_row (q : Fin 512) :
    broadcastTo S512x512 (rsqrt (addf (divf (shapeCast S512x1 (multiReduction (F := Ideal) .add [1] S512 (mulf X X) 0x00000000#32 hr hφ hacc) hc)
        (broadcast S512x1 (Scalar.ofBits .f32 0x44000000#32))) (broadcast S512x1 (Scalar.ofBits .f32 0x3727C5AC#32)))) hb (ix2 p q)
      = Ideal.rsqrt (mean (fun k => x k * x k) + eps) := by
  refine (bcastCol_apply _ hb p q).trans ?_
  show Ideal.rsqrt (divf (shapeCast S512x1 (multiReduction (F := Ideal) .add [1] S512 (mulf X X) 0x00000000#32 hr hφ hacc) hc)
        (broadcast S512x1 (Scalar.ofBits .f32 0x44000000#32)) (ix2 p 0) + Ideal.ofBits .f32 0x3727C5AC#32) = _
  rw [meanCol_row (mulf X X) (fun k => x k * x k) (fun k => by rw [mulf_apply, hX])]
  rfl

/-- The normalised matrix (centred, times the reciprocal root of the centred squares' mean plus the guard), at `(p, q)`. -/
theorem nrm_row (q : Fin 512) :
    mulf (subf X (broadcastTo S512x512 (divf (shapeCast S512x1 (multiReduction (F := Ideal) .add [1] S512 X 0x00000000#32 hr hφ hacc) hc)
          (broadcast S512x1 (Scalar.ofBits .f32 0x44000000#32))) hb))
        (broadcastTo S512x512 (rsqrt (addf (divf (shapeCast S512x1 (multiReduction (F := Ideal) .add [1] S512
          (mulf (subf X (broadcastTo S512x512 (divf (shapeCast S512x1 (multiReduction (F := Ideal) .add [1] S512 X 0x00000000#32 hr hφ hacc) hc)
              (broadcast S512x1 (Scalar.ofBits .f32 0x44000000#32))) hb))
            (subf X (broadcastTo S512x512 (divf (shapeCast S512x1 (multiReduction (F := Ideal) .add [1] S512 X 0x00000000#32 hr hφ hacc) hc)
              (broadcast S512x1 (Scalar.ofBits .f32 0x44000000#32))) hb))) 0x00000000#32 hr hφ hacc) hc)
          (broadcast S512x1 (Scalar.ofBits .f32 0x44000000#32))) (broadcast S512x1 (Scalar.ofBits .f32 0x3727C5AC#32)))) hb) (ix2 p q)
      = nrm x q := by
  rw [mulf_apply]
  exact congrArg₂ (· * ·) (centre_row X x hX hr hφ hacc hc hb q)
    (rstd_row _ (fun k => x k - mean x) (fun k => centre_row X x hX hr hφ hacc hc hb k) hr hφ hacc hc hb q)

/-- Gain and bias kept as rows: `R · g + b` at `(p, q)`. -/
theorem affine_row (g b : FVec Ideal S512 .f32) (h1 : S512.ShapeCasts S1x512) (h2 : S1x512.Broadcasts S512x512) (q : Fin 512) :
    addf (mulf X (broadcastTo S512x512 (shapeCast S1x512 g h1) h2)) (broadcastTo S512x512 (shapeCast S1x512 b h1) h2) (ix2 p q)
      = x q * g (ix1 q) + b (ix1 q) := by
  rw [addf_apply, mulf_apply, bcastRow_apply, bcastRow_apply, hX]

end Norm

/-- The first normalised residual at `(p, q)`. -/
theorem pay2_row (x0 x1 : FVec Ideal S512x512 .f32) (x2 : FVec Ideal S512x512 .bf16) (x3 : FVec Ideal S512 .f32)
    (x4 : FVec Ideal S512x512 .bf16) (x5 : FVec Ideal S512 .f32) (p q : Fin 512) :
    k0_pay2 (F := Ideal) x0 x1 x2 x3 x4 x5 (ix2 p q)
      = nrm (hrow (fun k => x0 (ix2 p k)) (fun k => x1 (ix2 p k)) (fun e k => x2 (ix2 e k)) (fun e => x3 (ix1 e))
          (fun e k => x4 (ix2 e k)) (fun e => x5 (ix1 e))) q := by
  unfold k0_pay2
  refine nrm_row _ _ (fun k => ?_) _ _ _ _ _ q
  rw [addf_apply]
  refine congrArg (x0 (ix2 p k) + ·) ?_
  refine linA_row _ _ (fun e => ?_) x4 x5 _ _ _ _ k
  rw [shapeCast_self x3]
  exact linA_row x1 _ (fun _ => rfl) x2 x3 _ _ _ _ e

/-- A normalised matrix through gain, bias and the feed-forward block with its residual, at `(p, q)`. -/
theorem pay3_row {p : Fin 512} (g b : FVec Ideal S512 .f32) (R : FVec Ideal S512x512 .f32) (r : Fin 512 → EReal)
    (hR : ∀ k, R (ix2 p k) = r k) (w1 : FVec Ideal S1024x512 .bf16) (c1 : FVec Ideal S1024 .f32)
    (w2 : FVec Ideal S512x1024 .bf16) (c2 : FVec Ideal S512 .f32) (q : Fin 512) :
    k0_pay3 (F := Ideal) g b R w1 c1 w2 c2 (ix2 p q)
      = ffn (fun j => r j * g (ix1 j) + b (ix1 j)) (fun e k => w1 (ix2 e k)) (fun e => c1 (ix1 e))
          (fun e k => w2 (ix2 e k)) (fun e => c2 (ix1 e)) q := by
  unfold k0_pay3
  refine (addf_apply _ _ _).trans ?_
  refine congrArg₂ (· + ·) (affine_row R r hR g b _ _ q) ?_
  refine linC_row _ _ (fun e => ?_) w2 c2 _ _ _ _ q
  rw [maximumf_apply, linB_row _ _ (fun k => affine_row R r hR g b _ _ k) w1 c1]
  show max _ (Ideal.ofBits .f32 0x00000000#32) = _
  rw [Ideal.ofBits_zero_f32]

section Tail
variable {p : Fin 512} (g b : FVec Ideal S512 .f32) (R : FVec Ideal S512x512 .f32) (r : Fin 512 → EReal)
  (hR : ∀ k, R (ix2 p k) = r k) (w1 : FVec Ideal S1024x512 .bf16) (c1 : FVec Ideal S1024 .f32)
  (w2 : FVec Ideal S512x1024 .bf16) (c2 : FVec Ideal S512 .f32)
include hR

/-- The feed-forward output centred on its rows' means, at `(p, q)`. -/
theorem pay5_row (q : Fin 512) :
    k0_pay5 (F := Ideal) g b R w1 c1 w2 c2 (ix2 p q)
      = ffn (fun j => r j * g (ix1 j) + b (ix1 j)) (fun e k => w1 (ix2 e k)) (fun e => c1 (ix1 e))
            (fun e k => w2 (ix2 e k)) (fun e => c2 (ix1 e)) q
          - mean (ffn (fun j => r j * g (ix1 j) + b (ix1 j)) (fun e k => w1 (ix2 e k)) (fun e => c1 (ix1 e))
            (fun e k => w2 (ix2 e k)) (fun e => c2 (ix1 e))) := by
  unfold k0_pay5 k0_pay4
  exact centre_row _ _ (fun k => pay3_row g b R r hR w1 c1 w2 c2 k) _ _ _ _ _ q

/-- The reciprocal root of the feed-forward output's row variance plus the guard, at `(p, q)`. -/
theorem pay6_row (q : Fin 512) :
    k0_pay6 (F := Ideal) g b R w1 c1 w2 c2 (ix2 p q)
      = Ideal.rsqrt (mean (fun k =>
          (ffn (fun j => r j * g (ix1 j) + b (ix1 j)) (fun e k => w1 (ix2 e k)) (fun e => c1 (ix1 e))
              (fun e k => w2 (ix2 e k)) (fun e => c2 (ix1 e)) k
            - mean (ffn (fun j => r j * g (ix1 j) + b (ix1 j)) (fun e k => w1 (ix2 e k)) (fun e => c1 (ix1 e))
              (fun e k => w2 (ix2 e k)) (fun e => c2 (ix1 e))))
          * (ffn (fun j => r j * g (ix1 j) + b (ix1 j)) (fun e k => w1 (ix2 e k)) (fun e => c1 (ix1 e))
              (fun e k => w2 (ix2 e k)) (fun e => c2 (ix1 e)) k
            - mean (ffn (fun j => r j * g (ix1 j) + b (ix1 j)) (fun e k => w1 (ix2 e k)) (fun e => c1 (ix1 e))
              (fun e k => w2 (ix2 e k)) (fun e => c2 (ix1 e))))) + eps) := by
  unfold k0_pay6 k0_pay4
  exact rstd_row _ _ (fun k => centre_row _ _ (fun k' => pay3_row g b R r hR w1 c1 w2 c2 k') _ _ _ _ _ k) _ _ _ _ _ q

end Tail

/-- The last gain and bias on a product of two matrices, at `(p, q)`. -/
theorem pay7_row {p : Fin 512} (g b : FVec Ideal S512 .f32) (C D : FVec Ideal S512x512 .f32) (c d : Fin 512 → EReal)
    (hC : ∀ k, C (ix2 p k) = c k) (hD : ∀ k, D (ix2 p k) = d k) (q : Fin 512) :
    k0_pay7 (F := Ideal) g b C D (ix2 p q) = c q * d q * g (ix1 q) + b (ix1 q) := by
  unfold k0_pay7
  exact affine_row (mulf C D) (fun k => c k * d k) (fun k => by rw [mulf_apply, hC, hD]) g b _ _ q

/-- The first branch's stored block at `(p, q)`: the branch of row `p` of the first matrix (own) and of the second (other). -/
theorem payA_apply (x0 x1 : Vec Ideal S512x512 .f32) (x2 : Vec Ideal S512x512 .bf16) (x3 : Vec Ideal S512 .f32)
    (x4 : Vec Ideal S512x512 .bf16) (x5 x6 x7 x8 x9 : Vec Ideal S512 .f32) (x10 : Vec Ideal S1024x512 .bf16)
    (x11 : Vec Ideal S1024 .f32) (x12 : Vec Ideal S512x1024 .bf16) (x13 : Vec Ideal S512 .f32) (p q : Fin 512) :
    k0_pay7 (F := Ideal) x8 x9 (k0_pay5 x6 x7 (k0_pay2 x0 x1 x2 x3 x4 x5) x10 x11 x12 x13)
        (k0_pay6 x6 x7 (k0_pay2 x0 x1 x2 x3 x4 x5) x10 x11 x12 x13) (ix2 p q)
      = Cert.RowSpec.branch (fun k => x0 (ix2 p k)) (fun k => x1 (ix2 p k)) (fun e k => x2 (ix2 e k)) (fun e => x3 (ix1 e))
          (fun e k => x4 (ix2 e k)) (fun e => x5 (ix1 e)) (fun e => x6 (ix1 e)) (fun e => x7 (ix1 e))
          (fun e k => x10 (ix2 e k)) (fun e => x11 (ix1 e)) (fun e k => x12 (ix2 e k)) (fun e => x13 (ix1 e))
          (fun e => x8 (ix1 e)) (fun e => x9 (ix1 e)) q := by
  rw [branch_eq]
  exact pay7_row x8 x9 _ _ _ _
    (fun k => pay5_row x6 x7 _ _ (fun k' => pay2_row x0 x1 x2 x3 x4 x5 p k') x10 x11 x12 x13 k)
    (fun k => pay6_row x6 x7 _ _ (fun k' => pay2_row x0 x1 x2 x3 x4 x5 p k') x10 x11 x12 x13 k) q

/-- The second branch's stored block at `(p, q)`: the same terms with the two matrices' roles exchanged. -/
theorem payB_apply (x0 x1 : Vec Ideal S512x512 .f32) (x14 : Vec Ideal S512x512 .bf16) (x15 : Vec Ideal S512 .f32)
    (x16 : Vec Ideal S512x512 .bf16) (x17 x18 x19 x20 x21 : Vec Ideal S512 .f32) (x22 : Vec Ideal S1024x512 .bf16)
    (x23 : Vec Ideal S1024 .f32) (x24 : Vec Ideal S512x1024 .bf16) (x25 : Vec Ideal S512 .f32) (p q : Fin 512) :
    k0_pay1 (F := Ideal) x20 x21 (k0_pay11 x18 x19 (k0_pay8 x0 x1 x14 x15 x16 x17) x22 x23 x24 x25)
        (k0_pay12 x18 x19 (k0_pay8 x0 x1 x14 x15 x16 x17) x22 x23 x24 x25) (ix2 p q)
      = Cert.RowSpec.branch (fun k => x1 (ix2 p k)) (fun k => x0 (ix2 p k)) (fun e k => x14 (ix2 e k)) (fun e => x15 (ix1 e))
          (fun e k => x16 (ix2 e k)) (fun e => x17 (ix1 e)) (fun e => x18 (ix1 e)) (fun e => x19 (ix1 e))
          (fun e k => x22 (ix2 e k)) (fun e => x23 (ix1 e)) (fun e k => x24 (ix2 e k)) (fun e => x25 (ix1 e))
          (fun e => x20 (ix1 e)) (fun e => x21 (ix1 e)) q :=
  payA_apply x1 x0 x14 x15 x16 x17 x18 x19 x20 x21 x22 x23 x24 x25 p q

end Cert.KernelRow

end
-- ==== Proof.Joined.lean ====
/-
  The whole result, row by row: columns 0 … 511 of row `r` are the first branch of the two data rows `r`
  (own row from the first matrix), columns 512 … 1023 the second branch (own row from the second matrix), each
  branch with its own twelve parameter arrays. Stated for any number of rows, so that one function serves a
  block of rows and the whole array.
-/
import Idealize.ShloMosaic.Lib.ValueIdx
import proofs.«142812_j30056181138117_1_alg».proof.Proof.RowSpec

noncomputable section

open Idealize.ShloMosaic Idealize.ShloMosaic.ValueIdx

namespace Cert.Joined

/-- The twelve parameter arrays of one branch, by coordinates. -/
structure Params where
  wv : Fin 512 → Fin 512 → EReal
  bv : Fin 512 → EReal
  wo : Fin 512 → Fin 512 → EReal
  bo : Fin 512 → EReal
  g1 : Fin 512 → EReal
  b1 : Fin 512 → EReal
  w1 : Fin 1024 → Fin 512 → EReal
  c1 : Fin 1024 → EReal
  w2 : Fin 512 → Fin 1024 → EReal
  c2 : Fin 512 → EReal
  g3 : Fin 512 → EReal
  b3 : Fin 512 → EReal

/-- A branch with its parameters bundled. -/
def Params.row (P : Params) (xs xo : Fin 512 → EReal) : Fin 512 → EReal :=
  Cert.RowSpec.branch xs xo P.wv P.bv P.wo P.bo P.g1 P.b1 P.w1 P.c1 P.w2 P.c2 P.g3 P.b3

/-- The column inside its half: `c mod 512`. -/
def col {M : ℕ} (i : (⟨2, ![M, 1024]⟩ : Shape).Idx) : Fin 512 := ⟨(i 1).val % 512, Nat.mod_lt _ (by norm_num)⟩

/-- The result array of `M` rows. -/
def joined {M : ℕ} (a0 a1 : (⟨2, ![M, 512]⟩ : Shape).Idx → EReal) (PA PB : Params) :
    (⟨2, ![M, 1024]⟩ : Shape).Idx → EReal := fun i =>
  if (i 1).val < 512 then PA.row (fun k => a0 (ix2 (i 0) k)) (fun k => a1 (ix2 (i 0) k)) (col i)
  else PB.row (fun k => a1 (ix2 (i 0) k)) (fun k => a0 (ix2 (i 0) k)) (col i)

/-- In the left half the result is the first branch. -/
theorem joined_left {M : ℕ} (a0 a1 : (⟨2, ![M, 512]⟩ : Shape).Idx → EReal) (PA PB : Params)
    (i : (⟨2, ![M, 1024]⟩ : Shape).Idx) (p : Fin M) (q : Fin 512) (h0 : i 0 = p) (h1 : (i 1).val = q.val) :
    joined a0 a1 PA PB i = PA.row (fun k => a0 (ix2 p k)) (fun k => a1 (ix2 p k)) q := by
  have hq := q.isLt
  have hc : col i = q := Fin.ext (by show (i 1).val % 512 = q.val; omega)
  unfold joined
  rw [if_pos (by omega), h0, hc]

/-- In the right half the result is the second branch. -/
theorem joined_right {M : ℕ} (a0 a1 : (⟨2, ![M, 512]⟩ : Shape).Idx → EReal) (PA PB : Params)
    (i : (⟨2, ![M, 1024]⟩ : Shape).Idx) (p : Fin M) (q : Fin 512) (h0 : i 0 = p) (h1 : (i 1).val = 512 + q.val) :
    joined a0 a1 PA PB i = PB.row (fun k => a1 (ix2 p k)) (fun k => a0 (ix2 p k)) q := by
  have hq := q.isLt
  have hc : col i = q := Fin.ext (by show (i 1).val % 512 = q.val; omega)
  unfold joined
  rw [if_neg (by omega), h0, hc]

end Cert.Joined

end
-- ==== Proof.KernelArray.lean ====
/-
  From blocks to the array. The grid has 64 points; point `t` stages rows `512 t … 512 t + 511` of the two data
  matrices and the whole of every parameter array, and writes back rows `512 t … 512 t + 511` of the result. What
  the body leaves in the output block is the joined row function of the staged blocks (its two stores are the two
  halves of the columns), so every point writes the matching block of ONE function of the arrays, and the 64 blocks
  cover the result array.
-/
import proofs.«142812_j30056181138117_1_alg».proof.Proof.Gen.KernelIdeal.Value
import proofs.«142812_j30056181138117_1_alg».proof.Proof.KernelRow
import proofs.«142812_j30056181138117_1_alg».proof.Proof.Joined
import Idealize.ShloMosaic.Lib.Pipeline.Value
import Idealize.ShloMosaic.Lib.ValueIdx

noncomputable section

open Cert.KernelIdeal Cert.KernelIdeal.Gen Cert.KernelIdeal.Value Idealize.ShloMosaic Idealize.ShloMosaic.TcCoe Idealize.SL.Sem
open Idealize.ShloMosaic.ValueIdx Cert.Joined
open Idealize.ShloMosaic.Pipeline (Dat)

namespace Cert.KernelArray

/-- A branch's parameters from its twelve arrays, by coordinates. -/
def ofArrays (wv : S512x512.Idx → EReal) (bv : S512.Idx → EReal) (wo : S512x512.Idx → EReal) (bo g1 b1 : S512.Idx → EReal)
    (w1 : S1024x512.Idx → EReal) (c1 : S1024.Idx → EReal) (w2 : S512x1024.Idx → EReal) (c2 g3 b3 : S512.Idx → EReal) : Params :=
  ⟨fun e k => wv (ix2 e k), fun e => bv (ix1 e), fun e k => wo (ix2 e k), fun e => bo (ix1 e), fun e => g1 (ix1 e), fun e => b1 (ix1 e),
   fun e k => w1 (ix2 e k), fun e => c1 (ix1 e), fun e k => w2 (ix2 e k), fun e => c2 (ix1 e), fun e => g3 (ix1 e), fun e => b3 (ix1 e)⟩

theorem hz1 : (![0] : Fin 1 → Nat) = fun _ => 0 := funext fun a => by fin_cases a; rfl
theorem hz2 : (![0, 0] : Fin 2 → Nat) = fun _ => 0 := funext fun a => by fin_cases a <;> rfl

/-! ## The body's block -/

/-- What the body leaves in the output block: the joined row function of the staged blocks. The store at columns
    0 … 511 holds the first branch, the store at columns 512 … 1023 the second. -/
theorem block_eq (x0 x1 : Vec Ideal S512x512 .f32) (x2 : Vec Ideal S512x512 .bf16) (x3 : Vec Ideal S512 .f32) (x4 : Vec Ideal S512x512 .bf16)
    (x5 x6 x7 x8 x9 : Vec Ideal S512 .f32) (x10 : Vec Ideal S1024x512 .bf16) (x11 : Vec Ideal S1024 .f32) (x12 : Vec Ideal S512x1024 .bf16)
    (x13 : Vec Ideal S512 .f32) (x14 : Vec Ideal S512x512 .bf16) (x15 : Vec Ideal S512 .f32) (x16 : Vec Ideal S512x512 .bf16)
    (x17 x18 x19 x20 x21 : Vec Ideal S512 .f32) (x22 : Vec Ideal S1024x512 .bf16) (x23 : Vec Ideal S1024 .f32) (x24 : Vec Ideal S512x1024 .bf16)
    (x25 : Vec Ideal S512 .f32) :
    out0_26 (F := Ideal) x0 x1 x2 x3 x4 x5 x6 x7 x8 x9 x10 x11 x12 x13 x14 x15 x16 x17 x18 x19 x20 x21 x22 x23 x24 x25
      = joined (M := 512) x0 x1 (ofArrays x2 x3 x4 x5 x6 x7 x10 x11 x12 x13 x8 x9) (ofArrays x14 x15 x16 x17 x18 x19 x22 x23 x24 x25 x20 x21) := by
  funext y
  unfold out0_26
  refine View.canon_apply_of_pieces (Val := Elt Ideal) (S := S512x1024) (e := .f32)
    (joined (M := 512) x0 x1 (ofArrays x2 x3 x4 x5 x6 x7 x10 x11 x12 x13 x8 x9) (ofArrays x14 x15 x16 x17 x18 x19 x22 x23 x24 x25 x20 x21) : S512x1024.Idx → Elt Ideal .f32) _ ?_ y (cover0_26 _ _ y)
  intro pc hpc
  simp only [List.mem_cons, List.not_mem_nil, or_false] at hpc
  rcases hpc with rfl | rfl
  · intro x
    obtain ⟨p, q, rfl⟩ : ∃ (p q : Fin 512), x = ix2 p q := ⟨x 0, x 1, eq_ix2 x⟩
    simp only [View.ld_unit_zero (S := S512x512) hz2, View.ld_unit_zero (S := S512) hz1, View.ld_unit_zero (S := S1024x512) hz2,
      View.ld_unit_zero (S := S1024) hz1, View.ld_unit_zero (S := S512x1024) hz2]
    rw [Cert.KernelRow.payB_apply]
    have hj := joined_right (M := 512) x0 x1 (ofArrays x2 x3 x4 x5 x6 x7 x10 x11 x12 x13 x8 x9) (ofArrays x14 x15 x16 x17 x18 x19 x22 x23 x24 x25 x20 x21) (r0_6.emb (ix2 p q)) p q
      (Fin.ext (by show 0 + 1 * p.val = p.val; omega)) (by show 512 + 1 * q.val = 512 + q.val; omega)
    exact hj.symm
  · intro x
    obtain ⟨p, q, rfl⟩ : ∃ (p q : Fin 512), x = ix2 p q := ⟨x 0, x 1, eq_ix2 x⟩
    simp only [View.ld_unit_zero (S := S512x512) hz2, View.ld_unit_zero (S := S512) hz1, View.ld_unit_zero (S := S1024x512) hz2,
      View.ld_unit_zero (S := S1024) hz1, View.ld_unit_zero (S := S512x1024) hz2]
    rw [Cert.KernelRow.payA_apply]
    have hj := joined_left (M := 512) x0 x1 (ofArrays x2 x3 x4 x5 x6 x7 x10 x11 x12 x13 x8 x9) (ofArrays x14 x15 x16 x17 x18 x19 x22 x23 x24 x25 x20 x21) (r0_5.emb (ix2 p q)) p q
      (Fin.ext (by show 0 + 1 * p.val = p.val; omega)) (by show 0 + 1 * q.val = q.val; omega)
    exact hj.symm

/-! ## The index maps, decided over the 64 points -/

theorem idx_rows : ∀ t : Fin cfg0.N, win0_0.index t (0 : Fin 2) = t.val ∧ win0_0.index t (1 : Fin 2) = 0
    ∧ win0_1.index t (0 : Fin 2) = t.val ∧ win0_1.index t (1 : Fin 2) = 0
    ∧ win0_26.index t (0 : Fin 2) = t.val ∧ win0_26.index t (1 : Fin 2) = 0 :=
  (by decide +kernel : ∀ t : Fin grid0.N, _)
theorem idx_w2 : ∀ t : Fin cfg0.N, win0_2.index t (0 : Fin 2) = 0 ∧ win0_2.index t (1 : Fin 2) = 0 :=
  (by decide +kernel : ∀ t : Fin grid0.N, _)
theorem idx_w3 : ∀ t : Fin cfg0.N, win0_3.index t (0 : Fin 1) = 0 :=
  (by decide +kernel : ∀ t : Fin grid0.N, _)
theorem idx_w4 : ∀ t : Fin cfg0.N, win0_4.index t (0 : Fin 2) = 0 ∧ win0_4.index t (1 : Fin 2) = 0 :=
  (by decide +kernel : ∀ t : Fin grid0.N, _)
theorem idx_w5 : ∀ t : Fin cfg0.N, win0_5.index t (0 : Fin 1) = 0 :=
  (by decide +kernel : ∀ t : Fin grid0.N, _)
theorem idx_w6 : ∀ t : Fin cfg0.N, win0_6.index t (0 : Fin 1) = 0 :=
  (by decide +kernel : ∀ t : Fin grid0.N, _)
theorem idx_w7 : ∀ t : Fin cfg0.N, win0_7.index t (0 : Fin 1) = 0 :=
  (by decide +kernel : ∀ t : Fin grid0.N, _)
theorem idx_w8 : ∀ t : Fin cfg0.N, win0_8.index t (0 : Fin 1) = 0 :=
  (by decide +kernel : ∀ t : Fin grid0.N, _)
theorem idx_w9 : ∀ t : Fin cfg0.N, win0_9.index t (0 : Fin 1) = 0 :=
  (by decide +kernel : ∀ t : Fin grid0.N, _)
theorem idx_w10 : ∀ t : Fin cfg0.N, win0_10.index t (0 : Fin 2) = 0 ∧ win0_10.index t (1 : Fin 2) = 0 :=
  (by decide +kernel : ∀ t : Fin grid0.N, _)
theorem idx_w11 : ∀ t : Fin cfg0.N, win0_11.index t (0 : Fin 1) = 0 :=
  (by decide +kernel : ∀ t : Fin grid0.N, _)
theorem idx_w12 : ∀ t : Fin cfg0.N, win0_12.index t (0 : Fin 2) = 0 ∧ win0_12.index t (1 : Fin 2) = 0 :=
  (by decide +kernel : ∀ t : Fin grid0.N, _)
theorem idx_w13 : ∀ t : Fin cfg0.N, win0_13.index t (0 : Fin 1) = 0 :=
  (by decide +kernel : ∀ t : Fin grid0.N, _)
theorem idx_w14 : ∀ t : Fin cfg0.N, win0_14.index t (0 : Fin 2) = 0 ∧ win0_14.index t (1 : Fin 2) = 0 :=
  (by decide +kernel : ∀ t : Fin grid0.N, _)
theorem idx_w15 : ∀ t : Fin cfg0.N, win0_15.index t (0 : Fin 1) = 0 :=
  (by decide +kernel : ∀ t : Fin grid0.N, _)
theorem idx_w16 : ∀ t : Fin cfg0.N, win0_16.index t (0 : Fin 2) = 0 ∧ win0_16.index t (1 : Fin 2) = 0 :=
  (by decide +kernel : ∀ t : Fin grid0.N, _)
theorem idx_w17 : ∀ t : Fin cfg0.N, win0_17.index t (0 : Fin 1) = 0 :=
  (by decide +kernel : ∀ t : Fin grid0.N, _)
theorem idx_w18 : ∀ t : Fin cfg0.N, win0_18.index t (0 : Fin 1) = 0 :=
  (by decide +kernel : ∀ t : Fin grid0.N, _)
theorem idx_w19 : ∀ t : Fin cfg0.N, win0_19.index t (0 : Fin 1) = 0 :=
  (by decide +kernel : ∀ t : Fin grid0.N, _)
theorem idx_w20 : ∀ t : Fin cfg0.N, win0_20.index t (0 : Fin 1) = 0 :=
  (by decide +kernel : ∀ t : Fin grid0.N, _)
theorem idx_w21 : ∀ t : Fin cfg0.N, win0_21.index t (0 : Fin 1) = 0 :=
  (by decide +kernel : ∀ t : Fin grid0.N, _)
theorem idx_w22 : ∀ t : Fin cfg0.N, win0_22.index t (0 : Fin 2) = 0 ∧ win0_22.index t (1 : Fin 2) = 0 :=
  (by decide +kernel : ∀ t : Fin grid0.N, _)
theorem idx_w23 : ∀ t : Fin cfg0.N, win0_23.index t (0 : Fin 1) = 0 :=
  (by decide +kernel : ∀ t : Fin grid0.N, _)
theorem idx_w24 : ∀ t : Fin cfg0.N, win0_24.index t (0 : Fin 2) = 0 ∧ win0_24.index t (1 : Fin 2) = 0 :=
  (by decide +kernel : ∀ t : Fin grid0.N, _)
theorem idx_w25 : ∀ t : Fin cfg0.N, win0_25.index t (0 : Fin 1) = 0 :=
  (by decide +kernel : ∀ t : Fin grid0.N, _)

variable (m : (ℓ : Loc nD τ sig) → Buf (Elt Ideal) ℓ) (ρ : Dev nD → PrngReg)

/-! ## What each staged block holds -/

/-- The row of a data block: row `p` of point `t`'s block is row `512 t + p` of the matrix. -/
theorem read_w0 (c : Dev nD) (t : Fin cfg0.N) (p k : Fin 512) (P : Fin 32768) (hP : P.val = t.val * 512 + p.val) :
    (iblk m c 0 t : S512x512.Idx → EReal) (ix2 p k) = V m c main_arg0 (ix2 P k) := by
  obtain ⟨e0, e1, -⟩ := idx_rows t
  show V m c main_arg0 (((cfg0.win 0).blk t).view.emb (ix2 p k)) = _
  refine congrArg _ ?_
  funext a; apply Fin.ext
  match a with
  | ⟨0, _⟩ => show win0_0.index t (0 : Fin 2) * 512 + 1 * p.val = P.val; omega
  | ⟨1, _⟩ => show win0_0.index t (1 : Fin 2) * 512 + 1 * k.val = k.val; omega

theorem read_w1 (c : Dev nD) (t : Fin cfg0.N) (p k : Fin 512) (P : Fin 32768) (hP : P.val = t.val * 512 + p.val) :
    (iblk m c 1 t : S512x512.Idx → EReal) (ix2 p k) = V m c main_arg1 (ix2 P k) := by
  obtain ⟨-, -, e0, e1, -⟩ := idx_rows t
  show V m c main_arg1 (((cfg0.win 1).blk t).view.emb (ix2 p k)) = _
  refine congrArg _ ?_
  funext a; apply Fin.ext
  match a with
  | ⟨0, _⟩ => show win0_1.index t (0 : Fin 2) * 512 + 1 * p.val = P.val; omega
  | ⟨1, _⟩ => show win0_1.index t (1 : Fin 2) * 512 + 1 * k.val = k.val; omega

/-- A parameter block is the whole array. -/
theorem read_w2 (c : Dev nD) (t : Fin cfg0.N) (e : Fin 512) (k : Fin 512) :
    (iblk m c 2 t : S512x512.Idx → EReal) (ix2 e k) = V m c main_v1 (ix2 e k) := by
  obtain ⟨e0, e1⟩ := idx_w2 t
  show V m c main_v1 (((cfg0.win 2).blk t).view.emb (ix2 e k)) = _
  refine congrArg _ ?_
  funext a; apply Fin.ext
  match a with
  | ⟨0, _⟩ => show win0_2.index t (0 : Fin 2) * 512 + 1 * e.val = e.val; omega
  | ⟨1, _⟩ => show win0_2.index t (1 : Fin 2) * 512 + 1 * k.val = k.val; omega

theorem read_w3 (c : Dev nD) (t : Fin cfg0.N) (e : Fin 512) :
    (iblk m c 3 t : S512.Idx → EReal) (ix1 e) = V m c main_v2 (ix1 e) := by
  have e0 := idx_w3 t
  show V m c main_v2 (((cfg0.win 3).blk t).view.emb (ix1 e)) = _
  refine congrArg _ ?_
  funext a; apply Fin.ext
  match a with
  | ⟨0, _⟩ => show win0_3.index t (0 : Fin 1) * 512 + 1 * e.val = e.val; omega

/-- A parameter block is the whole array. -/
theorem read_w4 (c : Dev nD) (t : Fin cfg0.N) (e : Fin 512) (k : Fin 512) :
    (iblk m c 4 t : S512x512.Idx → EReal) (ix2 e k) = V m c main_v3 (ix2 e k) := by
  obtain ⟨e0, e1⟩ := idx_w4 t
  show V m c main_v3 (((cfg0.win 4).blk t).view.emb (ix2 e k)) = _
  refine congrArg _ ?_
  funext a; apply Fin.ext
  match a with
  | ⟨0, _⟩ => show win0_4.index t (0 : Fin 2) * 512 + 1 * e.val = e.val; omega
  | ⟨1, _⟩ => show win0_4.index t (1 : Fin 2) * 512 + 1 * k.val = k.val; omega

theorem read_w5 (c : Dev nD) (t : Fin cfg0.N) (e : Fin 512) :
    (iblk m c 5 t : S512.Idx → EReal) (ix1 e) = V m c main_arg5 (ix1 e) := by
  have e0 := idx_w5 t
  show V m c main_arg5 (((cfg0.win 5).blk t).view.emb (ix1 e)) = _
  refine congrArg _ ?_
  funext a; apply Fin.ext
  match a with
  | ⟨0, _⟩ => show win0_5.index t (0 : Fin 1) * 512 + 1 * e.val = e.val; omega

theorem read_w6 (c : Dev nD) (t : Fin cfg0.N) (e : Fin 512) :
    (iblk m c 6 t : S512.Idx → EReal) (ix1 e) = V m c main_arg10 (ix1 e) := by
  have e0 := idx_w6 t
  show V m c main_arg10 (((cfg0.win 6).blk t).view.emb (ix1 e)) = _
  refine congrArg _ ?_
  funext a; apply Fin.ext
  match a with
  | ⟨0, _⟩ => show win0_6.index t (0 : Fin 1) * 512 + 1 * e.val = e.val; omega

theorem read_w7 (c : Dev nD) (t : Fin cfg0.N) (e : Fin 512) :
    (iblk m c 7 t : S512.Idx → EReal) (ix1 e) = V m c main_arg11 (ix1 e) := by
  have e0 := idx_w7 t
  show V m c main_arg11 (((cfg0.win 7).blk t).view.emb (ix1 e)) = _
  refine congrArg _ ?_
  funext a; apply Fin.ext
  match a with
  | ⟨0, _⟩ => show win0_7.index t (0 : Fin 1) * 512 + 1 * e.val = e.val; omega

theorem read_w8 (c : Dev nD) (t : Fin cfg0.N) (e : Fin 512) :
    (iblk m c 8 t : S512.Idx → EReal) (ix1 e) = V m c main_arg14 (ix1 e) := by
  have e0 := idx_w8 t
  show V m c main_arg14 (((cfg0.win 8).blk t).view.emb (ix1 e)) = _
  refine congrArg _ ?_
  funext a; apply Fin.ext
  match a with
  | ⟨0, _⟩ => show win0_8.index t (0 : Fin 1) * 512 + 1 * e.val = e.val; omega

theorem read_w9 (c : Dev nD) (t : Fin cfg0.N) (e : Fin 512) :
    (iblk m c 9 t : S512.Idx → EReal) (ix1 e) = V m c main_arg15 (ix1 e) := by
  have e0 := idx_w9 t
  show V m c main_arg15 (((cfg0.win 9).blk t).view.emb (ix1 e)) = _
  refine congrArg _ ?_
  funext a; apply Fin.ext
  match a with
  | ⟨0, _⟩ => show win0_9.index t (0 : Fin 1) * 512 + 1 * e.val = e.val; omega

/-- A parameter block is the whole array. -/
theorem read_w10 (c : Dev nD) (t : Fin cfg0.N) (e : Fin 1024) (k : Fin 512) :
    (iblk m c 10 t : S1024x512.Idx → EReal) (ix2 e k) = V m c main_v8 (ix2 e k) := by
  obtain ⟨e0, e1⟩ := idx_w10 t
  show V m c main_v8 (((cfg0.win 10).blk t).view.emb (ix2 e k)) = _
  refine congrArg _ ?_
  funext a; apply Fin.ext
  match a with
  | ⟨0, _⟩ => show win0_10.index t (0 : Fin 2) * 1024 + 1 * e.val = e.val; omega
  | ⟨1, _⟩ => show win0_10.index t (1 : Fin 2) * 512 + 1 * k.val = k.val; omega

theorem read_w11 (c : Dev nD) (t : Fin cfg0.N) (e : Fin 1024) :
    (iblk m c 11 t : S1024.Idx → EReal) (ix1 e) = V m c main_arg19 (ix1 e) := by
  have e0 := idx_w11 t
  show V m c main_arg19 (((cfg0.win 11).blk t).view.emb (ix1 e)) = _
  refine congrArg _ ?_
  funext a; apply Fin.ext
  match a with
  | ⟨0, _⟩ => show win0_11.index t (0 : Fin 1) * 1024 + 1 * e.val = e.val; omega

/-- A parameter block is the whole array. -/
theorem read_w12 (c : Dev nD) (t : Fin cfg0.N) (e : Fin 512) (k : Fin 1024) :
    (iblk m c 12 t : S512x1024.Idx → EReal) (ix2 e k) = V m c main_v9 (ix2 e k) := by
  obtain ⟨e0, e1⟩ := idx_w12 t
  show V m c main_v9 (((cfg0.win 12).blk t).view.emb (ix2 e k)) = _
  refine congrArg _ ?_
  funext a; apply Fin.ext
  match a with
  | ⟨0, _⟩ => show win0_12.index t (0 : Fin 2) * 512 + 1 * e.val = e.val; omega
  | ⟨1, _⟩ => show win0_12.index t (1 : Fin 2) * 1024 + 1 * k.val = k.val; omega

theorem read_w13 (c : Dev nD) (t : Fin cfg0.N) (e : Fin 512) :
    (iblk m c 13 t : S512.Idx → EReal) (ix1 e) = V m c main_arg21 (ix1 e) := by
  have e0 := idx_w13 t
  show V m c main_arg21 (((cfg0.win 13).blk t).view.emb (ix1 e)) = _
  refine congrArg _ ?_
  funext a; apply Fin.ext
  match a with
  | ⟨0, _⟩ => show win0_13.index t (0 : Fin 1) * 512 + 1 * e.val = e.val; omega

/-- A parameter block is the whole array. -/
theorem read_w14 (c : Dev nD) (t : Fin cfg0.N) (e : Fin 512) (k : Fin 512) :
    (iblk m c 14 t : S512x512.Idx → EReal) (ix2 e k) = V m c main_v5 (ix2 e k) := by
  obtain ⟨e0, e1⟩ := idx_w14 t
  show V m c main_v5 (((cfg0.win 14).blk t).view.emb (ix2 e k)) = _
  refine congrArg _ ?_
  funext a; apply Fin.ext
  match a with
  | ⟨0, _⟩ => show win0_14.index t (0 : Fin 2) * 512 + 1 * e.val = e.val; omega
  | ⟨1, _⟩ => show win0_14.index t (1 : Fin 2) * 512 + 1 * k.val = k.val; omega

theorem read_w15 (c : Dev nD) (t : Fin cfg0.N) (e : Fin 512) :
    (iblk m c 15 t : S512.Idx → EReal) (ix1 e) = V m c main_v6 (ix1 e) := by
  have e0 := idx_w15 t
  show V m c main_v6 (((cfg0.win 15).blk t).view.emb (ix1 e)) = _
  refine congrArg _ ?_
  funext a; apply Fin.ext
  match a with
  | ⟨0, _⟩ => show win0_15.index t (0 : Fin 1) * 512 + 1 * e.val = e.val; omega

/-- A parameter block is the whole array. -/
theorem read_w16 (c : Dev nD) (t : Fin cfg0.N) (e : Fin 512) (k : Fin 512) :
    (iblk m c 16 t : S512x512.Idx → EReal) (ix2 e k) = V m c main_v7 (ix2 e k) := by
  obtain ⟨e0, e1⟩ := idx_w16 t
  show V m c main_v7 (((cfg0.win 16).blk t).view.emb (ix2 e k)) = _
  refine congrArg _ ?_
  funext a; apply Fin.ext
  match a with
  | ⟨0, _⟩ => show win0_16.index t (0 : Fin 2) * 512 + 1 * e.val = e.val; omega
  | ⟨1, _⟩ => show win0_16.index t (1 : Fin 2) * 512 + 1 * k.val = k.val; omega

theorem read_w17 (c : Dev nD) (t : Fin cfg0.N) (e : Fin 512) :
    (iblk m c 17 t : S512.Idx → EReal) (ix1 e) = V m c main_arg9 (ix1 e) := by
  have e0 := idx_w17 t
  show V m c main_arg9 (((cfg0.win 17).blk t).view.emb (ix1 e)) = _
  refine congrArg _ ?_
  funext a; apply Fin.ext
  match a with
  | ⟨0, _⟩ => show win0_17.index t (0 : Fin 1) * 512 + 1 * e.val = e.val; omega

theorem read_w18 (c : Dev nD) (t : Fin cfg0.N) (e : Fin 512) :
    (iblk m c 18 t : S512.Idx → EReal) (ix1 e) = V m c main_arg12 (ix1 e) := by
  have e0 := idx_w18 t
  show V m c main_arg12 (((cfg0.win 18).blk t).view.emb (ix1 e)) = _
  refine congrArg _ ?_
  funext a; apply Fin.ext
  match a with
  | ⟨0, _⟩ => show win0_18.index t (0 : Fin 1) * 512 + 1 * e.val = e.val; omega

theorem read_w19 (c : Dev nD) (t : Fin cfg0.N) (e : Fin 512) :
    (iblk m c 19 t : S512.Idx → EReal) (ix1 e) = V m c main_arg13 (ix1 e) := by
  have e0 := idx_w19 t
  show V m c main_arg13 (((cfg0.win 19).blk t).view.emb (ix1 e)) = _
  refine congrArg _ ?_
  funext a; apply Fin.ext
  match a with
  | ⟨0, _⟩ => show win0_19.index t (0 : Fin 1) * 512 + 1 * e.val = e.val; omega

theorem read_w20 (c : Dev nD) (t : Fin cfg0.N) (e : Fin 512) :
    (iblk m c 20 t : S512.Idx → EReal) (ix1 e) = V m c main_arg16 (ix1 e) := by
  have e0 := idx_w20 t
  show V m c main_arg16 (((cfg0.win 20).blk t).view.emb (ix1 e)) = _
  refine congrArg _ ?_
  funext a; apply Fin.ext
  match a with
  | ⟨0, _⟩ => show win0_20.index t (0 : Fin 1) * 512 + 1 * e.val = e.val; omega

theorem read_w21 (c : Dev nD) (t : Fin cfg0.N) (e : Fin 512) :
    (iblk m c 21 t : S512.Idx → EReal) (ix1 e) = V m c main_arg17 (ix1 e) := by
  have e0 := idx_w21 t
  show V m c main_arg17 (((cfg0.win 21).blk t).view.emb (ix1 e)) = _
  refine congrArg _ ?_
  funext a; apply Fin.ext
  match a with
  | ⟨0, _⟩ => show win0_21.index t (0 : Fin 1) * 512 + 1 * e.val = e.val; omega

/-- A parameter block is the whole array. -/
theorem read_w22 (c : Dev nD) (t : Fin cfg0.N) (e : Fin 1024) (k : Fin 512) :
    (iblk m c 22 t : S1024x512.Idx → EReal) (ix2 e k) = V m c main_v10 (ix2 e k) := by
  obtain ⟨e0, e1⟩ := idx_w22 t
  show V m c main_v10 (((cfg0.win 22).blk t).view.emb (ix2 e k)) = _
  refine congrArg _ ?_
  funext a; apply Fin.ext
  match a with
  | ⟨0, _⟩ => show win0_22.index t (0 : Fin 2) * 1024 + 1 * e.val = e.val; omega
  | ⟨1, _⟩ => show win0_22.index t (1 : Fin 2) * 512 + 1 * k.val = k.val; omega

theorem read_w23 (c : Dev nD) (t : Fin cfg0.N) (e : Fin 1024) :
    (iblk m c 23 t : S1024.Idx → EReal) (ix1 e) = V m c main_arg23 (ix1 e) := by
  have e0 := idx_w23 t
  show V m c main_arg23 (((cfg0.win 23).blk t).view.emb (ix1 e)) = _
  refine congrArg _ ?_
  funext a; apply Fin.ext
  match a with
  | ⟨0, _⟩ => show win0_23.index t (0 : Fin 1) * 1024 + 1 * e.val = e.val; omega

/-- A parameter block is the whole array. -/
theorem read_w24 (c : Dev nD) (t : Fin cfg0.N) (e : Fin 512) (k : Fin 1024) :
    (iblk m c 24 t : S512x1024.Idx → EReal) (ix2 e k) = V m c main_v11 (ix2 e k) := by
  obtain ⟨e0, e1⟩ := idx_w24 t
  show V m c main_v11 (((cfg0.win 24).blk t).view.emb (ix2 e k)) = _
  refine congrArg _ ?_
  funext a; apply Fin.ext
  match a with
  | ⟨0, _⟩ => show win0_24.index t (0 : Fin 2) * 512 + 1 * e.val = e.val; omega
  | ⟨1, _⟩ => show win0_24.index t (1 : Fin 2) * 1024 + 1 * k.val = k.val; omega

theorem read_w25 (c : Dev nD) (t : Fin cfg0.N) (e : Fin 512) :
    (iblk m c 25 t : S512.Idx → EReal) (ix1 e) = V m c main_arg25 (ix1 e) := by
  have e0 := idx_w25 t
  show V m c main_arg25 (((cfg0.win 25).blk t).view.emb (ix1 e)) = _
  refine congrArg _ ?_
  funext a; apply Fin.ext
  match a with
  | ⟨0, _⟩ => show win0_25.index t (0 : Fin 1) * 512 + 1 * e.val = e.val; omega

/-- The parameters read off point `t`'s staged blocks are the parameters read off the arrays. -/
theorem paramsA_eq (c : Dev nD) (t : Fin cfg0.N) :
    ofArrays (iblk m c 2 t) (iblk m c 3 t) (iblk m c 4 t) (iblk m c 5 t) (iblk m c 6 t) (iblk m c 7 t) (iblk m c 10 t) (iblk m c 11 t) (iblk m c 12 t) (iblk m c 13 t) (iblk m c 8 t) (iblk m c 9 t) = ofArrays (V m c main_v1) (V m c main_v2) (V m c main_v3) (V m c main_arg5) (V m c main_arg10) (V m c main_arg11) (V m c main_v8) (V m c main_arg19) (V m c main_v9) (V m c main_arg21) (V m c main_arg14) (V m c main_arg15) := by
  unfold ofArrays
  congr 1
  · funext e k; exact read_w2 m c t e k
  · funext e; exact read_w3 m c t e
  · funext e k; exact read_w4 m c t e k
  · funext e; exact read_w5 m c t e
  · funext e; exact read_w6 m c t e
  · funext e; exact read_w7 m c t e
  · funext e k; exact read_w10 m c t e k
  · funext e; exact read_w11 m c t e
  · funext e k; exact read_w12 m c t e k
  · funext e; exact read_w13 m c t e
  · funext e; exact read_w8 m c t e
  · funext e; exact read_w9 m c t e

theorem paramsB_eq (c : Dev nD) (t : Fin cfg0.N) :
    ofArrays (iblk m c 14 t) (iblk m c 15 t) (iblk m c 16 t) (iblk m c 17 t) (iblk m c 18 t) (iblk m c 19 t) (iblk m c 22 t) (iblk m c 23 t) (iblk m c 24 t) (iblk m c 25 t) (iblk m c 20 t) (iblk m c 21 t) = ofArrays (V m c main_v5) (V m c main_v6) (V m c main_v7) (V m c main_arg9) (V m c main_arg12) (V m c main_arg13) (V m c main_v10) (V m c main_arg23) (V m c main_v11) (V m c main_arg25) (V m c main_arg16) (V m c main_arg17) := by
  unfold ofArrays
  congr 1
  · funext e k; exact read_w14 m c t e k
  · funext e; exact read_w15 m c t e
  · funext e k; exact read_w16 m c t e k
  · funext e; exact read_w17 m c t e
  · funext e; exact read_w18 m c t e
  · funext e; exact read_w19 m c t e
  · funext e k; exact read_w22 m c t e k
  · funext e; exact read_w23 m c t e
  · funext e k; exact read_w24 m c t e k
  · funext e; exact read_w25 m c t e
  · funext e; exact read_w20 m c t e
  · funext e; exact read_w21 m c t e

/-! ## What a point writes back, the cover, and the array -/

/-- The whole result as ONE function of the arrays the region finds. -/
abbrev result (c : Dev nD) : S32768x1024.Idx → EReal :=
  joined (M := 32768) (V m c main_arg0) (V m c main_arg1) (ofArrays (V m c main_v1) (V m c main_v2) (V m c main_v3) (V m c main_arg5) (V m c main_arg10) (V m c main_arg11) (V m c main_v8) (V m c main_arg19) (V m c main_v9) (V m c main_arg21) (V m c main_arg14) (V m c main_arg15)) (ofArrays (V m c main_v5) (V m c main_v6) (V m c main_v7) (V m c main_arg9) (V m c main_arg12) (V m c main_arg13) (V m c main_v10) (V m c main_arg23) (V m c main_v11) (V m c main_arg25) (V m c main_arg16) (V m c main_arg17))

/-- Point `t` writes back block `t` of `result`. -/
theorem flushed_eq (c : Dev nD) (t : Fin cfg0.N) :
    (dats m 0 c).flushed 26 t = ((cfg0.win 26).blk t).view.read (Elt Ideal) (result m c) := by
  refine (flushed26 m c t).trans ?_
  refine (congrArg ((cfg0.win 26).cut (grid0.coords t)) (block_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t))).trans ?_
  rw [paramsA_eq m c t, paramsB_eq m c t]
  obtain ⟨-, -, -, -, e0, e1⟩ := idx_rows t
  have ht : t.val < 64 := lt_of_lt_of_eq t.isLt (show cfg0.N = 64 from N_0)
  funext y
  obtain ⟨p, q, rfl⟩ : ∃ (p : Fin 512) (q : Fin 1024), y = ix2 p q := ⟨y 0, y 1, eq_ix2 y⟩
  have hp := p.isLt
  have hq := q.isLt
  let P : Fin 32768 := ⟨t.val * 512 + p.val, by omega⟩
  have hrow0 : (fun k => (iblk m c 0 t : S512x512.Idx → EReal) (ix2 p k)) = fun k => V m c main_arg0 (ix2 P k) :=
    funext fun k => read_w0 m c t p k P rfl
  have hrow1 : (fun k => (iblk m c 1 t : S512x512.Idx → EReal) (ix2 p k)) = fun k => V m c main_arg1 (ix2 P k) :=
    funext fun k => read_w1 m c t p k P rfl
  have hE0 : (((cfg0.win 26).blk t).view.emb (ix2 p q)) 0 = P :=
    Fin.ext (by show win0_26.index t (0 : Fin 2) * 512 + 1 * p.val = t.val * 512 + p.val; omega)
  have hE1 : ((((cfg0.win 26).blk t).view.emb (ix2 p q)) 1).val = q.val := by
    show win0_26.index t (1 : Fin 2) * 1024 + 1 * q.val = q.val; omega
  show joined (M := 512) (iblk m c 0 t) (iblk m c 1 t) _ _ (ix2 p q) = result m c (((cfg0.win 26).blk t).view.emb (ix2 p q))
  by_cases hlt : q.val < 512
  · rw [joined_left (M := 512) _ _ _ _ (ix2 p q) p ⟨q.val, hlt⟩ rfl rfl]
    refine Eq.trans ?_ (joined_left (M := 32768) (V m c main_arg0) (V m c main_arg1) _ _ _ P ⟨q.val, hlt⟩ hE0 hE1).symm
    rw [hrow0, hrow1]
  · rw [joined_right (M := 512) _ _ _ _ (ix2 p q) p ⟨q.val - 512, by omega⟩ rfl (by show q.val = 512 + (q.val - 512); omega)]
    refine Eq.trans ?_ (joined_right (M := 32768) (V m c main_arg0) (V m c main_arg1) _ _ _ P ⟨q.val - 512, by omega⟩ hE0
      (by show _ = 512 + (q.val - 512); omega)).symm
    rw [hrow0, hrow1]

/-- An index of the array is in point `t`'s block iff each coordinate is in the block's range on its axis. -/
theorem mem_blk (t : Fin cfg0.N) (i : S32768x1024.Idx) :
    i ∈ ((cfg0.win 26).blk t).view.set ↔ ∀ a : Fin 2, win0_26.index t a * S512x1024.size a ≤ (i a).val ∧ (i a).val < win0_26.index t a * S512x1024.size a + S512x1024.size a := by
  show i ∈ ((View.whole main_v12).slice (win0_26.rect t)).set ↔ _
  rw [View.set_slice_whole, Rect.mem_set_unit]
  exact Iff.rfl

/-- Every index of the result array is in the block of the point its row falls in. -/
theorem cover (i : S32768x1024.Idx) : ∃ t : Fin cfg0.N, (cfg0.win 26).flush t = true ∧ i ∈ ((cfg0.win 26).blk t).view.set := by
  have hi0 : (i 0).val < 32768 := (i 0).isLt
  have hi1 : (i 1).val < 1024 := (i 1).isLt
  let t : Fin cfg0.N := ⟨(i 0).val / 512, by rw [show cfg0.N = 64 from N_0]; omega⟩
  obtain ⟨-, -, -, -, e0, e1⟩ := idx_rows t
  have htv : t.val = (i 0).val / 512 := rfl
  refine ⟨t, flush0_26 t, ?_⟩
  rw [mem_blk]
  intro a
  match a with
  | ⟨0, _⟩ => show win0_26.index t (0 : Fin 2) * 512 ≤ (i 0).val ∧ (i 0).val < win0_26.index t (0 : Fin 2) * 512 + 512; omega
  | ⟨1, _⟩ => show win0_26.index t (1 : Fin 2) * 1024 ≤ (i 1).val ∧ (i 1).val < win0_26.index t (1 : Fin 2) * 1024 + 1024; omega

/-- After the run the result array is `result`. -/
theorem final (c : Dev nD) : (dats m 0 c).arrAt 26 cfg0.N = result m c :=
  (dats m 0 c).arrAt_eq_of_cover 26 (result m c) (fun t _ => flushed_eq m c t) cover

end Cert.KernelArray

end
-- ==== Proof.HostWindows.lean ====
/-
  The arrays the region's windows read that a host operation wrote beforehand, each read at coordinates as the argument
  array it comes from. The host operations before the region are slices (rows 1024 to 1535 of a [1536, 512] or a [1536]
  array) and changes of format from f32 to bf16; over the extended reals a change of format is the identity, and a
  unit-stride slice read at an index is its operand at the index shifted by the offsets.
-/
import proofs.«142812_j30056181138117_1_alg».proof.Proof.Gen.KernelIdeal.Frame
import Idealize.ShloMosaic.Lib.Pipeline.Value
import Idealize.ShloMosaic.Lib.ValueIdx

set_option maxRecDepth 16384

noncomputable section

namespace Cert.HostWindows

open Cert.KernelIdeal Cert.KernelIdeal.Gen Idealize.ShloMosaic Idealize.ShloMosaic.TcCoe Idealize.SL.Sem
open Idealize.ShloMosaic.StableHlo ValueIdx

variable (m : (ℓ : Loc nD τ sig) → Buf (Elt Ideal) ℓ) (c : Dev nD)

/-- Buffer 1 when the region is entered: rows 1024 to 1535 of argument 2, in the narrower format. -/
theorem arr_v1 : (V m c main_v1 : S512x512.Idx → EReal)
    = (truncf .bf16 (extractStridedSlice S512x512 ![1024, 0] (m ((c : Thread nD τ).loc main_arg2) : FVec Ideal S1536x512 .f32) Gen.slices_S1536x512_S512x512_1024_0) Gen.bitsLt_bf16_f32 : FVec Ideal S512x512 .bf16) := by
  dsimp only [Gen.V, Gen.hostOps0]; after_results

theorem win_v1 (e k : Fin 512) : V m c main_v1 (ix2 e k)
    = m ((c : Thread nD τ).loc main_arg2) (ix2 (⟨1024 + e.val, by have := e.isLt; omega⟩ : Fin 1536) k) := by
  refine (congrFun (arr_v1 m c) (ix2 e k)).trans ?_
  show extractStridedSlice S512x512 ![1024, 0] (m ((c : Thread nD τ).loc main_arg2) : FVec Ideal S1536x512 .f32) Gen.slices_S1536x512_S512x512_1024_0 (ix2 e k) = _
  refine extractStridedSlice_apply (![1024, 0] : Fin 2 → Nat) (m ((c : Thread nD τ).loc main_arg2) : FVec Ideal S1536x512 .f32)
    Gen.slices_S1536x512_S512x512_1024_0 (ix2 e k) (ix2 (⟨1024 + e.val, by have := e.isLt; omega⟩ : Fin 1536) k) ?_
  intro a
  match a with
  | ⟨0, _⟩ => rfl
  | ⟨1, _⟩ => show k.val = 0 + k.val; omega

/-- Buffer 2 when the region is entered: entries 1024 to 1535 of argument 3. -/
theorem arr_v2 : (V m c main_v2 : S512.Idx → EReal)
    = extractStridedSlice S512 ![1024] (m ((c : Thread nD τ).loc main_arg3) : FVec Ideal S1536 .f32) Gen.slices_S1536_S512_1024 := by
  dsimp only [Gen.V, Gen.hostOps0]; after_results

theorem win_v2 (e : Fin 512) : V m c main_v2 (ix1 e)
    = m ((c : Thread nD τ).loc main_arg3) (ix1 (⟨1024 + e.val, by have := e.isLt; omega⟩ : Fin 1536)) := by
  refine (congrFun (arr_v2 m c) (ix1 e)).trans ?_
  refine extractStridedSlice_apply (![1024] : Fin 1 → Nat) (m ((c : Thread nD τ).loc main_arg3) : FVec Ideal S1536 .f32)
    Gen.slices_S1536_S512_1024 (ix1 e) (ix1 (⟨1024 + e.val, by have := e.isLt; omega⟩ : Fin 1536)) ?_
  intro a
  match a with
  | ⟨0, _⟩ => rfl

/-- Buffer 3 when the region is entered: argument 4 in the narrower format. -/
theorem arr_v3 : (V m c main_v3 : S512x512.Idx → EReal)
    = (truncf .bf16 (m ((c : Thread nD τ).loc main_arg4) : FVec Ideal S512x512 .f32) Gen.bitsLt_bf16_f32 : FVec Ideal S512x512 .bf16) := by
  dsimp only [Gen.V, Gen.hostOps0]; after_results

theorem win_v3 (e : Fin 512) (k : Fin 512) : V m c main_v3 (ix2 e k) = m ((c : Thread nD τ).loc main_arg4) (ix2 e k) :=
  congrFun (arr_v3 m c) (ix2 e k)

/-- Buffer 5 when the region is entered: rows 1024 to 1535 of argument 6, in the narrower format. -/
theorem arr_v5 : (V m c main_v5 : S512x512.Idx → EReal)
    = (truncf .bf16 (extractStridedSlice S512x512 ![1024, 0] (m ((c : Thread nD τ).loc main_arg6) : FVec Ideal S1536x512 .f32) Gen.slices_S1536x512_S512x512_1024_0) Gen.bitsLt_bf16_f32 : FVec Ideal S512x512 .bf16) := by
  dsimp only [Gen.V, Gen.hostOps0]; after_results

theorem win_v5 (e k : Fin 512) : V m c main_v5 (ix2 e k)
    = m ((c : Thread nD τ).loc main_arg6) (ix2 (⟨1024 + e.val, by have := e.isLt; omega⟩ : Fin 1536) k) := by
  refine (congrFun (arr_v5 m c) (ix2 e k)).trans ?_
  show extractStridedSlice S512x512 ![1024, 0] (m ((c : Thread nD τ).loc main_arg6) : FVec Ideal S1536x512 .f32) Gen.slices_S1536x512_S512x512_1024_0 (ix2 e k) = _
  refine extractStridedSlice_apply (![1024, 0] : Fin 2 → Nat) (m ((c : Thread nD τ).loc main_arg6) : FVec Ideal S1536x512 .f32)
    Gen.slices_S1536x512_S512x512_1024_0 (ix2 e k) (ix2 (⟨1024 + e.val, by have := e.isLt; omega⟩ : Fin 1536) k) ?_
  intro a
  match a with
  | ⟨0, _⟩ => rfl
  | ⟨1, _⟩ => show k.val = 0 + k.val; omega

/-- Buffer 6 when the region is entered: entries 1024 to 1535 of argument 7. -/
theorem arr_v6 : (V m c main_v6 : S512.Idx → EReal)
    = extractStridedSlice S512 ![1024] (m ((c : Thread nD τ).loc main_arg7) : FVec Ideal S1536 .f32) Gen.slices_S1536_S512_1024 := by
  dsimp only [Gen.V, Gen.hostOps0]; after_results

theorem win_v6 (e : Fin 512) : V m c main_v6 (ix1 e)
    = m ((c : Thread nD τ).loc main_arg7) (ix1 (⟨1024 + e.val, by have := e.isLt; omega⟩ : Fin 1536)) := by
  refine (congrFun (arr_v6 m c) (ix1 e)).trans ?_
  refine extractStridedSlice_apply (![1024] : Fin 1 → Nat) (m ((c : Thread nD τ).loc main_arg7) : FVec Ideal S1536 .f32)
    Gen.slices_S1536_S512_1024 (ix1 e) (ix1 (⟨1024 + e.val, by have := e.isLt; omega⟩ : Fin 1536)) ?_
  intro a
  match a with
  | ⟨0, _⟩ => rfl

/-- Buffer 7 when the region is entered: argument 8 in the narrower format. -/
theorem arr_v7 : (V m c main_v7 : S512x512.Idx → EReal)
    = (truncf .bf16 (m ((c : Thread nD τ).loc main_arg8) : FVec Ideal S512x512 .f32) Gen.bitsLt_bf16_f32 : FVec Ideal S512x512 .bf16) := by
  dsimp only [Gen.V, Gen.hostOps0]; after_results

theorem win_v7 (e : Fin 512) (k : Fin 512) : V m c main_v7 (ix2 e k) = m ((c : Thread nD τ).loc main_arg8) (ix2 e k) :=
  congrFun (arr_v7 m c) (ix2 e k)

/-- Buffer 8 when the region is entered: argument 18 in the narrower format. -/
theorem arr_v8 : (V m c main_v8 : S1024x512.Idx → EReal)
    = (truncf .bf16 (m ((c : Thread nD τ).loc main_arg18) : FVec Ideal S1024x512 .f32) Gen.bitsLt_bf16_f32 : FVec Ideal S1024x512 .bf16) := by
  dsimp only [Gen.V, Gen.hostOps0]; after_results

theorem win_v8 (e : Fin 1024) (k : Fin 512) : V m c main_v8 (ix2 e k) = m ((c : Thread nD τ).loc main_arg18) (ix2 e k) :=
  congrFun (arr_v8 m c) (ix2 e k)

/-- Buffer 9 when the region is entered: argument 20 in the narrower format. -/
theorem arr_v9 : (V m c main_v9 : S512x1024.Idx → EReal)
    = (truncf .bf16 (m ((c : Thread nD τ).loc main_arg20) : FVec Ideal S512x1024 .f32) Gen.bitsLt_bf16_f32 : FVec Ideal S512x1024 .bf16) := by
  dsimp only [Gen.V, Gen.hostOps0]; after_results

theorem win_v9 (e : Fin 512) (k : Fin 1024) : V m c main_v9 (ix2 e k) = m ((c : Thread nD τ).loc main_arg20) (ix2 e k) :=
  congrFun (arr_v9 m c) (ix2 e k)

/-- Buffer 10 when the region is entered: argument 22 in the narrower format. -/
theorem arr_v10 : (V m c main_v10 : S1024x512.Idx → EReal)
    = (truncf .bf16 (m ((c : Thread nD τ).loc main_arg22) : FVec Ideal S1024x512 .f32) Gen.bitsLt_bf16_f32 : FVec Ideal S1024x512 .bf16) := by
  dsimp only [Gen.V, Gen.hostOps0]; after_results

theorem win_v10 (e : Fin 1024) (k : Fin 512) : V m c main_v10 (ix2 e k) = m ((c : Thread nD τ).loc main_arg22) (ix2 e k) :=
  congrFun (arr_v10 m c) (ix2 e k)

/-- Buffer 11 when the region is entered: argument 24 in the narrower format. -/
theorem arr_v11 : (V m c main_v11 : S512x1024.Idx → EReal)
    = (truncf .bf16 (m ((c : Thread nD τ).loc main_arg24) : FVec Ideal S512x1024 .f32) Gen.bitsLt_bf16_f32 : FVec Ideal S512x1024 .bf16) := by
  dsimp only [Gen.V, Gen.hostOps0]; after_results

theorem win_v11 (e : Fin 512) (k : Fin 1024) : V m c main_v11 (ix2 e k) = m ((c : Thread nD τ).loc main_arg24) (ix2 e k) :=
  congrFun (arr_v11 m c) (ix2 e k)

end Cert.HostWindows

end
-- ==== Proof.Packed.lean ====
/-
  A branch's parameters as the programs' ARGUMENT arrays give them: the value projection's weights and bias are
  the last third (rows 1024 … 1535) of the packed input-projection arrays; the other ten arrays are used whole.
-/
import proofs.«142812_j30056181138117_1_alg».proof.Proof.Joined

noncomputable section

open Idealize.ShloMosaic Idealize.ShloMosaic.ValueIdx Cert.Joined

namespace Cert.Packed

/-- Row `e` of the last third of a packed array of 1536 rows. -/
def hi (e : Fin 512) : Fin 1536 := ⟨1024 + e.val, by have := e.isLt; omega⟩

/-- A branch's parameters from its argument arrays, by coordinates. -/
def ofPacked (wi : (⟨2, ![1536, 512]⟩ : Shape).Idx → EReal) (bi : (⟨1, ![1536]⟩ : Shape).Idx → EReal)
    (wo : (⟨2, ![512, 512]⟩ : Shape).Idx → EReal) (bo g1 b1 : (⟨1, ![512]⟩ : Shape).Idx → EReal)
    (w1 : (⟨2, ![1024, 512]⟩ : Shape).Idx → EReal) (c1 : (⟨1, ![1024]⟩ : Shape).Idx → EReal)
    (w2 : (⟨2, ![512, 1024]⟩ : Shape).Idx → EReal) (c2 g3 b3 : (⟨1, ![512]⟩ : Shape).Idx → EReal) : Params :=
  ⟨fun e k => wi (ix2 (hi e) k), fun e => bi (ix1 (hi e)), fun e k => wo (ix2 e k), fun e => bo (ix1 e), fun e => g1 (ix1 e),
   fun e => b1 (ix1 e), fun e k => w1 (ix2 e k), fun e => c1 (ix1 e), fun e k => w2 (ix2 e k), fun e => c2 (ix1 e),
   fun e => g3 (ix1 e), fun e => b3 (ix1 e)⟩

/-- Two parameter bundles with the same twelve arrays are equal. -/
theorem params_ext (P Q : Params) (h1 : P.wv = Q.wv) (h2 : P.bv = Q.bv) (h3 : P.wo = Q.wo) (h4 : P.bo = Q.bo) (h5 : P.g1 = Q.g1)
    (h6 : P.b1 = Q.b1) (h7 : P.w1 = Q.w1) (h8 : P.c1 = Q.c1) (h9 : P.w2 = Q.w2) (h10 : P.c2 = Q.c2) (h11 : P.g3 = Q.g3)
    (h12 : P.b3 = Q.b3) : P = Q := by
  cases P; cases Q
  simp only [Params.mk.injEq]
  exact ⟨h1, h2, h3, h4, h5, h6, h7, h8, h9, h10, h11, h12⟩

end Cert.Packed

end
-- ==== Proof.KernelResult.lean ====
/-
  The idealized kernel's run with its result array read as a function of the ARGUMENT arrays: the arrays the region
  finds are the arguments themselves or, for the eight weight matrices and the two value-projection biases, host-side
  copies of them (a slice of the packed input projection, a change of float format: the identity on extended reals).
-/
import proofs.«142812_j30056181138117_1_alg».proof.Proof.KernelArray
import proofs.«142812_j30056181138117_1_alg».proof.Proof.HostWindows
import proofs.«142812_j30056181138117_1_alg».proof.Proof.Packed

noncomputable section

open Cert.KernelIdeal Cert.KernelIdeal.Gen Cert.KernelIdeal.Value Idealize.ShloMosaic Idealize.ShloMosaic.TcCoe Idealize.SL.Sem
open Idealize.ShloMosaic.ValueIdx Cert.Joined Cert.Packed Cert.KernelArray

namespace Cert.KernelResult

variable (m : (ℓ : Loc nD τ sig) → Buf (Elt Ideal) ℓ) (ρ : Dev nD → PrngReg)

/-- The first branch's parameters, as the region finds them, are the packed argument arrays'. -/
theorem paramsA (c : Dev nD) :
    ofArrays (V m c main_v1) (V m c main_v2) (V m c main_v3) (V m c main_arg5) (V m c main_arg10) (V m c main_arg11) (V m c main_v8) (V m c main_arg19) (V m c main_v9) (V m c main_arg21) (V m c main_arg14) (V m c main_arg15) = (ofPacked (m ((c : Thread nD τ).loc main_arg2)) (m ((c : Thread nD τ).loc main_arg3)) (m ((c : Thread nD τ).loc main_arg4)) (m ((c : Thread nD τ).loc main_arg5)) (m ((c : Thread nD τ).loc main_arg10)) (m ((c : Thread nD τ).loc main_arg11)) (m ((c : Thread nD τ).loc main_arg18)) (m ((c : Thread nD τ).loc main_arg19)) (m ((c : Thread nD τ).loc main_arg20)) (m ((c : Thread nD τ).loc main_arg21)) (m ((c : Thread nD τ).loc main_arg14)) (m ((c : Thread nD τ).loc main_arg15))) := by
  refine params_ext _ _ ?_ ?_ ?_ ?_ ?_ ?_ ?_ ?_ ?_ ?_ ?_ ?_
  · funext e k; exact Cert.HostWindows.win_v1 m c e k
  · funext e; exact Cert.HostWindows.win_v2 m c e
  · funext e k; exact Cert.HostWindows.win_v3 m c e k
  · funext e; exact congrFun (V_main_arg5 m c) (ix1 e)
  · funext e; exact congrFun (V_main_arg10 m c) (ix1 e)
  · funext e; exact congrFun (V_main_arg11 m c) (ix1 e)
  · funext e k; exact Cert.HostWindows.win_v8 m c e k
  · funext e; exact congrFun (V_main_arg19 m c) (ix1 e)
  · funext e k; exact Cert.HostWindows.win_v9 m c e k
  · funext e; exact congrFun (V_main_arg21 m c) (ix1 e)
  · funext e; exact congrFun (V_main_arg14 m c) (ix1 e)
  · funext e; exact congrFun (V_main_arg15 m c) (ix1 e)

/-- The second branch's parameters likewise. -/
theorem paramsB (c : Dev nD) :
    ofArrays (V m c main_v5) (V m c main_v6) (V m c main_v7) (V m c main_arg9) (V m c main_arg12) (V m c main_arg13) (V m c main_v10) (V m c main_arg23) (V m c main_v11) (V m c main_arg25) (V m c main_arg16) (V m c main_arg17) = (ofPacked (m ((c : Thread nD τ).loc main_arg6)) (m ((c : Thread nD τ).loc main_arg7)) (m ((c : Thread nD τ).loc main_arg8)) (m ((c : Thread nD τ).loc main_arg9)) (m ((c : Thread nD τ).loc main_arg12)) (m ((c : Thread nD τ).loc main_arg13)) (m ((c : Thread nD τ).loc main_arg22)) (m ((c : Thread nD τ).loc main_arg23)) (m ((c : Thread nD τ).loc main_arg24)) (m ((c : Thread nD τ).loc main_arg25)) (m ((c : Thread nD τ).loc main_arg16)) (m ((c : Thread nD τ).loc main_arg17))) := by
  refine params_ext _ _ ?_ ?_ ?_ ?_ ?_ ?_ ?_ ?_ ?_ ?_ ?_ ?_
  · funext e k; exact Cert.HostWindows.win_v5 m c e k
  · funext e; exact Cert.HostWindows.win_v6 m c e
  · funext e k; exact Cert.HostWindows.win_v7 m c e k
  · funext e; exact congrFun (V_main_arg9 m c) (ix1 e)
  · funext e; exact congrFun (V_main_arg12 m c) (ix1 e)
  · funext e; exact congrFun (V_main_arg13 m c) (ix1 e)
  · funext e k; exact Cert.HostWindows.win_v10 m c e k
  · funext e; exact congrFun (V_main_arg23 m c) (ix1 e)
  · funext e k; exact Cert.HostWindows.win_v11 m c e k
  · funext e; exact congrFun (V_main_arg25 m c) (ix1 e)
  · funext e; exact congrFun (V_main_arg16 m c) (ix1 e)
  · funext e; exact congrFun (V_main_arg17 m c) (ix1 e)

/-- The result array as a function of the argument arrays. -/
abbrev value (c : Dev nD) : S32768x1024.Idx → EReal :=
  joined (M := 32768) (m ((c : Thread nD τ).loc main_arg0)) (m ((c : Thread nD τ).loc main_arg1)) (ofPacked (m ((c : Thread nD τ).loc main_arg2)) (m ((c : Thread nD τ).loc main_arg3)) (m ((c : Thread nD τ).loc main_arg4)) (m ((c : Thread nD τ).loc main_arg5)) (m ((c : Thread nD τ).loc main_arg10)) (m ((c : Thread nD τ).loc main_arg11)) (m ((c : Thread nD τ).loc main_arg18)) (m ((c : Thread nD τ).loc main_arg19)) (m ((c : Thread nD τ).loc main_arg20)) (m ((c : Thread nD τ).loc main_arg21)) (m ((c : Thread nD τ).loc main_arg14)) (m ((c : Thread nD τ).loc main_arg15))) (ofPacked (m ((c : Thread nD τ).loc main_arg6)) (m ((c : Thread nD τ).loc main_arg7)) (m ((c : Thread nD τ).loc main_arg8)) (m ((c : Thread nD τ).loc main_arg9)) (m ((c : Thread nD τ).loc main_arg12)) (m ((c : Thread nD τ).loc main_arg13)) (m ((c : Thread nD τ).loc main_arg22)) (m ((c : Thread nD τ).loc main_arg23)) (m ((c : Thread nD τ).loc main_arg24)) (m ((c : Thread nD τ).loc main_arg25)) (m ((c : Thread nD τ).loc main_arg16)) (m ((c : Thread nD τ).loc main_arg17)))

theorem result_eq_value (c : Dev nD) : result m c = value m c := by
  show joined (M := 32768) (V m c main_arg0) (V m c main_arg1) _ _ = _
  rw [paramsA m c, paramsB m c, V_main_arg0, V_main_arg1]

/-- Every weakly fair execution of the idealized kernel terminates with the result array at `value` of the
    arguments, the arguments unchanged. -/
theorem run : θ_run defs (onTc (τ := τ) (main (F := Ideal))) ⟨m, fun _ => 0, ρ⟩ fun r => ∀ c : Dev nD,
      r.2.mem ((c : Thread nD τ).loc main_v12) = value m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23)
      ∧ r.2.mem ((c : Thread nD τ).loc main_arg24) = m ((c : Thread nD τ).loc main_arg24)
      ∧ r.2.mem ((c : Thread nD τ).loc main_arg25) = m ((c : Thread nD τ).loc main_arg25) :=
  (θ_run defs _ _).mono (fun r h c => ⟨(h c).1.trans ((final m c).trans (result_eq_value m c)), (h c).2⟩)
    (run_blocks m ρ)

end Cert.KernelResult

end
-- ==== Proof.LibERealSums.lean ====
/-
  General facts about finite sums and maxima of real numbers read inside the extended reals, and the
  splitting of a sum over `Fin (m * n)` into `m` consecutive blocks of `n` terms.
-/
import Mathlib.Data.EReal.Operations
import Mathlib.Algebra.BigOperators.Fin
import Mathlib.Data.Finset.Fold
import Mathlib.Logic.Equiv.Fin.Basic

namespace Cert.LibERealSums

open Finset

/-- The coercion of a finite sum of reals is the sum of the coercions: every partial sum is finite, so
    no infinity is ever met. -/
theorem coe_finset_sum {ι : Type*} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- A sum of extended reals each of which is (the coercion of) a real is the coercion of the real sum. -/
theorem sum_eq_coe {ι : Type*} (s : Finset ι) (g : ι → EReal) (f : ι → ℝ) (h : ∀ i ∈ s, g i = (f i : EReal)) :
    ∑ i ∈ s, g i = ((∑ i ∈ s, f i : ℝ) : EReal) := by
  rw [coe_finset_sum]
  exact Finset.sum_congr rfl h

/-- The maximum of a nonempty finite family of reals, folded from minus infinity inside the extended
    reals, is a real: it is at least one member of the family, hence not `⊥`, and every member and the
    start value are below `⊤`, hence it is not `⊤`. -/
theorem fold_max_bot_coe {ι : Type*} (s : Finset ι) (hs : s.Nonempty) (f : ι → ℝ) :
    ∃ m : ℝ, s.fold max (⊥ : EReal) (fun i => (f i : EReal)) = (m : EReal) := by
  obtain ⟨i₀, hi₀⟩ := hs
  have hlt : s.fold max (⊥ : EReal) (fun i => (f i : EReal)) < ⊤ :=
    (Finset.fold_max_lt _).mpr ⟨bot_lt_top, fun x _ => EReal.coe_lt_top (f x)⟩
  have hge : ((f i₀ : ℝ) : EReal) ≤ s.fold max (⊥ : EReal) (fun i => (f i : EReal)) :=
    (Finset.le_fold_max _).mpr (Or.inr ⟨i₀, hi₀, le_refl _⟩)
  have hne_bot : s.fold max (⊥ : EReal) (fun i => (f i : EReal)) ≠ ⊥ :=
    ne_of_gt (lt_of_lt_of_le (EReal.bot_lt_coe (f i₀)) hge)
  exact ⟨_, (EReal.coe_toReal (ne_of_lt hlt) hne_bot).symm⟩

/-- A sum over `Fin N`, with `N = m * n`, is the sum over the `m` blocks of `n` consecutive indices:
    `row k r` is the index `n * k + r`. -/
theorem sum_fin_blocks {M : Type*} [AddCommMonoid M] {m n N : ℕ} (hN : m * n = N)
    (row : Fin m → Fin n → Fin N) (hrow : ∀ k r, (row k r).val = n * k.val + r.val) (f : Fin N → M) :
    ∑ c : Fin N, f c = ∑ k : Fin m, ∑ r : Fin n, f (row k r) := by
  subst hN
  rw [← Equiv.sum_comp finProdFinEquiv f, Fintype.sum_prod_type]
  refine Finset.sum_congr rfl fun k _ => Finset.sum_congr rfl fun r _ => ?_
  refine congrArg f (Fin.ext ?_)
  rw [hrow k r]
  exact Nat.add_comm _ _

end Cert.LibERealSums
-- ==== Proof.RealFacts.lean ====
/-
  Facts about single extended reals used on the reference's side: which values are (coercions of) reals, the
  float literals the reference prints, and the attention weight over ONE key: for a real score `x`, its maximum
  over the one key is `x` itself, `exp (x - x) = 1`, the sum of that one term is `1`, and `1 / 1 = 1`.
-/
import Idealize.ShloMosaic.PureOps.Ideal
import Idealize.ShloMosaic.PureOps.Ideal.Laws
import proofs.«142812_j30056181138117_1_alg».proof.Proof.LibERealSums
import proofs.«142812_j30056181138117_1_alg».proof.Proof.RowSpec

noncomputable section

open Idealize.ShloMosaic

namespace Cert.RealFacts

/-- An extended real that is the coercion of a real number. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.zero : IsReal 0 := ⟨0, EReal.coe_zero.symm⟩

theorem IsReal.sum {ι : Type} (s : Finset ι) (f : ι → EReal) (h : ∀ i ∈ s, IsReal (f i)) : IsReal (∑ i ∈ s, f i) := by
  classical
  choose! g hg using h
  exact ⟨∑ i ∈ s, g i, Cert.LibERealSums.sum_eq_coe s f g hg⟩

/-- An affine image of a real row under real weights and a real bias is real, entry by entry. -/
theorem IsReal.lin {K N : ℕ} (x : Fin K → EReal) (w : Fin N → Fin K → EReal) (b : Fin N → EReal)
    (hx : ∀ k, IsReal (x k)) (hw : ∀ e k, IsReal (w e k)) (hb : ∀ e, IsReal (b e)) (e : Fin N) :
    IsReal (Cert.RowSpec.lin x w b e) :=
  (IsReal.sum _ _ fun k _ => (hx k).mul (hw e k)).add (hb e)

/-- The float `8.0` denotes the real 8. -/
theorem ofBits_eight : Ideal.ofBits .f32 0x41000000#32 = ((8 : ℝ) : EReal) := by
  simp [Ideal.ofBits, Ideal.ieee, -EReal.coe_mul]; norm_num

/-- The float `-inf` denotes the bottom of the extended reals. -/
theorem ofBits_neg_inf : Ideal.ofBits .f32 0xFF800000#32 = ⊥ := by
  simp [Ideal.ofBits, Ideal.ieee]

/-- A real divided by the float `8.0` is a real. -/
theorem IsReal.div_eight {x : EReal} (hx : IsReal x) : IsReal (Ideal.div x (Ideal.ofBits .f32 0x41000000#32)) := by
  obtain ⟨a, rfl⟩ := hx
  rw [ofBits_eight, Ideal.div_coe (by norm_num : (8 : ℝ) ≠ 0)]
  exact ⟨a * (1 / 8), (EReal.coe_mul a (1 / 8)).symm⟩

/-- The attention weight of the one key of a real score: `exp (x - max) / (0 + exp (x - max)) = 1`, the maximum taken
    from minus infinity twice, as the reference spells it. -/
theorem weight_one {x : EReal} (hx : IsReal x) :
    Ideal.div (Ideal.exp (x - max (Ideal.ofBits .f32 0xFF800000#32) (max x (Ideal.ofBits .f32 0xFF800000#32))))
      (Ideal.ofBits .f32 0x00000000#32
        + Ideal.exp (x - max (Ideal.ofBits .f32 0xFF800000#32) (max x (Ideal.ofBits .f32 0xFF800000#32)))) = 1 := by
  obtain ⟨a, rfl⟩ := hx
  rw [ofBits_neg_inf, Ideal.ofBits_zero_f32, max_eq_left bot_le, max_eq_right bot_le, zero_add]
  rw [← EReal.coe_sub, sub_self, EReal.coe_zero]
  have h1 : Ideal.exp (0 : EReal) = 1 := by
    rw [← EReal.coe_zero, Ideal.exp_coe, Real.exp_zero, EReal.coe_one]
  rw [h1]
  simp [Ideal.div]

end Cert.RealFacts

end
-- ==== Proof.RefBranchA.lean ====
/-
  The reference, read one row at a time: the first branch (its own rows from one data matrix, the rows it attends to
  from the other). Every stage is read at coordinates `(r, e)` from the generated one-operation readings; the index
  functions of the layout operations are identified with coordinates by case analysis on the axis. The attention
  block keeps exactly the value projection: the scores are real under the finiteness of the inputs, so the weight
  of the single key is 1.
-/
import proofs.«142812_j30056181138117_1_alg».proof.Proof.RefReadP
import proofs.«142812_j30056181138117_1_alg».proof.Proof.RowSpec
import proofs.«142812_j30056181138117_1_alg».proof.Proof.RealFacts
import Idealize.ShloMosaic.PureOps.Reduce

noncomputable section

open Cert.ReferenceIdeal Cert.ReferenceIdeal.Gen Cert.ReferenceIdeal.ReadP Idealize.ShloMosaic Idealize.ShloMosaic.ValueIdx
open Idealize.ShloMosaic.StableHlo Cert.RowSpec Cert.RealFacts

namespace Cert.RefA

/-- The contents of an f32 array of shape `S` at the ideal instance. -/
abbrev Cn (S : Shape) := (⟨S, .f32⟩ : BufTy).Contents (Elt Ideal)

/-- Two index functions agree: case analysis on the axis, each coordinate by computation. -/
macro "idx" : tactic => `(tactic| (funext a; fin_cases a <;> rfl))

/-- A fold over the one-element index type is one application of the operation. -/
theorem fold_fin_one {α : Type} (op : α → α → α) [Std.Commutative op] [Std.Associative op] (b : α) (f : Fin 1 → α) :
    (Finset.univ : Finset (Fin 1)).fold op b f = op (f 0) b := by
  rw [Finset.univ_unique, Finset.fold_singleton]; rfl

/-- Dropping the third axis of a three-axis array. -/
theorem red_d2 : S32768x8x1.Reduces [2] S32768x8 := by decide

/-! ## The attention block: queries and keys are real, so the one key's weight is 1 -/

/-- Every query entry is a real: a finite sum of products of reals plus a real. -/
theorem q_real (x0 : Cn S32768x512) (x1 : Cn S32768x512) (x2 : Cn S1536x512) (x3 : Cn S1536) (x4 : Cn S512x512) (x5 : Cn S512) (x10 : Cn S512) (x11 : Cn S512) (x14 : Cn S512) (x15 : Cn S512) (x18 : Cn S1024x512) (x19 : Cn S1024) (x20 : Cn S512x1024) (x21 : Cn S512) (hx0 : ∀ i, IsReal (x0 i)) (hx1 : ∀ i, IsReal (x1 i)) (hx2 : ∀ i, IsReal (x2 i)) (hx3 : ∀ i, IsReal (x3 i)) (i : S32768x512.Idx) : IsReal (val_main_v10 (F := Ideal) x0 x2 x3 i) := by
  rw [val_main_v10_apply, val_main_v7_apply, val_main_v9_apply, val_main_v8_apply, val_main_v3_apply]
  refine IsReal.add (IsReal.sum _ _ fun k _ => IsReal.mul (hx0 _) ?_) (hx3 _)
  rw [val_main_v6_apply, val_main_v0_apply]; exact hx2 _

/-- Every key entry is a real. -/
theorem k_real (x0 : Cn S32768x512) (x1 : Cn S32768x512) (x2 : Cn S1536x512) (x3 : Cn S1536) (x4 : Cn S512x512) (x5 : Cn S512) (x10 : Cn S512) (x11 : Cn S512) (x14 : Cn S512) (x15 : Cn S512) (x18 : Cn S1024x512) (x19 : Cn S1024) (x20 : Cn S512x1024) (x21 : Cn S512) (hx0 : ∀ i, IsReal (x0 i)) (hx1 : ∀ i, IsReal (x1 i)) (hx2 : ∀ i, IsReal (x2 i)) (hx3 : ∀ i, IsReal (x3 i)) (i : S32768x512.Idx) : IsReal (val_main_v15 (F := Ideal) x1 x2 x3 i) := by
  rw [val_main_v15_apply, val_main_v12_apply, val_main_v14_apply, val_main_v13_apply, val_main_v4_apply]
  refine IsReal.add (IsReal.sum _ _ fun k _ => IsReal.mul (hx1 _) ?_) (hx3 _)
  rw [val_main_v11_apply, val_main_v1_apply]; exact hx2 _

/-- Every score (a head's query-key product summed over its 64 lanes, divided by 8) is a real. -/
theorem score_real (x0 : Cn S32768x512) (x1 : Cn S32768x512) (x2 : Cn S1536x512) (x3 : Cn S1536) (x4 : Cn S512x512) (x5 : Cn S512) (x10 : Cn S512) (x11 : Cn S512) (x14 : Cn S512) (x15 : Cn S512) (x18 : Cn S1024x512) (x19 : Cn S1024) (x20 : Cn S512x1024) (x21 : Cn S512) (hx0 : ∀ i, IsReal (x0 i)) (hx1 : ∀ i, IsReal (x1 i)) (hx2 : ∀ i, IsReal (x2 i)) (hx3 : ∀ i, IsReal (x3 i)) (j : S32768x8x1.Idx) : IsReal (val_main_v28 (F := Ideal) x0 x1 x2 x3 j) := by
  rw [val_main_v28_apply, val_main_v26_apply, val_main_v27_apply, val_main_v25_apply, val_main_cst_0_apply, val_main_cst_apply]
  simp only [Ideal.hostDivf_def, Ideal.ofBits_def]
  refine IsReal.div_eight (IsReal.add ?_ (IsReal.sum _ _ fun k _ => ?_))
  · rw [Ideal.ofBits_zero_f32]; exact IsReal.zero
  · rw [val_main_v24_apply, val_main_v21_apply, val_main_v22_apply]
    exact IsReal.mul (q_real x0 x1 x2 x3 x4 x5 x10 x11 x14 x15 x18 x19 x20 x21 hx0 hx1 hx2 hx3 _) (k_real x0 x1 x2 x3 x4 x5 x10 x11 x14 x15 x18 x19 x20 x21 hx0 hx1 hx2 hx3 _)

/-- The maximum over the single key, folded from minus infinity, is the score itself joined with minus infinity. -/
theorem max_one_key (x0 : Cn S32768x512) (x1 : Cn S32768x512) (x2 : Cn S1536x512) (x3 : Cn S1536) (x4 : Cn S512x512) (x5 : Cn S512) (x10 : Cn S512) (x11 : Cn S512) (x14 : Cn S512) (x15 : Cn S512) (x18 : Cn S1024x512) (x19 : Cn S1024) (x20 : Cn S512x1024) (x21 : Cn S512) (i : S32768x8x1.Idx) :
    val_main_v29 (F := Ideal) x0 x1 x2 x3 (idx_main_v32 i) = max (val_main_v28 (F := Ideal) x0 x1 x2 x3 i) (Ideal.ofBits .f32 0xFF800000#32) := by
  unfold val_main_v29
  rw [Host.reduce_eq_fold_single FloatOps.maximumf _ _ reducesTo_S32768x8x1_S32768x8_d2 red_d2 h_S_]
  refine (fold_fin_one (FloatOps.maximumf (F := Ideal) (φ := .f32)) _ _).trans ?_
  refine congrArg₂ max (congrArg (val_main_v28 (F := Ideal) x0 x1 x2 x3) ?_) rfl
  funext a
  fin_cases a
  · rfl
  · rfl
  · exact Subsingleton.elim (α := Fin 1) _ _

/-- The one key's weight is 1. -/
theorem weight_eq_one (x0 : Cn S32768x512) (x1 : Cn S32768x512) (x2 : Cn S1536x512) (x3 : Cn S1536) (x4 : Cn S512x512) (x5 : Cn S512) (x10 : Cn S512) (x11 : Cn S512) (x14 : Cn S512) (x15 : Cn S512) (x18 : Cn S1024x512) (x19 : Cn S1024) (x20 : Cn S512x1024) (x21 : Cn S512) (hx0 : ∀ i, IsReal (x0 i)) (hx1 : ∀ i, IsReal (x1 i)) (hx2 : ∀ i, IsReal (x2 i)) (hx3 : ∀ i, IsReal (x3 i)) (i : S32768x8x1.Idx) : val_main_v37 (F := Ideal) x0 x1 x2 x3 i = 1 := by
  have hi : idx_main_v35 (idx_main_v36 i) 0 = i := by
    funext a
    match a with
    | ⟨0, _⟩ => rfl
    | ⟨1, _⟩ => rfl
    | ⟨2, _⟩ => exact Subsingleton.elim (α := Fin 1) _ _
  rw [val_main_v37_apply, val_main_v36_apply, val_main_v35_apply, val_main_cst_3_apply]
  simp only [Finset.univ_unique, Finset.sum_singleton, Fin.default_eq_zero, hi]
  rw [val_main_v34_apply, val_main_v33_apply, val_main_v32_apply, val_main_v31_apply, val_main_v30_apply, val_main_cst_2_apply, max_one_key x0 x1 x2 x3 x4 x5 x10 x11 x14 x15 x18 x19 x20 x21]
  simp only [Ideal.hostDivf_def, Ideal.hostUnary_exp_def, Ideal.subf_def, Ideal.maximumf_def, Ideal.ofBits_def]
  exact weight_one (score_real x0 x1 x2 x3 x4 x5 x10 x11 x14 x15 x18 x19 x20 x21 hx0 hx1 hx2 hx3 i)

/-! ## The stages of the branch, row by row -/

/-- The value projection of the other matrix's row `r`, with the last third of the packed weights and biases. -/
theorem v_row (x0 : Cn S32768x512) (x1 : Cn S32768x512) (x2 : Cn S1536x512) (x3 : Cn S1536) (x4 : Cn S512x512) (x5 : Cn S512) (x10 : Cn S512) (x11 : Cn S512) (x14 : Cn S512) (x15 : Cn S512) (x18 : Cn S1024x512) (x19 : Cn S1024) (x20 : Cn S512x1024) (x21 : Cn S512) (r : Fin 32768) (e : Fin 512) :
    val_main_v20 (F := Ideal) x1 x2 x3 (ix2 r e) = lin (fun k => x1 (ix2 r k)) (fun e k => x2 (ix2 (⟨1024 + e.val, by have := e.isLt; omega⟩ : Fin 1536) k))
      (fun e => x3 (ix1 (⟨1024 + e.val, by have := e.isLt; omega⟩ : Fin 1536))) e := by
  rw [val_main_v20_apply, val_main_v17_apply, val_main_v19_apply, val_main_v18_apply, val_main_v5_apply]
  simp only [val_main_v16_apply, val_main_v2_apply, Ideal.addf_def, Cert.RowSpec.lin]
  refine congrArg₂ (· + ·) (Finset.sum_congr rfl fun k _ => congrArg₂ (· * ·) (congrArg x1 ?_) (congrArg x2 ?_)) (congrArg x3 ?_)
  all_goals idx

/-- The attention output of row `r` is its value projection: each head's 64 lanes times the weight 1, the three-axis
    view flattened back (entry `e` is lane `e % 64` of head `e / 64`). -/
theorem attn_row (x0 : Cn S32768x512) (x1 : Cn S32768x512) (x2 : Cn S1536x512) (x3 : Cn S1536) (x4 : Cn S512x512) (x5 : Cn S512) (x10 : Cn S512) (x11 : Cn S512) (x14 : Cn S512) (x15 : Cn S512) (x18 : Cn S1024x512) (x19 : Cn S1024) (x20 : Cn S512x1024) (x21 : Cn S512) (hx0 : ∀ i, IsReal (x0 i)) (hx1 : ∀ i, IsReal (x1 i)) (hx2 : ∀ i, IsReal (x2 i)) (hx3 : ∀ i, IsReal (x3 i)) (r : Fin 32768) (e : Fin 512) :
    val_main_v40 (F := Ideal) x0 x1 x2 x3 (ix2 r e) = val_main_v20 (F := Ideal) x1 x2 x3 (ix2 r e) := by
  rw [val_main_v40_apply, val_main_v39_apply, val_main_v38_apply, weight_eq_one x0 x1 x2 x3 x4 x5 x10 x11 x14 x15 x18 x19 x20 x21 hx0 hx1 hx2 hx3, val_main_v23_apply, Ideal.mulf_def, one_mul]
  refine congrArg _ ?_
  have hr := r.isLt
  have he := e.isLt
  funext a
  match a with
  | ⟨0, _⟩ => exact Fin.ext (by
      show (((r.val * 512 + e.val) / 512 * 8 + (r.val * 512 + e.val) / 64 % 8) * 64 + (r.val * 512 + e.val) % 64) / 512 = r.val
      omega)
  | ⟨1, _⟩ => exact Fin.ext (by
      show (((r.val * 512 + e.val) / 512 * 8 + (r.val * 512 + e.val) / 64 % 8) * 64 + (r.val * 512 + e.val) % 64) % 512 = e.val
      omega)

/-- The output projection of the attention output's row `r`. -/
theorem out_row (x0 : Cn S32768x512) (x1 : Cn S32768x512) (x2 : Cn S1536x512) (x3 : Cn S1536) (x4 : Cn S512x512) (x5 : Cn S512) (x10 : Cn S512) (x11 : Cn S512) (x14 : Cn S512) (x15 : Cn S512) (x18 : Cn S1024x512) (x19 : Cn S1024) (x20 : Cn S512x1024) (x21 : Cn S512) (r : Fin 32768) (e : Fin 512) :
    val_main_v45 (F := Ideal) x0 x1 x2 x3 x4 x5 (ix2 r e) = lin (fun k => (val_main_v40 (F := Ideal) x0 x1 x2 x3) (ix2 r k)) (fun e k => x4 (ix2 e k)) (fun e => x5 (ix1 e)) e := by
  rw [val_main_v45_apply, val_main_v42_apply, val_main_v44_apply, val_main_v43_apply]
  simp only [val_main_v41_apply, Ideal.addf_def, Cert.RowSpec.lin]
  refine congrArg₂ (· + ·) (Finset.sum_congr rfl fun k _ => congrArg₂ (· * ·) (congrArg _ ?_) (congrArg x4 ?_)) (congrArg x5 ?_)
  all_goals idx

/-- The first layer normalisation (of the branch's own row plus the projected attention output): the mean of row `r`. -/
theorem ln1_mean (x0 : Cn S32768x512) (x1 : Cn S32768x512) (x2 : Cn S1536x512) (x3 : Cn S1536) (x4 : Cn S512x512) (x5 : Cn S512) (x10 : Cn S512) (x11 : Cn S512) (x14 : Cn S512) (x15 : Cn S512) (x18 : Cn S1024x512) (x19 : Cn S1024) (x20 : Cn S512x1024) (x21 : Cn S512) (r : Fin 32768) (c : Fin 1) :
    val_main_v50 (F := Ideal) x0 x1 x2 x3 x4 x5 (ix2 r c) = mean (fun k => x0 (ix2 r k) + val_main_v45 (F := Ideal) x0 x1 x2 x3 x4 x5 (ix2 r k)) := by
  rw [val_main_v50_apply, val_main_v48_apply, val_main_v49_apply, val_main_v47_apply, val_main_cst_5_apply, val_main_cst_4_apply]
  simp only [Ideal.hostDivf_def, Ideal.ofBits_def, Ideal.ofBits_zero_f32, zero_add, val_main_v46_apply, Ideal.addf_def, Cert.RowSpec.mean, Cert.RowSpec.c512]
  refine congrArg (fun s => Ideal.div s _) (Finset.sum_congr rfl fun k _ => congrArg₂ (· + ·) (congrArg x0 ?_) (congrArg (val_main_v45 (F := Ideal) x0 x1 x2 x3 x4 x5) ?_))
  all_goals idx

/-- The first layer normalisation (of the branch's own row plus the projected attention output): an entry of row `r` minus the row's mean (the copy squared for the variance). -/
theorem ln1_centered (x0 : Cn S32768x512) (x1 : Cn S32768x512) (x2 : Cn S1536x512) (x3 : Cn S1536) (x4 : Cn S512x512) (x5 : Cn S512) (x10 : Cn S512) (x11 : Cn S512) (x14 : Cn S512) (x15 : Cn S512) (x18 : Cn S1024x512) (x19 : Cn S1024) (x20 : Cn S512x1024) (x21 : Cn S512) (r : Fin 32768) (k : Fin 512) :
    val_main_v52 (F := Ideal) x0 x1 x2 x3 x4 x5 (ix2 r k) = (fun k => x0 (ix2 r k) + val_main_v45 (F := Ideal) x0 x1 x2 x3 x4 x5 (ix2 r k)) k - mean (fun k => x0 (ix2 r k) + val_main_v45 (F := Ideal) x0 x1 x2 x3 x4 x5 (ix2 r k)) := by
  rw [val_main_v52_apply, val_main_v51_apply, val_main_v46_apply, show idx_main_v51 (ix2 r k) = ix2 r (⟨0, Nat.one_pos⟩ : Fin 1) from by idx, ln1_mean x0 x1 x2 x3 x4 x5 x10 x11 x14 x15 x18 x19 x20 x21]
  rfl

/-- The first layer normalisation (of the branch's own row plus the projected attention output): an entry of row `r` minus the row's mean (the copy that is scaled). -/
theorem ln1_centered' (x0 : Cn S32768x512) (x1 : Cn S32768x512) (x2 : Cn S1536x512) (x3 : Cn S1536) (x4 : Cn S512x512) (x5 : Cn S512) (x10 : Cn S512) (x11 : Cn S512) (x14 : Cn S512) (x15 : Cn S512) (x18 : Cn S1024x512) (x19 : Cn S1024) (x20 : Cn S512x1024) (x21 : Cn S512) (r : Fin 32768) (k : Fin 512) :
    val_main_v59 (F := Ideal) x0 x1 x2 x3 x4 x5 (ix2 r k) = (fun k => x0 (ix2 r k) + val_main_v45 (F := Ideal) x0 x1 x2 x3 x4 x5 (ix2 r k)) k - mean (fun k => x0 (ix2 r k) + val_main_v45 (F := Ideal) x0 x1 x2 x3 x4 x5 (ix2 r k)) := by
  rw [val_main_v59_apply, val_main_v58_apply, val_main_v46_apply, show idx_main_v58 (ix2 r k) = ix2 r (⟨0, Nat.one_pos⟩ : Fin 1) from by idx, ln1_mean x0 x1 x2 x3 x4 x5 x10 x11 x14 x15 x18 x19 x20 x21]
  rfl

/-- The first layer normalisation (of the branch's own row plus the projected attention output): the variance of row `r`. -/
theorem ln1_var (x0 : Cn S32768x512) (x1 : Cn S32768x512) (x2 : Cn S1536x512) (x3 : Cn S1536) (x4 : Cn S512x512) (x5 : Cn S512) (x10 : Cn S512) (x11 : Cn S512) (x14 : Cn S512) (x15 : Cn S512) (x18 : Cn S1024x512) (x19 : Cn S1024) (x20 : Cn S512x1024) (x21 : Cn S512) (r : Fin 32768) (c : Fin 1) :
    val_main_v57 (F := Ideal) x0 x1 x2 x3 x4 x5 (ix2 r c) = mean (fun k => ((fun k => x0 (ix2 r k) + val_main_v45 (F := Ideal) x0 x1 x2 x3 x4 x5 (ix2 r k)) k - mean (fun k => x0 (ix2 r k) + val_main_v45 (F := Ideal) x0 x1 x2 x3 x4 x5 (ix2 r k))) * ((fun k => x0 (ix2 r k) + val_main_v45 (F := Ideal) x0 x1 x2 x3 x4 x5 (ix2 r k)) k - mean (fun k => x0 (ix2 r k) + val_main_v45 (F := Ideal) x0 x1 x2 x3 x4 x5 (ix2 r k)))) := by
  rw [val_main_v57_apply, val_main_v55_apply, val_main_v56_apply, val_main_v54_apply, val_main_cst_7_apply, val_main_cst_6_apply]
  simp only [Ideal.hostDivf_def, Ideal.ofBits_def, Ideal.ofBits_zero_f32, zero_add, val_main_v53_apply, Ideal.mulf_def, Cert.RowSpec.mean, Cert.RowSpec.c512]
  refine congrArg (fun s => Ideal.div s _) (Finset.sum_congr rfl fun k _ => ?_)
  rw [show idx_main_v54 (idx_main_v55 (ix2 r c)) k = ix2 r k from by idx, ln1_centered x0 x1 x2 x3 x4 x5 x10 x11 x14 x15 x18 x19 x20 x21]
  rfl

/-- The first layer normalisation (of the branch's own row plus the projected attention output): row `r`, normalised, scaled by the gain and shifted by the bias. -/
theorem ln1_row (x0 : Cn S32768x512) (x1 : Cn S32768x512) (x2 : Cn S1536x512) (x3 : Cn S1536) (x4 : Cn S512x512) (x5 : Cn S512) (x10 : Cn S512) (x11 : Cn S512) (x14 : Cn S512) (x15 : Cn S512) (x18 : Cn S1024x512) (x19 : Cn S1024) (x20 : Cn S512x1024) (x21 : Cn S512) (r : Fin 32768) (j : Fin 512) :
    val_main_v70 (F := Ideal) x0 x1 x2 x3 x4 x5 x10 x11 (ix2 r j) = lnorm (fun k => x0 (ix2 r k) + val_main_v45 (F := Ideal) x0 x1 x2 x3 x4 x5 (ix2 r k)) (fun e => x10 (ix1 e)) (fun e => x11 (ix1 e)) j := by
  rw [val_main_v70_apply, val_main_v67_apply, val_main_v64_apply, val_main_v63_apply, val_main_v62_apply, val_main_v61_apply, val_main_v60_apply, val_main_cst_8_apply, val_main_v66_apply, val_main_v65_apply, val_main_v69_apply, val_main_v68_apply,
    ln1_centered' x0 x1 x2 x3 x4 x5 x10 x11 x14 x15 x18 x19 x20 x21, show idx_main_v63 (ix2 r j) = ix2 r (⟨0, Nat.one_pos⟩ : Fin 1) from by idx, ln1_var x0 x1 x2 x3 x4 x5 x10 x11 x14 x15 x18 x19 x20 x21]
  simp only [Ideal.addf_def, Ideal.mulf_def, Ideal.hostUnary_rsqrt_def, Ideal.ofBits_def, Cert.RowSpec.lnorm, Cert.RowSpec.eps]
  refine congrArg₂ (· + ·) (congrArg₂ (· * ·) rfl (congrArg x10 ?_)) (congrArg x11 ?_)
  all_goals idx

/-- The feed-forward block's first affine map of row `r`. -/
theorem ffn1_row (x0 : Cn S32768x512) (x1 : Cn S32768x512) (x2 : Cn S1536x512) (x3 : Cn S1536) (x4 : Cn S512x512) (x5 : Cn S512) (x10 : Cn S512) (x11 : Cn S512) (x14 : Cn S512) (x15 : Cn S512) (x18 : Cn S1024x512) (x19 : Cn S1024) (x20 : Cn S512x1024) (x21 : Cn S512) (r : Fin 32768) (e : Fin 1024) :
    val_main_v75 (F := Ideal) x0 x1 x2 x3 x4 x5 x10 x11 x18 x19 (ix2 r e) = lin (fun k => (val_main_v70 (F := Ideal) x0 x1 x2 x3 x4 x5 x10 x11) (ix2 r k)) (fun e k => x18 (ix2 e k)) (fun e => x19 (ix1 e)) e := by
  rw [val_main_v75_apply, val_main_v72_apply, val_main_v74_apply, val_main_v73_apply]
  simp only [val_main_v71_apply, Ideal.addf_def, Cert.RowSpec.lin]
  refine congrArg₂ (· + ·) (Finset.sum_congr rfl fun k _ => congrArg₂ (· * ·) (congrArg _ ?_) (congrArg x18 ?_)) (congrArg x19 ?_)
  all_goals idx

/-- The rectifier: the maximum with the float zero. -/
theorem relu_apply (x0 : Cn S32768x512) (x1 : Cn S32768x512) (x2 : Cn S1536x512) (x3 : Cn S1536) (x4 : Cn S512x512) (x5 : Cn S512) (x10 : Cn S512) (x11 : Cn S512) (x14 : Cn S512) (x15 : Cn S512) (x18 : Cn S1024x512) (x19 : Cn S1024) (x20 : Cn S512x1024) (x21 : Cn S512) (i : S32768x1024.Idx) : val_main_v76 (F := Ideal) x0 x1 x2 x3 x4 x5 x10 x11 x18 x19 i = max (val_main_v75 (F := Ideal) x0 x1 x2 x3 x4 x5 x10 x11 x18 x19 i) 0 := by
  rw [val_main_v76_apply, val_main_call0_v0_apply, val_main_call0_cst_apply]
  simp only [Ideal.maximumf_def, Ideal.ofBits_def, Ideal.ofBits_zero_f32]

/-- The feed-forward block's second affine map of row `r`. -/
theorem ffn2_row (x0 : Cn S32768x512) (x1 : Cn S32768x512) (x2 : Cn S1536x512) (x3 : Cn S1536) (x4 : Cn S512x512) (x5 : Cn S512) (x10 : Cn S512) (x11 : Cn S512) (x14 : Cn S512) (x15 : Cn S512) (x18 : Cn S1024x512) (x19 : Cn S1024) (x20 : Cn S512x1024) (x21 : Cn S512) (r : Fin 32768) (e : Fin 512) :
    val_main_v81 (F := Ideal) x0 x1 x2 x3 x4 x5 x10 x11 x18 x19 x20 x21 (ix2 r e) = lin (fun k => (val_main_v76 (F := Ideal) x0 x1 x2 x3 x4 x5 x10 x11 x18 x19) (ix2 r k)) (fun e k => x20 (ix2 e k)) (fun e => x21 (ix1 e)) e := by
  rw [val_main_v81_apply, val_main_v78_apply, val_main_v80_apply, val_main_v79_apply]
  simp only [val_main_v77_apply, Ideal.addf_def, Cert.RowSpec.lin]
  refine congrArg₂ (· + ·) (Finset.sum_congr rfl fun k _ => congrArg₂ (· * ·) (congrArg _ ?_) (congrArg x20 ?_)) (congrArg x21 ?_)
  all_goals idx

/-- The second layer normalisation (of the first one's row plus the feed-forward block's): the mean of row `r`. -/
theorem ln3_mean (x0 : Cn S32768x512) (x1 : Cn S32768x512) (x2 : Cn S1536x512) (x3 : Cn S1536) (x4 : Cn S512x512) (x5 : Cn S512) (x10 : Cn S512) (x11 : Cn S512) (x14 : Cn S512) (x15 : Cn S512) (x18 : Cn S1024x512) (x19 : Cn S1024) (x20 : Cn S512x1024) (x21 : Cn S512) (r : Fin 32768) (c : Fin 1) :
    val_main_v86 (F := Ideal) x0 x1 x2 x3 x4 x5 x10 x11 x18 x19 x20 x21 (ix2 r c) = mean (fun k => val_main_v70 (F := Ideal) x0 x1 x2 x3 x4 x5 x10 x11 (ix2 r k) + val_main_v81 (F := Ideal) x0 x1 x2 x3 x4 x5 x10 x11 x18 x19 x20 x21 (ix2 r k)) := by
  rw [val_main_v86_apply, val_main_v84_apply, val_main_v85_apply, val_main_v83_apply, val_main_cst_10_apply, val_main_cst_9_apply]
  simp only [Ideal.hostDivf_def, Ideal.ofBits_def, Ideal.ofBits_zero_f32, zero_add, val_main_v82_apply, Ideal.addf_def, Cert.RowSpec.mean, Cert.RowSpec.c512]
  refine congrArg (fun s => Ideal.div s _) (Finset.sum_congr rfl fun k _ => congrArg₂ (· + ·) (congrArg (val_main_v70 (F := Ideal) x0 x1 x2 x3 x4 x5 x10 x11) ?_) (congrArg (val_main_v81 (F := Ideal) x0 x1 x2 x3 x4 x5 x10 x11 x18 x19 x20 x21) ?_))
  all_goals idx

/-- The second layer normalisation (of the first one's row plus the feed-forward block's): an entry of row `r` minus the row's mean (the copy squared for the variance). -/
theorem ln3_centered (x0 : Cn S32768x512) (x1 : Cn S32768x512) (x2 : Cn S1536x512) (x3 : Cn S1536) (x4 : Cn S512x512) (x5 : Cn S512) (x10 : Cn S512) (x11 : Cn S512) (x14 : Cn S512) (x15 : Cn S512) (x18 : Cn S1024x512) (x19 : Cn S1024) (x20 : Cn S512x1024) (x21 : Cn S512) (r : Fin 32768) (k : Fin 512) :
    val_main_v88 (F := Ideal) x0 x1 x2 x3 x4 x5 x10 x11 x18 x19 x20 x21 (ix2 r k) = (fun k => val_main_v70 (F := Ideal) x0 x1 x2 x3 x4 x5 x10 x11 (ix2 r k) + val_main_v81 (F := Ideal) x0 x1 x2 x3 x4 x5 x10 x11 x18 x19 x20 x21 (ix2 r k)) k - mean (fun k => val_main_v70 (F := Ideal) x0 x1 x2 x3 x4 x5 x10 x11 (ix2 r k) + val_main_v81 (F := Ideal) x0 x1 x2 x3 x4 x5 x10 x11 x18 x19 x20 x21 (ix2 r k)) := by
  rw [val_main_v88_apply, val_main_v87_apply, val_main_v82_apply, show idx_main_v87 (ix2 r k) = ix2 r (⟨0, Nat.one_pos⟩ : Fin 1) from by idx, ln3_mean x0 x1 x2 x3 x4 x5 x10 x11 x14 x15 x18 x19 x20 x21]
  rfl

/-- The second layer normalisation (of the first one's row plus the feed-forward block's): an entry of row `r` minus the row's mean (the copy that is scaled). -/
theorem ln3_centered' (x0 : Cn S32768x512) (x1 : Cn S32768x512) (x2 : Cn S1536x512) (x3 : Cn S1536) (x4 : Cn S512x512) (x5 : Cn S512) (x10 : Cn S512) (x11 : Cn S512) (x14 : Cn S512) (x15 : Cn S512) (x18 : Cn S1024x512) (x19 : Cn S1024) (x20 : Cn S512x1024) (x21 : Cn S512) (r : Fin 32768) (k : Fin 512) :
    val_main_v95 (F := Ideal) x0 x1 x2 x3 x4 x5 x10 x11 x18 x19 x20 x21 (ix2 r k) = (fun k => val_main_v70 (F := Ideal) x0 x1 x2 x3 x4 x5 x10 x11 (ix2 r k) + val_main_v81 (F := Ideal) x0 x1 x2 x3 x4 x5 x10 x11 x18 x19 x20 x21 (ix2 r k)) k - mean (fun k => val_main_v70 (F := Ideal) x0 x1 x2 x3 x4 x5 x10 x11 (ix2 r k) + val_main_v81 (F := Ideal) x0 x1 x2 x3 x4 x5 x10 x11 x18 x19 x20 x21 (ix2 r k)) := by
  rw [val_main_v95_apply, val_main_v94_apply, val_main_v82_apply, show idx_main_v94 (ix2 r k) = ix2 r (⟨0, Nat.one_pos⟩ : Fin 1) from by idx, ln3_mean x0 x1 x2 x3 x4 x5 x10 x11 x14 x15 x18 x19 x20 x21]
  rfl

/-- The second layer normalisation (of the first one's row plus the feed-forward block's): the variance of row `r`. -/
theorem ln3_var (x0 : Cn S32768x512) (x1 : Cn S32768x512) (x2 : Cn S1536x512) (x3 : Cn S1536) (x4 : Cn S512x512) (x5 : Cn S512) (x10 : Cn S512) (x11 : Cn S512) (x14 : Cn S512) (x15 : Cn S512) (x18 : Cn S1024x512) (x19 : Cn S1024) (x20 : Cn S512x1024) (x21 : Cn S512) (r : Fin 32768) (c : Fin 1) :
    val_main_v93 (F := Ideal) x0 x1 x2 x3 x4 x5 x10 x11 x18 x19 x20 x21 (ix2 r c) = mean (fun k => ((fun k => val_main_v70 (F := Ideal) x0 x1 x2 x3 x4 x5 x10 x11 (ix2 r k) + val_main_v81 (F := Ideal) x0 x1 x2 x3 x4 x5 x10 x11 x18 x19 x20 x21 (ix2 r k)) k - mean (fun k => val_main_v70 (F := Ideal) x0 x1 x2 x3 x4 x5 x10 x11 (ix2 r k) + val_main_v81 (F := Ideal) x0 x1 x2 x3 x4 x5 x10 x11 x18 x19 x20 x21 (ix2 r k))) * ((fun k => val_main_v70 (F := Ideal) x0 x1 x2 x3 x4 x5 x10 x11 (ix2 r k) + val_main_v81 (F := Ideal) x0 x1 x2 x3 x4 x5 x10 x11 x18 x19 x20 x21 (ix2 r k)) k - mean (fun k => val_main_v70 (F := Ideal) x0 x1 x2 x3 x4 x5 x10 x11 (ix2 r k) + val_main_v81 (F := Ideal) x0 x1 x2 x3 x4 x5 x10 x11 x18 x19 x20 x21 (ix2 r k)))) := by
  rw [val_main_v93_apply, val_main_v91_apply, val_main_v92_apply, val_main_v90_apply, val_main_cst_12_apply, val_main_cst_11_apply]
  simp only [Ideal.hostDivf_def, Ideal.ofBits_def, Ideal.ofBits_zero_f32, zero_add, val_main_v89_apply, Ideal.mulf_def, Cert.RowSpec.mean, Cert.RowSpec.c512]
  refine congrArg (fun s => Ideal.div s _) (Finset.sum_congr rfl fun k _ => ?_)
  rw [show idx_main_v90 (idx_main_v91 (ix2 r c)) k = ix2 r k from by idx, ln3_centered x0 x1 x2 x3 x4 x5 x10 x11 x14 x15 x18 x19 x20 x21]
  rfl

/-- The second layer normalisation (of the first one's row plus the feed-forward block's): row `r`, normalised, scaled by the gain and shifted by the bias. -/
theorem ln3_row (x0 : Cn S32768x512) (x1 : Cn S32768x512) (x2 : Cn S1536x512) (x3 : Cn S1536) (x4 : Cn S512x512) (x5 : Cn S512) (x10 : Cn S512) (x11 : Cn S512) (x14 : Cn S512) (x15 : Cn S512) (x18 : Cn S1024x512) (x19 : Cn S1024) (x20 : Cn S512x1024) (x21 : Cn S512) (r : Fin 32768) (j : Fin 512) :
    val_main_v106 (F := Ideal) x0 x1 x2 x3 x4 x5 x10 x11 x14 x15 x18 x19 x20 x21 (ix2 r j) = lnorm (fun k => val_main_v70 (F := Ideal) x0 x1 x2 x3 x4 x5 x10 x11 (ix2 r k) + val_main_v81 (F := Ideal) x0 x1 x2 x3 x4 x5 x10 x11 x18 x19 x20 x21 (ix2 r k)) (fun e => x14 (ix1 e)) (fun e => x15 (ix1 e)) j := by
  rw [val_main_v106_apply, val_main_v103_apply, val_main_v100_apply, val_main_v99_apply, val_main_v98_apply, val_main_v97_apply, val_main_v96_apply, val_main_cst_13_apply, val_main_v102_apply, val_main_v101_apply, val_main_v105_apply, val_main_v104_apply,
    ln3_centered' x0 x1 x2 x3 x4 x5 x10 x11 x14 x15 x18 x19 x20 x21, show idx_main_v99 (ix2 r j) = ix2 r (⟨0, Nat.one_pos⟩ : Fin 1) from by idx, ln3_var x0 x1 x2 x3 x4 x5 x10 x11 x14 x15 x18 x19 x20 x21]
  simp only [Ideal.addf_def, Ideal.mulf_def, Ideal.hostUnary_rsqrt_def, Ideal.ofBits_def, Cert.RowSpec.lnorm, Cert.RowSpec.eps]
  refine congrArg₂ (· + ·) (congrArg₂ (· * ·) rfl (congrArg x14 ?_)) (congrArg x15 ?_)
  all_goals idx

/-! ## The branch -/

/-- Row `r` of the branch's result is the row function of the two data rows. -/
theorem branch_row (x0 : Cn S32768x512) (x1 : Cn S32768x512) (x2 : Cn S1536x512) (x3 : Cn S1536) (x4 : Cn S512x512) (x5 : Cn S512) (x10 : Cn S512) (x11 : Cn S512) (x14 : Cn S512) (x15 : Cn S512) (x18 : Cn S1024x512) (x19 : Cn S1024) (x20 : Cn S512x1024) (x21 : Cn S512) (hx0 : ∀ i, IsReal (x0 i)) (hx1 : ∀ i, IsReal (x1 i)) (hx2 : ∀ i, IsReal (x2 i)) (hx3 : ∀ i, IsReal (x3 i)) (r : Fin 32768) (j : Fin 512) :
    val_main_v106 (F := Ideal) x0 x1 x2 x3 x4 x5 x10 x11 x14 x15 x18 x19 x20 x21 (ix2 r j) = branch (fun k => x0 (ix2 r k)) (fun k => x1 (ix2 r k))
      (fun e k => x2 (ix2 (⟨1024 + e.val, by have := e.isLt; omega⟩ : Fin 1536) k)) (fun e => x3 (ix1 (⟨1024 + e.val, by have := e.isLt; omega⟩ : Fin 1536)))
      (fun e k => x4 (ix2 e k)) (fun e => x5 (ix1 e)) (fun e => x10 (ix1 e)) (fun e => x11 (ix1 e))
      (fun e k => x18 (ix2 e k)) (fun e => x19 (ix1 e)) (fun e k => x20 (ix2 e k)) (fun e => x21 (ix1 e))
      (fun e => x14 (ix1 e)) (fun e => x15 (ix1 e)) j := by
  have p40 : ∀ k, val_main_v40 (F := Ideal) x0 x1 x2 x3 (ix2 r k) = lin (fun k => x1 (ix2 r k)) (fun e k => x2 (ix2 (⟨1024 + e.val, by have := e.isLt; omega⟩ : Fin 1536) k)) (fun e => x3 (ix1 (⟨1024 + e.val, by have := e.isLt; omega⟩ : Fin 1536))) k :=
    fun k => (attn_row x0 x1 x2 x3 x4 x5 x10 x11 x14 x15 x18 x19 x20 x21 hx0 hx1 hx2 hx3 r k).trans (v_row x0 x1 x2 x3 x4 x5 x10 x11 x14 x15 x18 x19 x20 x21 r k)
  have p45 : ∀ k, val_main_v45 (F := Ideal) x0 x1 x2 x3 x4 x5 (ix2 r k) = lin (lin (fun k => x1 (ix2 r k)) (fun e k => x2 (ix2 (⟨1024 + e.val, by have := e.isLt; omega⟩ : Fin 1536) k)) (fun e => x3 (ix1 (⟨1024 + e.val, by have := e.isLt; omega⟩ : Fin 1536)))) (fun e k => x4 (ix2 e k)) (fun e => x5 (ix1 e)) k :=
    fun k => by rw [out_row x0 x1 x2 x3 x4 x5 x10 x11 x14 x15 x18 x19 x20 x21]; simp only [p40]; try rfl
  have p70 : ∀ k, val_main_v70 (F := Ideal) x0 x1 x2 x3 x4 x5 x10 x11 (ix2 r k) = lnorm (fun k => x0 (ix2 r k) + lin (lin (fun k => x1 (ix2 r k)) (fun e k => x2 (ix2 (⟨1024 + e.val, by have := e.isLt; omega⟩ : Fin 1536) k)) (fun e => x3 (ix1 (⟨1024 + e.val, by have := e.isLt; omega⟩ : Fin 1536)))) (fun e k => x4 (ix2 e k)) (fun e => x5 (ix1 e)) k) (fun e => x10 (ix1 e)) (fun e => x11 (ix1 e)) k :=
    fun k => by rw [ln1_row x0 x1 x2 x3 x4 x5 x10 x11 x14 x15 x18 x19 x20 x21]; simp only [p45]; try rfl
  have p76 : ∀ e, val_main_v76 (F := Ideal) x0 x1 x2 x3 x4 x5 x10 x11 x18 x19 (ix2 r e) = (fun e => max (lin (lnorm (fun k => x0 (ix2 r k) + lin (lin (fun k => x1 (ix2 r k)) (fun e k => x2 (ix2 (⟨1024 + e.val, by have := e.isLt; omega⟩ : Fin 1536) k)) (fun e => x3 (ix1 (⟨1024 + e.val, by have := e.isLt; omega⟩ : Fin 1536)))) (fun e k => x4 (ix2 e k)) (fun e => x5 (ix1 e)) k) (fun e => x10 (ix1 e)) (fun e => x11 (ix1 e))) (fun e k => x18 (ix2 e k)) (fun e => x19 (ix1 e)) e) 0) e :=
    fun e => by rw [relu_apply x0 x1 x2 x3 x4 x5 x10 x11 x14 x15 x18 x19 x20 x21, ffn1_row x0 x1 x2 x3 x4 x5 x10 x11 x14 x15 x18 x19 x20 x21]; simp only [p70]; try rfl
  have p81 : ∀ k, val_main_v81 (F := Ideal) x0 x1 x2 x3 x4 x5 x10 x11 x18 x19 x20 x21 (ix2 r k) = lin (fun e => max (lin (lnorm (fun k => x0 (ix2 r k) + lin (lin (fun k => x1 (ix2 r k)) (fun e k => x2 (ix2 (⟨1024 + e.val, by have := e.isLt; omega⟩ : Fin 1536) k)) (fun e => x3 (ix1 (⟨1024 + e.val, by have := e.isLt; omega⟩ : Fin 1536)))) (fun e k => x4 (ix2 e k)) (fun e => x5 (ix1 e)) k) (fun e => x10 (ix1 e)) (fun e => x11 (ix1 e))) (fun e k => x18 (ix2 e k)) (fun e => x19 (ix1 e)) e) 0) (fun e k => x20 (ix2 e k)) (fun e => x21 (ix1 e)) k :=
    fun k => by rw [ffn2_row x0 x1 x2 x3 x4 x5 x10 x11 x14 x15 x18 x19 x20 x21]; simp only [p76]; try rfl
  rw [ln3_row x0 x1 x2 x3 x4 x5 x10 x11 x14 x15 x18 x19 x20 x21]
  simp only [p70, p81]
  rfl

end Cert.RefA

end
-- ==== Proof.RefBranchB.lean ====
/-
  The reference, read one row at a time: the second branch (its own rows from one data matrix, the rows it attends to
  from the other). Every stage is read at coordinates `(r, e)` from the generated one-operation readings; the index
  functions of the layout operations are identified with coordinates by case analysis on the axis. The attention
  block keeps exactly the value projection: the scores are real under the finiteness of the inputs, so the weight
  of the single key is 1.
-/
import proofs.«142812_j30056181138117_1_alg».proof.Proof.RefReadP
import proofs.«142812_j30056181138117_1_alg».proof.Proof.RowSpec
import proofs.«142812_j30056181138117_1_alg».proof.Proof.RealFacts
import Idealize.ShloMosaic.PureOps.Reduce

noncomputable section

open Cert.ReferenceIdeal Cert.ReferenceIdeal.Gen Cert.ReferenceIdeal.ReadP Idealize.ShloMosaic Idealize.ShloMosaic.ValueIdx
open Idealize.ShloMosaic.StableHlo Cert.RowSpec Cert.RealFacts

namespace Cert.RefB

/-- The contents of an f32 array of shape `S` at the ideal instance. -/
abbrev Cn (S : Shape) := (⟨S, .f32⟩ : BufTy).Contents (Elt Ideal)

/-- Two index functions agree: case analysis on the axis, each coordinate by computation. -/
macro "idx" : tactic => `(tactic| (funext a; fin_cases a <;> rfl))

/-- A fold over the one-element index type is one application of the operation. -/
theorem fold_fin_one {α : Type} (op : α → α → α) [Std.Commutative op] [Std.Associative op] (b : α) (f : Fin 1 → α) :
    (Finset.univ : Finset (Fin 1)).fold op b f = op (f 0) b := by
  rw [Finset.univ_unique, Finset.fold_singleton]; rfl

/-- Dropping the third axis of a three-axis array. -/
theorem red_d2 : S32768x8x1.Reduces [2] S32768x8 := by decide

/-! ## The attention block: queries and keys are real, so the one key's weight is 1 -/

/-- Every query entry is a real: a finite sum of products of reals plus a real. -/
theorem q_real (x0 : Cn S32768x512) (x1 : Cn S32768x512) (x6 : Cn S1536x512) (x7 : Cn S1536) (x8 : Cn S512x512) (x9 : Cn S512) (x12 : Cn S512) (x13 : Cn S512) (x16 : Cn S512) (x17 : Cn S512) (x22 : Cn S1024x512) (x23 : Cn S1024) (x24 : Cn S512x1024) (x25 : Cn S512) (hx1 : ∀ i, IsReal (x1 i)) (hx0 : ∀ i, IsReal (x0 i)) (hx6 : ∀ i, IsReal (x6 i)) (hx7 : ∀ i, IsReal (x7 i)) (i : S32768x512.Idx) : IsReal (val_main_v117 (F := Ideal) x1 x6 x7 i) := by
  rw [val_main_v117_apply, val_main_v114_apply, val_main_v116_apply, val_main_v115_apply, val_main_v110_apply]
  refine IsReal.add (IsReal.sum _ _ fun k _ => IsReal.mul (hx1 _) ?_) (hx7 _)
  rw [val_main_v113_apply, val_main_v107_apply]; exact hx6 _

/-- Every key entry is a real. -/
theorem k_real (x0 : Cn S32768x512) (x1 : Cn S32768x512) (x6 : Cn S1536x512) (x7 : Cn S1536) (x8 : Cn S512x512) (x9 : Cn S512) (x12 : Cn S512) (x13 : Cn S512) (x16 : Cn S512) (x17 : Cn S512) (x22 : Cn S1024x512) (x23 : Cn S1024) (x24 : Cn S512x1024) (x25 : Cn S512) (hx1 : ∀ i, IsReal (x1 i)) (hx0 : ∀ i, IsReal (x0 i)) (hx6 : ∀ i, IsReal (x6 i)) (hx7 : ∀ i, IsReal (x7 i)) (i : S32768x512.Idx) : IsReal (val_main_v122 (F := Ideal) x0 x6 x7 i) := by
  rw [val_main_v122_apply, val_main_v119_apply, val_main_v121_apply, val_main_v120_apply, val_main_v111_apply]
  refine IsReal.add (IsReal.sum _ _ fun k _ => IsReal.mul (hx0 _) ?_) (hx7 _)
  rw [val_main_v118_apply, val_main_v108_apply]; exact hx6 _

/-- Every score (a head's query-key product summed over its 64 lanes, divided by 8) is a real. -/
theorem score_real (x0 : Cn S32768x512) (x1 : Cn S32768x512) (x6 : Cn S1536x512) (x7 : Cn S1536) (x8 : Cn S512x512) (x9 : Cn S512) (x12 : Cn S512) (x13 : Cn S512) (x16 : Cn S512) (x17 : Cn S512) (x22 : Cn S1024x512) (x23 : Cn S1024) (x24 : Cn S512x1024) (x25 : Cn S512) (hx1 : ∀ i, IsReal (x1 i)) (hx0 : ∀ i, IsReal (x0 i)) (hx6 : ∀ i, IsReal (x6 i)) (hx7 : ∀ i, IsReal (x7 i)) (j : S32768x8x1.Idx) : IsReal (val_main_v135 (F := Ideal) x0 x1 x6 x7 j) := by
  rw [val_main_v135_apply, val_main_v133_apply, val_main_v134_apply, val_main_v132_apply, val_main_cst_15_apply, val_main_cst_14_apply]
  simp only [Ideal.hostDivf_def, Ideal.ofBits_def]
  refine IsReal.div_eight (IsReal.add ?_ (IsReal.sum _ _ fun k _ => ?_))
  · rw [Ideal.ofBits_zero_f32]; exact IsReal.zero
  · rw [val_main_v131_apply, val_main_v128_apply, val_main_v129_apply]
    exact IsReal.mul (q_real x0 x1 x6 x7 x8 x9 x12 x13 x16 x17 x22 x23 x24 x25 hx1 hx0 hx6 hx7 _) (k_real x0 x1 x6 x7 x8 x9 x12 x13 x16 x17 x22 x23 x24 x25 hx1 hx0 hx6 hx7 _)

/-- The maximum over the single key, folded from minus infinity, is the score itself joined with minus infinity. -/
theorem max_one_key (x0 : Cn S32768x512) (x1 : Cn S32768x512) (x6 : Cn S1536x512) (x7 : Cn S1536) (x8 : Cn S512x512) (x9 : Cn S512) (x12 : Cn S512) (x13 : Cn S512) (x16 : Cn S512) (x17 : Cn S512) (x22 : Cn S1024x512) (x23 : Cn S1024) (x24 : Cn S512x1024) (x25 : Cn S512) (i : S32768x8x1.Idx) :
    val_main_v136 (F := Ideal) x0 x1 x6 x7 (idx_main_v139 i) = max (val_main_v135 (F := Ideal) x0 x1 x6 x7 i) (Ideal.ofBits .f32 0xFF800000#32) := by
  unfold val_main_v136
  rw [Host.reduce_eq_fold_single FloatOps.maximumf _ _ reducesTo_S32768x8x1_S32768x8_d2 red_d2 h_S_]
  refine (fold_fin_one (FloatOps.maximumf (F := Ideal) (φ := .f32)) _ _).trans ?_
  refine congrArg₂ max (congrArg (val_main_v135 (F := Ideal) x0 x1 x6 x7) ?_) rfl
  funext a
  fin_cases a
  · rfl
  · rfl
  · exact Subsingleton.elim (α := Fin 1) _ _

/-- The one key's weight is 1. -/
theorem weight_eq_one (x0 : Cn S32768x512) (x1 : Cn S32768x512) (x6 : Cn S1536x512) (x7 : Cn S1536) (x8 : Cn S512x512) (x9 : Cn S512) (x12 : Cn S512) (x13 : Cn S512) (x16 : Cn S512) (x17 : Cn S512) (x22 : Cn S1024x512) (x23 : Cn S1024) (x24 : Cn S512x1024) (x25 : Cn S512) (hx1 : ∀ i, IsReal (x1 i)) (hx0 : ∀ i, IsReal (x0 i)) (hx6 : ∀ i, IsReal (x6 i)) (hx7 : ∀ i, IsReal (x7 i)) (i : S32768x8x1.Idx) : val_main_v144 (F := Ideal) x0 x1 x6 x7 i = 1 := by
  have hi : idx_main_v142 (idx_main_v143 i) 0 = i := by
    funext a
    match a with
    | ⟨0, _⟩ => rfl
    | ⟨1, _⟩ => rfl
    | ⟨2, _⟩ => exact Subsingleton.elim (α := Fin 1) _ _
  rw [val_main_v144_apply, val_main_v143_apply, val_main_v142_apply, val_main_cst_18_apply]
  simp only [Finset.univ_unique, Finset.sum_singleton, Fin.default_eq_zero, hi]
  rw [val_main_v141_apply, val_main_v140_apply, val_main_v139_apply, val_main_v138_apply, val_main_v137_apply, val_main_cst_17_apply, max_one_key x0 x1 x6 x7 x8 x9 x12 x13 x16 x17 x22 x23 x24 x25]
  simp only [Ideal.hostDivf_def, Ideal.hostUnary_exp_def, Ideal.subf_def, Ideal.maximumf_def, Ideal.ofBits_def]
  exact weight_one (score_real x0 x1 x6 x7 x8 x9 x12 x13 x16 x17 x22 x23 x24 x25 hx1 hx0 hx6 hx7 i)

/-! ## The stages of the branch, row by row -/

/-- The value projection of the other matrix's row `r`, with the last third of the packed weights and biases. -/
theorem v_row (x0 : Cn S32768x512) (x1 : Cn S32768x512) (x6 : Cn S1536x512) (x7 : Cn S1536) (x8 : Cn S512x512) (x9 : Cn S512) (x12 : Cn S512) (x13 : Cn S512) (x16 : Cn S512) (x17 : Cn S512) (x22 : Cn S1024x512) (x23 : Cn S1024) (x24 : Cn S512x1024) (x25 : Cn S512) (r : Fin 32768) (e : Fin 512) :
    val_main_v127 (F := Ideal) x0 x6 x7 (ix2 r e) = lin (fun k => x0 (ix2 r k)) (fun e k => x6 (ix2 (⟨1024 + e.val, by have := e.isLt; omega⟩ : Fin 1536) k))
      (fun e => x7 (ix1 (⟨1024 + e.val, by have := e.isLt; omega⟩ : Fin 1536))) e := by
  rw [val_main_v127_apply, val_main_v124_apply, val_main_v126_apply, val_main_v125_apply, val_main_v112_apply]
  simp only [val_main_v123_apply, val_main_v109_apply, Ideal.addf_def, Cert.RowSpec.lin]
  refine congrArg₂ (· + ·) (Finset.sum_congr rfl fun k _ => congrArg₂ (· * ·) (congrArg x0 ?_) (congrArg x6 ?_)) (congrArg x7 ?_)
  all_goals idx

/-- The attention output of row `r` is its value projection: each head's 64 lanes times the weight 1, the three-axis
    view flattened back (entry `e` is lane `e % 64` of head `e / 64`). -/
theorem attn_row (x0 : Cn S32768x512) (x1 : Cn S32768x512) (x6 : Cn S1536x512) (x7 : Cn S1536) (x8 : Cn S512x512) (x9 : Cn S512) (x12 : Cn S512) (x13 : Cn S512) (x16 : Cn S512) (x17 : Cn S512) (x22 : Cn S1024x512) (x23 : Cn S1024) (x24 : Cn S512x1024) (x25 : Cn S512) (hx1 : ∀ i, IsReal (x1 i)) (hx0 : ∀ i, IsReal (x0 i)) (hx6 : ∀ i, IsReal (x6 i)) (hx7 : ∀ i, IsReal (x7 i)) (r : Fin 32768) (e : Fin 512) :
    val_main_v147 (F := Ideal) x0 x1 x6 x7 (ix2 r e) = val_main_v127 (F := Ideal) x0 x6 x7 (ix2 r e) := by
  rw [val_main_v147_apply, val_main_v146_apply, val_main_v145_apply, weight_eq_one x0 x1 x6 x7 x8 x9 x12 x13 x16 x17 x22 x23 x24 x25 hx1 hx0 hx6 hx7, val_main_v130_apply, Ideal.mulf_def, one_mul]
  refine congrArg _ ?_
  have hr := r.isLt
  have he := e.isLt
  funext a
  match a with
  | ⟨0, _⟩ => exact Fin.ext (by
      show (((r.val * 512 + e.val) / 512 * 8 + (r.val * 512 + e.val) / 64 % 8) * 64 + (r.val * 512 + e.val) % 64) / 512 = r.val
      omega)
  | ⟨1, _⟩ => exact Fin.ext (by
      show (((r.val * 512 + e.val) / 512 * 8 + (r.val * 512 + e.val) / 64 % 8) * 64 + (r.val * 512 + e.val) % 64) % 512 = e.val
      omega)

/-- The output projection of the attention output's row `r`. -/
theorem out_row (x0 : Cn S32768x512) (x1 : Cn S32768x512) (x6 : Cn S1536x512) (x7 : Cn S1536) (x8 : Cn S512x512) (x9 : Cn S512) (x12 : Cn S512) (x13 : Cn S512) (x16 : Cn S512) (x17 : Cn S512) (x22 : Cn S1024x512) (x23 : Cn S1024) (x24 : Cn S512x1024) (x25 : Cn S512) (r : Fin 32768) (e : Fin 512) :
    val_main_v152 (F := Ideal) x0 x1 x6 x7 x8 x9 (ix2 r e) = lin (fun k => (val_main_v147 (F := Ideal) x0 x1 x6 x7) (ix2 r k)) (fun e k => x8 (ix2 e k)) (fun e => x9 (ix1 e)) e := by
  rw [val_main_v152_apply, val_main_v149_apply, val_main_v151_apply, val_main_v150_apply]
  simp only [val_main_v148_apply, Ideal.addf_def, Cert.RowSpec.lin]
  refine congrArg₂ (· + ·) (Finset.sum_congr rfl fun k _ => congrArg₂ (· * ·) (congrArg _ ?_) (congrArg x8 ?_)) (congrArg x9 ?_)
  all_goals idx

/-- The first layer normalisation (of the branch's own row plus the projected attention output): the mean of row `r`. -/
theorem ln1_mean (x0 : Cn S32768x512) (x1 : Cn S32768x512) (x6 : Cn S1536x512) (x7 : Cn S1536) (x8 : Cn S512x512) (x9 : Cn S512) (x12 : Cn S512) (x13 : Cn S512) (x16 : Cn S512) (x17 : Cn S512) (x22 : Cn S1024x512) (x23 : Cn S1024) (x24 : Cn S512x1024) (x25 : Cn S512) (r : Fin 32768) (c : Fin 1) :
    val_main_v157 (F := Ideal) x0 x1 x6 x7 x8 x9 (ix2 r c) = mean (fun k => x1 (ix2 r k) + val_main_v152 (F := Ideal) x0 x1 x6 x7 x8 x9 (ix2 r k)) := by
  rw [val_main_v157_apply, val_main_v155_apply, val_main_v156_apply, val_main_v154_apply, val_main_cst_20_apply, val_main_cst_19_apply]
  simp only [Ideal.hostDivf_def, Ideal.ofBits_def, Ideal.ofBits_zero_f32, zero_add, val_main_v153_apply, Ideal.addf_def, Cert.RowSpec.mean, Cert.RowSpec.c512]
  refine congrArg (fun s => Ideal.div s _) (Finset.sum_congr rfl fun k _ => congrArg₂ (· + ·) (congrArg x1 ?_) (congrArg (val_main_v152 (F := Ideal) x0 x1 x6 x7 x8 x9) ?_))
  all_goals idx

/-- The first layer normalisation (of the branch's own row plus the projected attention output): an entry of row `r` minus the row's mean (the copy squared for the variance). -/
theorem ln1_centered (x0 : Cn S32768x512) (x1 : Cn S32768x512) (x6 : Cn S1536x512) (x7 : Cn S1536) (x8 : Cn S512x512) (x9 : Cn S512) (x12 : Cn S512) (x13 : Cn S512) (x16 : Cn S512) (x17 : Cn S512) (x22 : Cn S1024x512) (x23 : Cn S1024) (x24 : Cn S512x1024) (x25 : Cn S512) (r : Fin 32768) (k : Fin 512) :
    val_main_v159 (F := Ideal) x0 x1 x6 x7 x8 x9 (ix2 r k) = (fun k => x1 (ix2 r k) + val_main_v152 (F := Ideal) x0 x1 x6 x7 x8 x9 (ix2 r k)) k - mean (fun k => x1 (ix2 r k) + val_main_v152 (F := Ideal) x0 x1 x6 x7 x8 x9 (ix2 r k)) := by
  rw [val_main_v159_apply, val_main_v158_apply, val_main_v153_apply, show idx_main_v158 (ix2 r k) = ix2 r (⟨0, Nat.one_pos⟩ : Fin 1) from by idx, ln1_mean x0 x1 x6 x7 x8 x9 x12 x13 x16 x17 x22 x23 x24 x25]
  rfl

/-- The first layer normalisation (of the branch's own row plus the projected attention output): an entry of row `r` minus the row's mean (the copy that is scaled). -/
theorem ln1_centered' (x0 : Cn S32768x512) (x1 : Cn S32768x512) (x6 : Cn S1536x512) (x7 : Cn S1536) (x8 : Cn S512x512) (x9 : Cn S512) (x12 : Cn S512) (x13 : Cn S512) (x16 : Cn S512) (x17 : Cn S512) (x22 : Cn S1024x512) (x23 : Cn S1024) (x24 : Cn S512x1024) (x25 : Cn S512) (r : Fin 32768) (k : Fin 512) :
    val_main_v166 (F := Ideal) x0 x1 x6 x7 x8 x9 (ix2 r k) = (fun k => x1 (ix2 r k) + val_main_v152 (F := Ideal) x0 x1 x6 x7 x8 x9 (ix2 r k)) k - mean (fun k => x1 (ix2 r k) + val_main_v152 (F := Ideal) x0 x1 x6 x7 x8 x9 (ix2 r k)) := by
  rw [val_main_v166_apply, val_main_v165_apply, val_main_v153_apply, show idx_main_v165 (ix2 r k) = ix2 r (⟨0, Nat.one_pos⟩ : Fin 1) from by idx, ln1_mean x0 x1 x6 x7 x8 x9 x12 x13 x16 x17 x22 x23 x24 x25]
  rfl

/-- The first layer normalisation (of the branch's own row plus the projected attention output): the variance of row `r`. -/
theorem ln1_var (x0 : Cn S32768x512) (x1 : Cn S32768x512) (x6 : Cn S1536x512) (x7 : Cn S1536) (x8 : Cn S512x512) (x9 : Cn S512) (x12 : Cn S512) (x13 : Cn S512) (x16 : Cn S512) (x17 : Cn S512) (x22 : Cn S1024x512) (x23 : Cn S1024) (x24 : Cn S512x1024) (x25 : Cn S512) (r : Fin 32768) (c : Fin 1) :
    val_main_v164 (F := Ideal) x0 x1 x6 x7 x8 x9 (ix2 r c) = mean (fun k => ((fun k => x1 (ix2 r k) + val_main_v152 (F := Ideal) x0 x1 x6 x7 x8 x9 (ix2 r k)) k - mean (fun k => x1 (ix2 r k) + val_main_v152 (F := Ideal) x0 x1 x6 x7 x8 x9 (ix2 r k))) * ((fun k => x1 (ix2 r k) + val_main_v152 (F := Ideal) x0 x1 x6 x7 x8 x9 (ix2 r k)) k - mean (fun k => x1 (ix2 r k) + val_main_v152 (F := Ideal) x0 x1 x6 x7 x8 x9 (ix2 r k)))) := by
  rw [val_main_v164_apply, val_main_v162_apply, val_main_v163_apply, val_main_v161_apply, val_main_cst_22_apply, val_main_cst_21_apply]
  simp only [Ideal.hostDivf_def, Ideal.ofBits_def, Ideal.ofBits_zero_f32, zero_add, val_main_v160_apply, Ideal.mulf_def, Cert.RowSpec.mean, Cert.RowSpec.c512]
  refine congrArg (fun s => Ideal.div s _) (Finset.sum_congr rfl fun k _ => ?_)
  rw [show idx_main_v161 (idx_main_v162 (ix2 r c)) k = ix2 r k from by idx, ln1_centered x0 x1 x6 x7 x8 x9 x12 x13 x16 x17 x22 x23 x24 x25]
  rfl

/-- The first layer normalisation (of the branch's own row plus the projected attention output): row `r`, normalised, scaled by the gain and shifted by the bias. -/
theorem ln1_row (x0 : Cn S32768x512) (x1 : Cn S32768x512) (x6 : Cn S1536x512) (x7 : Cn S1536) (x8 : Cn S512x512) (x9 : Cn S512) (x12 : Cn S512) (x13 : Cn S512) (x16 : Cn S512) (x17 : Cn S512) (x22 : Cn S1024x512) (x23 : Cn S1024) (x24 : Cn S512x1024) (x25 : Cn S512) (r : Fin 32768) (j : Fin 512) :
    val_main_v177 (F := Ideal) x0 x1 x6 x7 x8 x9 x12 x13 (ix2 r j) = lnorm (fun k => x1 (ix2 r k) + val_main_v152 (F := Ideal) x0 x1 x6 x7 x8 x9 (ix2 r k)) (fun e => x12 (ix1 e)) (fun e => x13 (ix1 e)) j := by
  rw [val_main_v177_apply, val_main_v174_apply, val_main_v171_apply, val_main_v170_apply, val_main_v169_apply, val_main_v168_apply, val_main_v167_apply, val_main_cst_23_apply, val_main_v173_apply, val_main_v172_apply, val_main_v176_apply, val_main_v175_apply,
    ln1_centered' x0 x1 x6 x7 x8 x9 x12 x13 x16 x17 x22 x23 x24 x25, show idx_main_v170 (ix2 r j) = ix2 r (⟨0, Nat.one_pos⟩ : Fin 1) from by idx, ln1_var x0 x1 x6 x7 x8 x9 x12 x13 x16 x17 x22 x23 x24 x25]
  simp only [Ideal.addf_def, Ideal.mulf_def, Ideal.hostUnary_rsqrt_def, Ideal.ofBits_def, Cert.RowSpec.lnorm, Cert.RowSpec.eps]
  refine congrArg₂ (· + ·) (congrArg₂ (· * ·) rfl (congrArg x12 ?_)) (congrArg x13 ?_)
  all_goals idx

/-- The feed-forward block's first affine map of row `r`. -/
theorem ffn1_row (x0 : Cn S32768x512) (x1 : Cn S32768x512) (x6 : Cn S1536x512) (x7 : Cn S1536) (x8 : Cn S512x512) (x9 : Cn S512) (x12 : Cn S512) (x13 : Cn S512) (x16 : Cn S512) (x17 : Cn S512) (x22 : Cn S1024x512) (x23 : Cn S1024) (x24 : Cn S512x1024) (x25 : Cn S512) (r : Fin 32768) (e : Fin 1024) :
    val_main_v182 (F := Ideal) x0 x1 x6 x7 x8 x9 x12 x13 x22 x23 (ix2 r e) = lin (fun k => (val_main_v177 (F := Ideal) x0 x1 x6 x7 x8 x9 x12 x13) (ix2 r k)) (fun e k => x22 (ix2 e k)) (fun e => x23 (ix1 e)) e := by
  rw [val_main_v182_apply, val_main_v179_apply, val_main_v181_apply, val_main_v180_apply]
  simp only [val_main_v178_apply, Ideal.addf_def, Cert.RowSpec.lin]
  refine congrArg₂ (· + ·) (Finset.sum_congr rfl fun k _ => congrArg₂ (· * ·) (congrArg _ ?_) (congrArg x22 ?_)) (congrArg x23 ?_)
  all_goals idx

/-- The rectifier: the maximum with the float zero. -/
theorem relu_apply (x0 : Cn S32768x512) (x1 : Cn S32768x512) (x6 : Cn S1536x512) (x7 : Cn S1536) (x8 : Cn S512x512) (x9 : Cn S512) (x12 : Cn S512) (x13 : Cn S512) (x16 : Cn S512) (x17 : Cn S512) (x22 : Cn S1024x512) (x23 : Cn S1024) (x24 : Cn S512x1024) (x25 : Cn S512) (i : S32768x1024.Idx) : val_main_v183 (F := Ideal) x0 x1 x6 x7 x8 x9 x12 x13 x22 x23 i = max (val_main_v182 (F := Ideal) x0 x1 x6 x7 x8 x9 x12 x13 x22 x23 i) 0 := by
  rw [val_main_v183_apply, val_main_call1_v0_apply, val_main_call1_cst_apply]
  simp only [Ideal.maximumf_def, Ideal.ofBits_def, Ideal.ofBits_zero_f32]

/-- The feed-forward block's second affine map of row `r`. -/
theorem ffn2_row (x0 : Cn S32768x512) (x1 : Cn S32768x512) (x6 : Cn S1536x512) (x7 : Cn S1536) (x8 : Cn S512x512) (x9 : Cn S512) (x12 : Cn S512) (x13 : Cn S512) (x16 : Cn S512) (x17 : Cn S512) (x22 : Cn S1024x512) (x23 : Cn S1024) (x24 : Cn S512x1024) (x25 : Cn S512) (r : Fin 32768) (e : Fin 512) :
    val_main_v188 (F := Ideal) x0 x1 x6 x7 x8 x9 x12 x13 x22 x23 x24 x25 (ix2 r e) = lin (fun k => (val_main_v183 (F := Ideal) x0 x1 x6 x7 x8 x9 x12 x13 x22 x23) (ix2 r k)) (fun e k => x24 (ix2 e k)) (fun e => x25 (ix1 e)) e := by
  rw [val_main_v188_apply, val_main_v185_apply, val_main_v187_apply, val_main_v186_apply]
  simp only [val_main_v184_apply, Ideal.addf_def, Cert.RowSpec.lin]
  refine congrArg₂ (· + ·) (Finset.sum_congr rfl fun k _ => congrArg₂ (· * ·) (congrArg _ ?_) (congrArg x24 ?_)) (congrArg x25 ?_)
  all_goals idx

/-- The second layer normalisation (of the first one's row plus the feed-forward block's): the mean of row `r`. -/
theorem ln3_mean (x0 : Cn S32768x512) (x1 : Cn S32768x512) (x6 : Cn S1536x512) (x7 : Cn S1536) (x8 : Cn S512x512) (x9 : Cn S512) (x12 : Cn S512) (x13 : Cn S512) (x16 : Cn S512) (x17 : Cn S512) (x22 : Cn S1024x512) (x23 : Cn S1024) (x24 : Cn S512x1024) (x25 : Cn S512) (r : Fin 32768) (c : Fin 1) :
    val_main_v193 (F := Ideal) x0 x1 x6 x7 x8 x9 x12 x13 x22 x23 x24 x25 (ix2 r c) = mean (fun k => val_main_v177 (F := Ideal) x0 x1 x6 x7 x8 x9 x12 x13 (ix2 r k) + val_main_v188 (F := Ideal) x0 x1 x6 x7 x8 x9 x12 x13 x22 x23 x24 x25 (ix2 r k)) := by
  rw [val_main_v193_apply, val_main_v191_apply, val_main_v192_apply, val_main_v190_apply, val_main_cst_25_apply, val_main_cst_24_apply]
  simp only [Ideal.hostDivf_def, Ideal.ofBits_def, Ideal.ofBits_zero_f32, zero_add, val_main_v189_apply, Ideal.addf_def, Cert.RowSpec.mean, Cert.RowSpec.c512]
  refine congrArg (fun s => Ideal.div s _) (Finset.sum_congr rfl fun k _ => congrArg₂ (· + ·) (congrArg (val_main_v177 (F := Ideal) x0 x1 x6 x7 x8 x9 x12 x13) ?_) (congrArg (val_main_v188 (F := Ideal) x0 x1 x6 x7 x8 x9 x12 x13 x22 x23 x24 x25) ?_))
  all_goals idx

/-- The second layer normalisation (of the first one's row plus the feed-forward block's): an entry of row `r` minus the row's mean (the copy squared for the variance). -/
theorem ln3_centered (x0 : Cn S32768x512) (x1 : Cn S32768x512) (x6 : Cn S1536x512) (x7 : Cn S1536) (x8 : Cn S512x512) (x9 : Cn S512) (x12 : Cn S512) (x13 : Cn S512) (x16 : Cn S512) (x17 : Cn S512) (x22 : Cn S1024x512) (x23 : Cn S1024) (x24 : Cn S512x1024) (x25 : Cn S512) (r : Fin 32768) (k : Fin 512) :
    val_main_v195 (F := Ideal) x0 x1 x6 x7 x8 x9 x12 x13 x22 x23 x24 x25 (ix2 r k) = (fun k => val_main_v177 (F := Ideal) x0 x1 x6 x7 x8 x9 x12 x13 (ix2 r k) + val_main_v188 (F := Ideal) x0 x1 x6 x7 x8 x9 x12 x13 x22 x23 x24 x25 (ix2 r k)) k - mean (fun k => val_main_v177 (F := Ideal) x0 x1 x6 x7 x8 x9 x12 x13 (ix2 r k) + val_main_v188 (F := Ideal) x0 x1 x6 x7 x8 x9 x12 x13 x22 x23 x24 x25 (ix2 r k)) := by
  rw [val_main_v195_apply, val_main_v194_apply, val_main_v189_apply, show idx_main_v194 (ix2 r k) = ix2 r (⟨0, Nat.one_pos⟩ : Fin 1) from by idx, ln3_mean x0 x1 x6 x7 x8 x9 x12 x13 x16 x17 x22 x23 x24 x25]
  rfl

/-- The second layer normalisation (of the first one's row plus the feed-forward block's): an entry of row `r` minus the row's mean (the copy that is scaled). -/
theorem ln3_centered' (x0 : Cn S32768x512) (x1 : Cn S32768x512) (x6 : Cn S1536x512) (x7 : Cn S1536) (x8 : Cn S512x512) (x9 : Cn S512) (x12 : Cn S512) (x13 : Cn S512) (x16 : Cn S512) (x17 : Cn S512) (x22 : Cn S1024x512) (x23 : Cn S1024) (x24 : Cn S512x1024) (x25 : Cn S512) (r : Fin 32768) (k : Fin 512) :
    val_main_v202 (F := Ideal) x0 x1 x6 x7 x8 x9 x12 x13 x22 x23 x24 x25 (ix2 r k) = (fun k => val_main_v177 (F := Ideal) x0 x1 x6 x7 x8 x9 x12 x13 (ix2 r k) + val_main_v188 (F := Ideal) x0 x1 x6 x7 x8 x9 x12 x13 x22 x23 x24 x25 (ix2 r k)) k - mean (fun k => val_main_v177 (F := Ideal) x0 x1 x6 x7 x8 x9 x12 x13 (ix2 r k) + val_main_v188 (F := Ideal) x0 x1 x6 x7 x8 x9 x12 x13 x22 x23 x24 x25 (ix2 r k)) := by
  rw [val_main_v202_apply, val_main_v201_apply, val_main_v189_apply, show idx_main_v201 (ix2 r k) = ix2 r (⟨0, Nat.one_pos⟩ : Fin 1) from by idx, ln3_mean x0 x1 x6 x7 x8 x9 x12 x13 x16 x17 x22 x23 x24 x25]
  rfl

/-- The second layer normalisation (of the first one's row plus the feed-forward block's): the variance of row `r`. -/
theorem ln3_var (x0 : Cn S32768x512) (x1 : Cn S32768x512) (x6 : Cn S1536x512) (x7 : Cn S1536) (x8 : Cn S512x512) (x9 : Cn S512) (x12 : Cn S512) (x13 : Cn S512) (x16 : Cn S512) (x17 : Cn S512) (x22 : Cn S1024x512) (x23 : Cn S1024) (x24 : Cn S512x1024) (x25 : Cn S512) (r : Fin 32768) (c : Fin 1) :
    val_main_v200 (F := Ideal) x0 x1 x6 x7 x8 x9 x12 x13 x22 x23 x24 x25 (ix2 r c) = mean (fun k => ((fun k => val_main_v177 (F := Ideal) x0 x1 x6 x7 x8 x9 x12 x13 (ix2 r k) + val_main_v188 (F := Ideal) x0 x1 x6 x7 x8 x9 x12 x13 x22 x23 x24 x25 (ix2 r k)) k - mean (fun k => val_main_v177 (F := Ideal) x0 x1 x6 x7 x8 x9 x12 x13 (ix2 r k) + val_main_v188 (F := Ideal) x0 x1 x6 x7 x8 x9 x12 x13 x22 x23 x24 x25 (ix2 r k))) * ((fun k => val_main_v177 (F := Ideal) x0 x1 x6 x7 x8 x9 x12 x13 (ix2 r k) + val_main_v188 (F := Ideal) x0 x1 x6 x7 x8 x9 x12 x13 x22 x23 x24 x25 (ix2 r k)) k - mean (fun k => val_main_v177 (F := Ideal) x0 x1 x6 x7 x8 x9 x12 x13 (ix2 r k) + val_main_v188 (F := Ideal) x0 x1 x6 x7 x8 x9 x12 x13 x22 x23 x24 x25 (ix2 r k)))) := by
  rw [val_main_v200_apply, val_main_v198_apply, val_main_v199_apply, val_main_v197_apply, val_main_cst_27_apply, val_main_cst_26_apply]
  simp only [Ideal.hostDivf_def, Ideal.ofBits_def, Ideal.ofBits_zero_f32, zero_add, val_main_v196_apply, Ideal.mulf_def, Cert.RowSpec.mean, Cert.RowSpec.c512]
  refine congrArg (fun s => Ideal.div s _) (Finset.sum_congr rfl fun k _ => ?_)
  rw [show idx_main_v197 (idx_main_v198 (ix2 r c)) k = ix2 r k from by idx, ln3_centered x0 x1 x6 x7 x8 x9 x12 x13 x16 x17 x22 x23 x24 x25]
  rfl

/-- The second layer normalisation (of the first one's row plus the feed-forward block's): row `r`, normalised, scaled by the gain and shifted by the bias. -/
theorem ln3_row (x0 : Cn S32768x512) (x1 : Cn S32768x512) (x6 : Cn S1536x512) (x7 : Cn S1536) (x8 : Cn S512x512) (x9 : Cn S512) (x12 : Cn S512) (x13 : Cn S512) (x16 : Cn S512) (x17 : Cn S512) (x22 : Cn S1024x512) (x23 : Cn S1024) (x24 : Cn S512x1024) (x25 : Cn S512) (r : Fin 32768) (j : Fin 512) :
    val_main_v213 (F := Ideal) x0 x1 x6 x7 x8 x9 x12 x13 x16 x17 x22 x23 x24 x25 (ix2 r j) = lnorm (fun k => val_main_v177 (F := Ideal) x0 x1 x6 x7 x8 x9 x12 x13 (ix2 r k) + val_main_v188 (F := Ideal) x0 x1 x6 x7 x8 x9 x12 x13 x22 x23 x24 x25 (ix2 r k)) (fun e => x16 (ix1 e)) (fun e => x17 (ix1 e)) j := by
  rw [val_main_v213_apply, val_main_v210_apply, val_main_v207_apply, val_main_v206_apply, val_main_v205_apply, val_main_v204_apply, val_main_v203_apply, val_main_cst_28_apply, val_main_v209_apply, val_main_v208_apply, val_main_v212_apply, val_main_v211_apply,
    ln3_centered' x0 x1 x6 x7 x8 x9 x12 x13 x16 x17 x22 x23 x24 x25, show idx_main_v206 (ix2 r j) = ix2 r (⟨0, Nat.one_pos⟩ : Fin 1) from by idx, ln3_var x0 x1 x6 x7 x8 x9 x12 x13 x16 x17 x22 x23 x24 x25]
  simp only [Ideal.addf_def, Ideal.mulf_def, Ideal.hostUnary_rsqrt_def, Ideal.ofBits_def, Cert.RowSpec.lnorm, Cert.RowSpec.eps]
  refine congrArg₂ (· + ·) (congrArg₂ (· * ·) rfl (congrArg x16 ?_)) (congrArg x17 ?_)
  all_goals idx

/-! ## The branch -/

/-- Row `r` of the branch's result is the row function of the two data rows. -/
theorem branch_row (x0 : Cn S32768x512) (x1 : Cn S32768x512) (x6 : Cn S1536x512) (x7 : Cn S1536) (x8 : Cn S512x512) (x9 : Cn S512) (x12 : Cn S512) (x13 : Cn S512) (x16 : Cn S512) (x17 : Cn S512) (x22 : Cn S1024x512) (x23 : Cn S1024) (x24 : Cn S512x1024) (x25 : Cn S512) (hx1 : ∀ i, IsReal (x1 i)) (hx0 : ∀ i, IsReal (x0 i)) (hx6 : ∀ i, IsReal (x6 i)) (hx7 : ∀ i, IsReal (x7 i)) (r : Fin 32768) (j : Fin 512) :
    val_main_v213 (F := Ideal) x0 x1 x6 x7 x8 x9 x12 x13 x16 x17 x22 x23 x24 x25 (ix2 r j) = branch (fun k => x1 (ix2 r k)) (fun k => x0 (ix2 r k))
      (fun e k => x6 (ix2 (⟨1024 + e.val, by have := e.isLt; omega⟩ : Fin 1536) k)) (fun e => x7 (ix1 (⟨1024 + e.val, by have := e.isLt; omega⟩ : Fin 1536)))
      (fun e k => x8 (ix2 e k)) (fun e => x9 (ix1 e)) (fun e => x12 (ix1 e)) (fun e => x13 (ix1 e))
      (fun e k => x22 (ix2 e k)) (fun e => x23 (ix1 e)) (fun e k => x24 (ix2 e k)) (fun e => x25 (ix1 e))
      (fun e => x16 (ix1 e)) (fun e => x17 (ix1 e)) j := by
  have p40 : ∀ k, val_main_v147 (F := Ideal) x0 x1 x6 x7 (ix2 r k) = lin (fun k => x0 (ix2 r k)) (fun e k => x6 (ix2 (⟨1024 + e.val, by have := e.isLt; omega⟩ : Fin 1536) k)) (fun e => x7 (ix1 (⟨1024 + e.val, by have := e.isLt; omega⟩ : Fin 1536))) k :=
    fun k => (attn_row x0 x1 x6 x7 x8 x9 x12 x13 x16 x17 x22 x23 x24 x25 hx1 hx0 hx6 hx7 r k).trans (v_row x0 x1 x6 x7 x8 x9 x12 x13 x16 x17 x22 x23 x24 x25 r k)
  have p45 : ∀ k, val_main_v152 (F := Ideal) x0 x1 x6 x7 x8 x9 (ix2 r k) = lin (lin (fun k => x0 (ix2 r k)) (fun e k => x6 (ix2 (⟨1024 + e.val, by have := e.isLt; omega⟩ : Fin 1536) k)) (fun e => x7 (ix1 (⟨1024 + e.val, by have := e.isLt; omega⟩ : Fin 1536)))) (fun e k => x8 (ix2 e k)) (fun e => x9 (ix1 e)) k :=
    fun k => by rw [out_row x0 x1 x6 x7 x8 x9 x12 x13 x16 x17 x22 x23 x24 x25]; simp only [p40]; try rfl
  have p70 : ∀ k, val_main_v177 (F := Ideal) x0 x1 x6 x7 x8 x9 x12 x13 (ix2 r k) = lnorm (fun k => x1 (ix2 r k) + lin (lin (fun k => x0 (ix2 r k)) (fun e k => x6 (ix2 (⟨1024 + e.val, by have := e.isLt; omega⟩ : Fin 1536) k)) (fun e => x7 (ix1 (⟨1024 + e.val, by have := e.isLt; omega⟩ : Fin 1536)))) (fun e k => x8 (ix2 e k)) (fun e => x9 (ix1 e)) k) (fun e => x12 (ix1 e)) (fun e => x13 (ix1 e)) k :=
    fun k => by rw [ln1_row x0 x1 x6 x7 x8 x9 x12 x13 x16 x17 x22 x23 x24 x25]; simp only [p45]; try rfl
  have p76 : ∀ e, val_main_v183 (F := Ideal) x0 x1 x6 x7 x8 x9 x12 x13 x22 x23 (ix2 r e) = (fun e => max (lin (lnorm (fun k => x1 (ix2 r k) + lin (lin (fun k => x0 (ix2 r k)) (fun e k => x6 (ix2 (⟨1024 + e.val, by have := e.isLt; omega⟩ : Fin 1536) k)) (fun e => x7 (ix1 (⟨1024 + e.val, by have := e.isLt; omega⟩ : Fin 1536)))) (fun e k => x8 (ix2 e k)) (fun e => x9 (ix1 e)) k) (fun e => x12 (ix1 e)) (fun e => x13 (ix1 e))) (fun e k => x22 (ix2 e k)) (fun e => x23 (ix1 e)) e) 0) e :=
    fun e => by rw [relu_apply x0 x1 x6 x7 x8 x9 x12 x13 x16 x17 x22 x23 x24 x25, ffn1_row x0 x1 x6 x7 x8 x9 x12 x13 x16 x17 x22 x23 x24 x25]; simp only [p70]; try rfl
  have p81 : ∀ k, val_main_v188 (F := Ideal) x0 x1 x6 x7 x8 x9 x12 x13 x22 x23 x24 x25 (ix2 r k) = lin (fun e => max (lin (lnorm (fun k => x1 (ix2 r k) + lin (lin (fun k => x0 (ix2 r k)) (fun e k => x6 (ix2 (⟨1024 + e.val, by have := e.isLt; omega⟩ : Fin 1536) k)) (fun e => x7 (ix1 (⟨1024 + e.val, by have := e.isLt; omega⟩ : Fin 1536)))) (fun e k => x8 (ix2 e k)) (fun e => x9 (ix1 e)) k) (fun e => x12 (ix1 e)) (fun e => x13 (ix1 e))) (fun e k => x22 (ix2 e k)) (fun e => x23 (ix1 e)) e) 0) (fun e k => x24 (ix2 e k)) (fun e => x25 (ix1 e)) k :=
    fun k => by rw [ffn2_row x0 x1 x6 x7 x8 x9 x12 x13 x16 x17 x22 x23 x24 x25]; simp only [p76]; try rfl
  rw [ln3_row x0 x1 x6 x7 x8 x9 x12 x13 x16 x17 x22 x23 x24 x25]
  simp only [p70, p81]
  rfl

end Cert.RefB

end
-- ==== Proof.ConcatJoined.lean ====
/-
  The reference's last operation joins two arrays of 32768 × 512 along the columns. When the first array's rows are
  the first branch of the two data rows and the second array's rows the second branch, the joined array is the result
  array row by row: an entry in columns 0 … 511 reads the first piece at the same coordinates, an entry in columns
  512 … 1023 reads the second piece at the column less 512.
-/
import proofs.«142812_j30056181138117_1_alg».proof.Proof.Gen.ReferenceIdeal
import proofs.«142812_j30056181138117_1_alg».proof.Proof.Joined
import Idealize.ShloMosaic.Lib.Pipeline.Value
import Idealize.ShloMosaic.Lib.ValueIdx

noncomputable section

open Idealize.ShloMosaic Idealize.ShloMosaic.ValueIdx Cert.ReferenceIdeal Cert.ReferenceIdeal.Gen

namespace Cert.ConcatJoined

/-- The two branches' arrays joined along the columns are the result array. -/
theorem concat_joined (a b a0 a1 : (⟨S32768x512, .f32⟩ : BufTy).Contents (Elt Ideal)) (PA PB : Cert.Joined.Params)
    (hA : ∀ (r : Fin 32768) (j : Fin 512), a (ix2 r j) = PA.row (fun k => a0 (ix2 r k)) (fun k => a1 (ix2 r k)) j)
    (hB : ∀ (r : Fin 32768) (j : Fin 512), b (ix2 r j) = PB.row (fun k => a1 (ix2 r k)) (fun k => a0 (ix2 r k)) j) :
    concatenate S32768x1024 1 [⟨S32768x512, a⟩, ⟨S32768x512, b⟩] concatenates_S32768x512_S32768x512_S32768x1024_d1
      = Cert.Joined.joined (M := 32768) a0 a1 PA PB := by
  funext i
  obtain ⟨r, c, rfl⟩ : ∃ (r : Fin 32768) (c : Fin 1024), i = ix2 r c := ⟨i 0, i 1, eq_ix2 i⟩
  by_cases hc : c.val < 512
  · refine (concatenate_pair_apply_left (1 : Fin S32768x1024.rank) a b
      concatenates_S32768x512_S32768x512_S32768x1024_d1 (ix2 r c) rfl (ix2 r (⟨c.val, hc⟩ : Fin 512))
      (fun d => by
        match d with
        | ⟨0, _⟩ => rfl
        | ⟨1, _⟩ => rfl)).trans ?_
    rw [hA]
    exact (Cert.Joined.joined_left a0 a1 PA PB (ix2 r c) r ⟨c.val, hc⟩ rfl rfl).symm
  · have hc' : c.val - 512 < 512 := by have := c.isLt; omega
    refine (concatenate_pair_apply_right (1 : Fin S32768x1024.rank) a b
      concatenates_S32768x512_S32768x512_S32768x1024_d1 (ix2 r c) rfl rfl (ix2 r (⟨c.val - 512, hc'⟩ : Fin 512))
      (fun d hd => by
        match d, hd with
        | ⟨0, _⟩, _ => rfl
        | ⟨1, _⟩, hd => exact absurd rfl hd)
      (by show c.val - 512 + 512 = c.val; omega)).trans ?_
    rw [hB]
    exact (Cert.Joined.joined_right a0 a1 PA PB (ix2 r c) r ⟨c.val - 512, hc'⟩ rfl
      (by show c.val = 512 + (c.val - 512); omega)).symm

end Cert.ConcatJoined

end
-- ==== Proof.RefResult.lean ====
/-
  The reference's result as ONE function of its argument arrays: its last operation lays the two branches' results
  side by side along the columns, and each branch's rows are the row function of the two data rows.
-/
import proofs.«142812_j30056181138117_1_alg».proof.Proof.RefBranchA
import proofs.«142812_j30056181138117_1_alg».proof.Proof.RefBranchB
import proofs.«142812_j30056181138117_1_alg».proof.Proof.ConcatJoined
import proofs.«142812_j30056181138117_1_alg».proof.Proof.Packed

noncomputable section

open Cert.ReferenceIdeal Cert.ReferenceIdeal.Gen Cert.ReferenceIdeal.ReadP Idealize.ShloMosaic Idealize.ShloMosaic.ValueIdx
open Cert.Joined Cert.Packed Cert.RealFacts

namespace Cert.RefResult

/-- The contents of an f32 array of shape `S` at the ideal instance. -/
abbrev Cn (S : Shape) := (⟨S, .f32⟩ : BufTy).Contents (Elt Ideal)

/-- The reference's result is the joined row function of its arguments, when the two data matrices and the two packed
    input projections (weights and biases) hold reals only. -/
theorem result_eq (x0 : Cn S32768x512) (x1 : Cn S32768x512) (x2 : Cn S1536x512) (x3 : Cn S1536) (x4 : Cn S512x512) (x5 : Cn S512) (x6 : Cn S1536x512) (x7 : Cn S1536) (x8 : Cn S512x512) (x9 : Cn S512) (x10 : Cn S512) (x11 : Cn S512) (x12 : Cn S512) (x13 : Cn S512) (x14 : Cn S512) (x15 : Cn S512) (x16 : Cn S512) (x17 : Cn S512) (x18 : Cn S1024x512) (x19 : Cn S1024) (x20 : Cn S512x1024) (x21 : Cn S512) (x22 : Cn S1024x512) (x23 : Cn S1024) (x24 : Cn S512x1024) (x25 : Cn S512)
    (h0 : ∀ i, IsReal (x0 i)) (h1 : ∀ i, IsReal (x1 i)) (h2 : ∀ i, IsReal (x2 i)) (h3 : ∀ i, IsReal (x3 i))
    (h6 : ∀ i, IsReal (x6 i)) (h7 : ∀ i, IsReal (x7 i)) :
    val_main_v214 (F := Ideal) x0 x1 x2 x3 x4 x5 x6 x7 x8 x9 x10 x11 x12 x13 x14 x15 x16 x17 x18 x19 x20 x21 x22 x23 x24 x25
      = joined (M := 32768) x0 x1 (ofPacked x2 x3 x4 x5 x10 x11 x18 x19 x20 x21 x14 x15) (ofPacked x6 x7 x8 x9 x12 x13 x22 x23 x24 x25 x16 x17) := by
  unfold val_main_v214
  exact Cert.ConcatJoined.concat_joined _ _ x0 x1 _ _
    (fun r j => Cert.RefA.branch_row x0 x1 x2 x3 x4 x5 x10 x11 x14 x15 x18 x19 x20 x21 h0 h1 h2 h3 r j)
    (fun r j => Cert.RefB.branch_row x0 x1 x6 x7 x8 x9 x12 x13 x16 x17 x22 x23 x24 x25 h1 h0 h6 h7 r j)

end Cert.RefResult

end
-- ==== Proof.RefRunResult.lean ====
/-
  The reference's last buffer after its whole list of host operations is the last staged value: the fold of the
  operations' results over the launch contents, read at the result buffer, composes exactly the operations the
  staged values compose. (One pass computes the composed term; the two spellings then agree by unfolding.)
-/
import proofs.«142812_j30056181138117_1_alg».proof.Proof.RefOps
import proofs.«142812_j30056181138117_1_alg».proof.Proof.RefReadP

noncomputable section

namespace Cert.RefRun

open Cert.ReferenceIdeal Cert.ReferenceIdeal.Gen Cert.ReferenceIdeal.ReadP Cert.ReferenceIdeal.ValueP
open Idealize.ShloMosaic Idealize.ShloMosaic.TcCoe Idealize.SL.Sem Idealize.ShloMosaic.StableHlo

variable {F : FTy → Type} [FloatOps F]

set_option maxRecDepth 1000000 in
set_option maxHeartbeats 0 in
/-- After all of @main's operations the result buffer holds the last staged value of the arguments' launch contents. -/
theorem result_after (m : (ℓ : Loc nD τ sig) → Buf (Elt F) ℓ) (c : Dev nD) :
    after (ops (F := F)) (launchContents m c) (Proc.devRef .tc main_v214) = val_main_v214 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) := by
  after_results_simp
  rfl

end Cert.RefRun

end
-- ==== Proof.RefRun.lean ====
/-
  The reference's run: its @main is a straight line of host operations, so every weakly fair execution terminates
  with each buffer at the fold of the operations' results over the launch contents; the result buffer is the last
  staged value, and no operation writes an argument buffer.
-/
import proofs.«142812_j30056181138117_1_alg».proof.Proof.RefRunResult

noncomputable section

namespace Cert.RefRun

open Cert.ReferenceIdeal Cert.ReferenceIdeal.Gen Cert.ReferenceIdeal.ReadP Cert.ReferenceIdeal.ValueP
open Idealize.ShloMosaic Idealize.ShloMosaic.TcCoe Idealize.SL.Sem Idealize.ShloMosaic.StableHlo

variable {F : FTy → Type} [FloatOps F]

set_option maxRecDepth 8192 in
set_option maxHeartbeats 99600000 in
/-- On every device, from any memory with zero counters: every weakly fair execution of the reference's @main terminates
    with the result buffer at the last staged value of the arguments and the arguments unchanged (no operation writes
    an argument buffer). -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v214) = val_main_v214 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25) :=
  (θ_run defs _ _).mono (fun _ h c => ⟨(h c main_v214).trans (result_after m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl),
      (h c main_arg11).trans (by after_results_simp <;> rfl),
      (h c main_arg12).trans (by after_results_simp <;> rfl),
      (h c main_arg13).trans (by after_results_simp <;> rfl),
      (h c main_arg14).trans (by after_results_simp <;> rfl),
      (h c main_arg15).trans (by after_results_simp <;> rfl),
      (h c main_arg16).trans (by after_results_simp <;> rfl),
      (h c main_arg17).trans (by after_results_simp <;> rfl),
      (h c main_arg18).trans (by after_results_simp <;> rfl),
      (h c main_arg19).trans (by after_results_simp <;> rfl),
      (h c main_arg20).trans (by after_results_simp <;> rfl),
      (h c main_arg21).trans (by after_results_simp <;> rfl),
      (h c main_arg22).trans (by after_results_simp <;> rfl),
      (h c main_arg23).trans (by after_results_simp <;> rfl),
      (h c main_arg24).trans (by after_results_simp <;> rfl),
      (h c main_arg25).trans (by after_results_simp <;> rfl)⟩)
    (run_seq scopedRefs_eq scopedSems_eq defs main (fun _ => ops) main_eq (fun _ => ops_sub) m ρ)

end Cert.RefRun

end
-- ==== Proof.FiniteInputs.lean ====
/-
  The finiteness precondition read back. The precondition is the conjunction, over the 26 argument arrays, of
  all(|x| < +∞); each all(...) is a reduction by "and" over every axis from the constant 1, and the 26 results are joined
  by a left-nested chain of "and". When the result is 1, every link of the chain is 1 (a conjunction of one-bit words is 1
  exactly when both are), every entry of each tested comparison is 1 (a reduction by "and" that is 1 met only 1s), and an
  extended real x with max x (-x) < +∞ is neither +∞ nor -∞, hence a real number. The chain is peeled from the outside in,
  one stretch of the printed function at a time, keeping the left conjunct until the arguments wanted are reached.
-/
import proofs.«142812_j30056181138117_1_alg».proof.Pre_finite_inputs
import Idealize.ShloMosaic.Lib.ReduceAll
import Idealize.ShloMosaic.Lib.ValueIdx

noncomputable section

namespace Cert.FiniteInputs

open Idealize.ShloMosaic Cert.Pre_finite_inputs

instance : Subsingleton S_.Idx := ⟨fun a b => funext fun d => d.elim0⟩

/-- The pattern 0x7F800000 denotes +∞. -/
theorem inf_bits : Ideal.ofBits .f32 0x7F800000#32 = (⊤ : EReal) := by
  simp [Ideal.ofBits, Ideal.ieee]

/-- An extended real whose absolute value lies strictly below +∞ is a real number. -/
theorem real_of_abs_lt_inf (x : EReal)
    (h : Ideal.cmp .olt (max x (-x)) (Ideal.ofBits .f32 0x7F800000#32) = 1#1) : ∃ r : ℝ, x = (r : EReal) := by
  rw [inf_bits] at h
  induction x using EReal.rec with
  | bot => simp [Ideal.cmp] at h
  | coe r => exact ⟨r, rfl⟩
  | top => simp [Ideal.cmp] at h

/-- all(|x| < +∞) read back: when the conjunction over every entry is 1, every entry is a real. -/
theorem all_real {S : Shape} {axes : List (Fin S.rank)} (x : FVec Ideal S .f32)
    (hb : S_.BroadcastsInDim S (![] : Fin 0 → Fin S.rank)) (hr : S.ReducesTo axes S_) (hu : 0 < S_.numel)
    (init : IVec S_ 1)
    (h : Host.reduce IntOp.andi (cmpf .olt (Host.absf x) (broadcastInDim S ![] hb (constant S_ .f32 0x7F800000#32)))
          init hr hu ValueIdx.ix0 = 1#1) :
    ∀ i, ∃ r : ℝ, x i = (r : EReal) := fun i =>
  real_of_abs_lt_inf (x i) (Host.reduce_andi_all _ init hr hu ValueIdx.ix0 h i)

/-- The same from the comparison vector itself. -/
theorem all_real_of_cmp {S : Shape} (x : FVec Ideal S .f32)
    (hb : S_.BroadcastsInDim S (![] : Fin 0 → Fin S.rank))
    (h : ∀ i, cmpf .olt (Host.absf x) (broadcastInDim S ![] hb (constant S_ .f32 0x7F800000#32)) i = 1#1) :
    ∀ i, ∃ r : ℝ, x i = (r : EReal) := fun i => real_of_abs_lt_inf (x i) (h i)

theorem andi_left {a b : IVec S_ 1} (h : andi a b ValueIdx.ix0 = 1#1) : a ValueIdx.ix0 = 1#1 :=
  (IntOp.andi_eq_one.1 h).1

theorem andi_right {a b : IVec S_ 1} (h : andi a b ValueIdx.ix0 = 1#1) : b ValueIdx.ix0 = 1#1 :=
  (IntOp.andi_eq_one.1 h).2

variable [Facts]

/-- Last stretch of the conjunction: when it is 1, so is the conjunction accumulated before it. -/
theorem part7 {a25 : FVec Ideal S512 .f32} {v118 : IVec S_ 1} {v119 : FVec Ideal S512x1024 .f32}
    (h : fn_part7 (F := Ideal) a25 v118 v119 ValueIdx.ix0 = 1#1) : v118 ValueIdx.ix0 = 1#1 := by
  unfold fn_part7 at h
  dsimp only at h
  exact andi_left (andi_left h)

theorem part6 {a21 : FVec Ideal S512 .f32} {a22 : FVec Ideal S1024x512 .f32} {a23 : FVec Ideal S1024 .f32} {a24 : FVec Ideal S512x1024 .f32} {a25 : FVec Ideal S512 .f32} {v98 : IVec S_ 1} {v101 : IVec S512x1024 1} {c39 : IVec S_ 1}
    (h : fn_part6 (F := Ideal) a21 a22 a23 a24 a25 v98 v101 c39 ValueIdx.ix0 = 1#1) : v98 ValueIdx.ix0 = 1#1 := by
  unfold fn_part6 at h
  dsimp only at h
  exact andi_left (andi_left (andi_left (andi_left (part7 h))))

theorem part5 {a18 : FVec Ideal S1024x512 .f32} {a19 : FVec Ideal S1024 .f32} {a20 : FVec Ideal S512x1024 .f32} {a21 : FVec Ideal S512 .f32} {a22 : FVec Ideal S1024x512 .f32} {a23 : FVec Ideal S1024 .f32} {a24 : FVec Ideal S512x1024 .f32} {a25 : FVec Ideal S512 .f32} {v83 : IVec S_ 1} {v84 : FVec Ideal S512 .f32} {cst32 : FVec Ideal S_ .f32}
    (h : fn_part5 (F := Ideal) a18 a19 a20 a21 a22 a23 a24 a25 v83 v84 cst32 ValueIdx.ix0 = 1#1) : v83 ValueIdx.ix0 = 1#1 := by
  unfold fn_part5 at h
  dsimp only at h
  exact andi_left (andi_left (andi_left (part6 h)))

theorem part4 {a14 : FVec Ideal S512 .f32} {a15 : FVec Ideal S512 .f32} {a16 : FVec Ideal S512 .f32} {a17 : FVec Ideal S512 .f32} {a18 : FVec Ideal S1024x512 .f32} {a19 : FVec Ideal S1024 .f32} {a20 : FVec Ideal S512x1024 .f32} {a21 : FVec Ideal S512 .f32} {a22 : FVec Ideal S1024x512 .f32} {a23 : FVec Ideal S1024 .f32} {a24 : FVec Ideal S512x1024 .f32} {a25 : FVec Ideal S512 .f32} {v63 v67 : IVec S_ 1}
    (h : fn_part4 (F := Ideal) a14 a15 a16 a17 a18 a19 a20 a21 a22 a23 a24 a25 v63 v67 ValueIdx.ix0 = 1#1) : v63 ValueIdx.ix0 = 1#1 := by
  unfold fn_part4 at h
  dsimp only at h
  exact andi_left (andi_left (andi_left (andi_left (part5 h))))

theorem part3 {a11 : FVec Ideal S512 .f32} {a12 : FVec Ideal S512 .f32} {a13 : FVec Ideal S512 .f32} {a14 : FVec Ideal S512 .f32} {a15 : FVec Ideal S512 .f32} {a16 : FVec Ideal S512 .f32} {a17 : FVec Ideal S512 .f32} {a18 : FVec Ideal S1024x512 .f32} {a19 : FVec Ideal S1024 .f32} {a20 : FVec Ideal S512x1024 .f32} {a21 : FVec Ideal S512 .f32} {a22 : FVec Ideal S1024x512 .f32} {a23 : FVec Ideal S1024 .f32} {a24 : FVec Ideal S512x1024 .f32} {a25 : FVec Ideal S512 .f32} {v48 : IVec S_ 1} {v49 v50 : FVec Ideal S512 .f32}
    (h : fn_part3 (F := Ideal) a11 a12 a13 a14 a15 a16 a17 a18 a19 a20 a21 a22 a23 a24 a25 v48 v49 v50 ValueIdx.ix0 = 1#1) : v48 ValueIdx.ix0 = 1#1 := by
  unfold fn_part3 at h
  dsimp only at h
  exact andi_left (andi_left (andi_left (part4 h)))

/-- The stretch that tests argument 7: the conjunction before it is 1 and every entry of argument 7 is a real. -/
theorem part2 {a7 : FVec Ideal S1536 .f32} {a8 : FVec Ideal S512x512 .f32} {a9 : FVec Ideal S512 .f32} {a10 : FVec Ideal S512 .f32} {a11 : FVec Ideal S512 .f32} {a12 : FVec Ideal S512 .f32} {a13 : FVec Ideal S512 .f32} {a14 : FVec Ideal S512 .f32} {a15 : FVec Ideal S512 .f32} {a16 : FVec Ideal S512 .f32} {a17 : FVec Ideal S512 .f32} {a18 : FVec Ideal S1024x512 .f32} {a19 : FVec Ideal S1024 .f32} {a20 : FVec Ideal S512x1024 .f32} {a21 : FVec Ideal S512 .f32} {a22 : FVec Ideal S1024x512 .f32} {a23 : FVec Ideal S1024 .f32} {a24 : FVec Ideal S512x1024 .f32} {a25 : FVec Ideal S512 .f32} {v33 : IVec S_ 1}
    (h : fn_part2 (F := Ideal) a7 a8 a9 a10 a11 a12 a13 a14 a15 a16 a17 a18 a19 a20 a21 a22 a23 a24 a25 v33 ValueIdx.ix0 = 1#1) :
    v33 ValueIdx.ix0 = 1#1 ∧ ∀ i, ∃ r : ℝ, a7 i = (r : EReal) := by
  unfold fn_part2 at h
  dsimp only at h
  have h38 := andi_left (andi_left (part3 h))
  exact ⟨andi_left h38, all_real a7 _ _ _ _ (andi_right h38)⟩

/-- The stretch that closes the test of argument 3 and tests arguments 4, 5 and 6. -/
theorem part1 {a4 : FVec Ideal S512x512 .f32} {a5 : FVec Ideal S512 .f32} {a6 : FVec Ideal S1536x512 .f32} {a7 : FVec Ideal S1536 .f32} {a8 : FVec Ideal S512x512 .f32} {a9 : FVec Ideal S512 .f32} {a10 : FVec Ideal S512 .f32} {a11 : FVec Ideal S512 .f32} {a12 : FVec Ideal S512 .f32} {a13 : FVec Ideal S512 .f32} {a14 : FVec Ideal S512 .f32} {a15 : FVec Ideal S512 .f32} {a16 : FVec Ideal S512 .f32} {a17 : FVec Ideal S512 .f32} {a18 : FVec Ideal S1024x512 .f32} {a19 : FVec Ideal S1024 .f32} {a20 : FVec Ideal S512x1024 .f32} {a21 : FVec Ideal S512 .f32} {a22 : FVec Ideal S1024x512 .f32} {a23 : FVec Ideal S1024 .f32} {a24 : FVec Ideal S512x1024 .f32} {a25 : FVec Ideal S512 .f32} {v13 : IVec S_ 1} {v16 : IVec S1536 1}
    (h : fn_part1 (F := Ideal) a4 a5 a6 a7 a8 a9 a10 a11 a12 a13 a14 a15 a16 a17 a18 a19 a20 a21 a22 a23 a24 a25 v13 v16 ValueIdx.ix0 = 1#1) :
    v13 ValueIdx.ix0 = 1#1 ∧ (∀ i, v16 i = 1#1) ∧ (∀ i, ∃ r : ℝ, a6 i = (r : EReal)) ∧ ∀ i, ∃ r : ℝ, a7 i = (r : EReal) := by
  unfold fn_part1 at h
  dsimp only at h
  obtain ⟨h33, h7⟩ := part2 h
  have h18 := andi_left (andi_left (andi_left h33))
  exact ⟨andi_left h18, fun i => Host.reduce_andi_all _ _ _ _ ValueIdx.ix0 (andi_right h18) i,
    all_real a6 _ _ _ _ (andi_right h33), h7⟩

/-- THE PRECONDITION DECODED: when the conjunction of all(|x| < +∞) over the 26 arguments is 1, every entry of
    arguments 0, 1, 2, 3, 6 and 7 is a real number. -/
theorem real_of_pre (a0 : FVec Ideal S32768x512 .f32) (a1 : FVec Ideal S32768x512 .f32) (a2 : FVec Ideal S1536x512 .f32) (a3 : FVec Ideal S1536 .f32) (a4 : FVec Ideal S512x512 .f32) (a5 : FVec Ideal S512 .f32) (a6 : FVec Ideal S1536x512 .f32) (a7 : FVec Ideal S1536 .f32) (a8 : FVec Ideal S512x512 .f32) (a9 : FVec Ideal S512 .f32) (a10 : FVec Ideal S512 .f32) (a11 : FVec Ideal S512 .f32) (a12 : FVec Ideal S512 .f32) (a13 : FVec Ideal S512 .f32) (a14 : FVec Ideal S512 .f32) (a15 : FVec Ideal S512 .f32) (a16 : FVec Ideal S512 .f32) (a17 : FVec Ideal S512 .f32) (a18 : FVec Ideal S1024x512 .f32) (a19 : FVec Ideal S1024 .f32) (a20 : FVec Ideal S512x1024 .f32) (a21 : FVec Ideal S512 .f32) (a22 : FVec Ideal S1024x512 .f32) (a23 : FVec Ideal S1024 .f32) (a24 : FVec Ideal S512x1024 .f32) (a25 : FVec Ideal S512 .f32)
    (h : fn (F := Ideal) a0 a1 a2 a3 a4 a5 a6 a7 a8 a9 a10 a11 a12 a13 a14 a15 a16 a17 a18 a19 a20 a21 a22 a23 a24 a25 = (fun _ => 1#1)) :
    (∀ i, ∃ r : ℝ, a0 i = (r : EReal)) ∧ (∀ i, ∃ r : ℝ, a1 i = (r : EReal)) ∧ (∀ i, ∃ r : ℝ, a2 i = (r : EReal)) ∧
    (∀ i, ∃ r : ℝ, a3 i = (r : EReal)) ∧ (∀ i, ∃ r : ℝ, a6 i = (r : EReal)) ∧ (∀ i, ∃ r : ℝ, a7 i = (r : EReal)) := by
  have e := congrFun h ValueIdx.ix0
  unfold fn at e
  dsimp only at e
  obtain ⟨h13, h16, h6, h7⟩ := part1 e
  have h8 := andi_left h13
  exact ⟨all_real a0 _ _ _ _ (andi_left h8), all_real a1 _ _ _ _ (andi_right h8), all_real a2 _ _ _ _ (andi_right h13),
    all_real_of_cmp a3 _ h16, h6, h7⟩

end Cert.FiniteInputs

end
-- ==== Proof.lean ====
/-
  The five claims. Both idealized programs compute, row by row, the same function of the two data rows and the
  parameter arrays: each branch projects the OTHER matrix's row to values, applies the output projection, adds its own
  row, normalises, applies the feed-forward block with its residual, and normalises again. The kernel computes exactly
  this (its matrix products with operands narrowed to a shorter float format: the identity on extended reals); the
  reference also forms queries, keys and scores and weighs the values by a softmax over the ONE key — a weight that is
  exactly 1 as soon as the score is a real number, which the finiteness of the inputs gives. The frames of the two
  kernel programs are the generated ones; the reference's frame is its run with the result dropped; the ideal pass
  rewrote nothing, so there is nothing to preserve.
-/
import proofs.«142812_j30056181138117_1_alg».proof.Defs
import proofs.«142812_j30056181138117_1_alg».proof.Proof.Gen.Kernel
import proofs.«142812_j30056181138117_1_alg».proof.Proof.Gen.Kernel.Skeleton
import proofs.«142812_j30056181138117_1_alg».proof.Proof.Gen.Kernel.Launch
import proofs.«142812_j30056181138117_1_alg».proof.Proof.Gen.Kernel.Points
import proofs.«142812_j30056181138117_1_alg».proof.Proof.Gen.Kernel.Frame
import proofs.«142812_j30056181138117_1_alg».proof.Proof.Gen.KernelIdeal
import proofs.«142812_j30056181138117_1_alg».proof.Proof.Gen.KernelIdeal.Skeleton
import proofs.«142812_j30056181138117_1_alg».proof.Proof.Gen.KernelIdeal.Launch
import proofs.«142812_j30056181138117_1_alg».proof.Proof.Gen.KernelIdeal.Points
import proofs.«142812_j30056181138117_1_alg».proof.Proof.Gen.KernelIdeal.Frame
import proofs.«142812_j30056181138117_1_alg».proof.Proof.Gen.ReferenceIdeal
import proofs.«142812_j30056181138117_1_alg».proof.Proof.Gen.Pre_finite_inputs
import proofs.«142812_j30056181138117_1_alg».proof.Proof.Gen.KernelIdeal.Value
import proofs.«142812_j30056181138117_1_alg».proof.Proof.KernelResult
import proofs.«142812_j30056181138117_1_alg».proof.Proof.RefResult
import proofs.«142812_j30056181138117_1_alg».proof.Proof.RefRun
import proofs.«142812_j30056181138117_1_alg».proof.Proof.FiniteInputs
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ

theorem frame_ki : Cert.frame_KernelIdeal := fun m ρ _ => Cert.KernelIdeal.Gen.frame m ρ

/-- The reference's run, its result dropped. -/
theorem frame_ri : Cert.frame_ReferenceIdeal := fun m ρ _ =>
  (θ_run Cert.ReferenceIdeal.defs _ _).mono (fun _ h c => (h c).2) (Cert.RefRun.run (F := Ideal) m ρ)

theorem preserves : Cert.preserves_Kernel_KernelIdeal := trivial

/-- Both runs end with the result array at the joined row function of the (agreeing) arguments. -/
theorem algebraic : Cert.algebraic_KernelIdeal_ReferenceIdeal := by
  intro m ρ m' ρ' hpre hagree
  refine ⟨fun c => Cert.KernelResult.value m c, Cert.KernelResult.run m ρ, ?_⟩
  refine (θ_run Cert.ReferenceIdeal.defs _ _).mono (fun _ h c => ⟨(h c).1.trans ?_, (h c).2⟩)
    (Cert.RefRun.run (F := Ideal) m' ρ')
  obtain ⟨h0, h1, h2, h3, h6, h7⟩ := Cert.FiniteInputs.real_of_pre _ _ _ _ _ _ _ _ _ _ _ _ _ _ _ _ _ _ _ _ _ _ _ _ _ _ (hpre c)
  obtain ⟨a0, a1, a2, a3, a4, a5, a6, a7, a8, a9, a10, a11, a12, a13, a14, a15, a16, a17, a18, a19, a20, a21, a22, a23, a24, a25⟩ := hagree c
  rw [a0, a1, a2, a3, a4, a5, a6, a7, a8, a9, a10, a11, a12, a13, a14, a15, a16, a17, a18, a19, a20, a21, a22, a23, a24, a25]
  exact Cert.RefResult.result_eq _ _ _ _ _ _ _ _ _ _ _ _ _ _ _ _ _ _ _ _ _ _ _ _ _ _ h0 h1 h2 h3 h6 h7

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
